-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576 : Shape := ⟨1, ![1048576]⟩
abbrev S_ : Shape := ⟨0, ![]⟩

class Facts : Prop where
  bcast_S_S1048576 : S_.BroadcastsInDim S1048576 (![] : Fin 0 → Fin S1048576.rank)
  reducesTo_S1048576_S_d0 : S1048576.ReducesTo [0] S_
  h_S_ : 0 < S_.numel

variable [Facts]

def fn {F : FTy → Type} [FloatOps F] (main_arg0 : FVec F S1048576 .f32) (main_arg1 : FVec F S1048576 .f32) (main_arg2 : FVec F S1048576 .f32) : IVec S_ 1 :=
  let main_v0 : FVec F S1048576 .f32 := Host.absf main_arg0
  let main_cst : FVec F S_ .f32 := constant S_ .f32 0x7F800000#32
  let main_v1 : FVec F S1048576 .f32 := broadcastInDim S1048576 ![] bcast_S_S1048576 main_cst
  let main_v2 : IVec S1048576 1 := cmpf .olt main_v0 main_v1
  let main_c : IVec S_ 1 := constantI S_ 1 1#1
  let main_v3 : IVec S_ 1 := (fun x v => Host.reduce IntOp.andi x v reducesTo_S1048576_S_d0 h_S_) main_v2 main_c
  let main_v4 : FVec F S1048576 .f32 := Host.absf main_arg1
  let main_cst_0 : FVec F S_ .f32 := constant S_ .f32 0x7F800000#32
  let main_v5 : FVec F S1048576 .f32 := broadcastInDim S1048576 ![] bcast_S_S1048576 main_cst_0
  let main_v6 : IVec S1048576 1 := cmpf .olt main_v4 main_v5
  let main_c_1 : IVec S_ 1 := constantI S_ 1 1#1
  let main_v7 : IVec S_ 1 := (fun x v => Host.reduce IntOp.andi x v reducesTo_S1048576_S_d0 h_S_) main_v6 main_c_1
  let main_v8 : IVec S_ 1 := andi main_v3 main_v7
  let main_v9 : FVec F S1048576 .f32 := Host.absf main_arg2
  let main_cst_2 : FVec F S_ .f32 := constant S_ .f32 0x7F800000#32
  let main_v10 : FVec F S1048576 .f32 := broadcastInDim S1048576 ![] bcast_S_S1048576 main_cst_2
  let main_v11 : IVec S1048576 1 := cmpf .olt main_v9 main_v10
  let main_c_3 : IVec S_ 1 := constantI S_ 1 1#1
  let main_v12 : IVec S_ 1 := (fun x v => Host.reduce IntOp.andi x v reducesTo_S1048576_S_d0 h_S_) main_v11 main_c_3
  let main_v13 : IVec S_ 1 := andi main_v8 main_v12
  main_v13
-- ==== Kernel.lean ====
abbrev S1048576 : Shape := ⟨1, ![1048576]⟩
abbrev S25x1 : Shape := ⟨2, ![25, 1]⟩
abbrev S25x1048576 : Shape := ⟨2, ![25, 1048576]⟩
abbrev S8192 : Shape := ⟨1, ![8192]⟩
abbrev S25x8192 : Shape := ⟨2, ![25, 8192]⟩
abbrev S1x8192 : Shape := ⟨2, ![1, 8192]⟩
abbrev S1x1048576 : Shape := ⟨2, ![1, 1048576]⟩
abbrev S_ : Shape := ⟨0, ![]⟩
abbrev S26214400 : Shape := ⟨1, ![26214400]⟩
abbrev S4194304 : Shape := ⟨1, ![4194304]⟩
abbrev S26214400x1 : Shape := ⟨2, ![26214400, 1]⟩
abbrev S2048x2048 : Shape := ⟨2, ![2048, 2048]⟩

abbrev nBuf : Space → Nat
  | .hbm => 45
  | .vmem => 14
  | .smem => 0
  | _ => 0

abbrev bufTy : (tb : Table) → Fin (tcTables nBuf tb) → BufTy
  | .hbm, ⟨0, _⟩ => ⟨S1048576, .f32⟩
  | .hbm, ⟨1, _⟩ => ⟨S1048576, .f32⟩
  | .hbm, ⟨2, _⟩ => ⟨S1048576, .f32⟩
  | .hbm, ⟨3, _⟩ => ⟨S25x1, .i32⟩
  | .hbm, ⟨4, _⟩ => ⟨S25x1, .i32⟩
  | .hbm, ⟨5, _⟩ => ⟨S25x1, .i32⟩
  | .hbm, ⟨6, _⟩ => ⟨S25x1, .i32⟩
  | .hbm, ⟨7, _⟩ => ⟨S25x1048576, .f32⟩
  | .hbm, ⟨8, _⟩ => ⟨S1048576, .i32⟩
  | .hbm, ⟨9, _⟩ => ⟨S1048576, .i32⟩
  | .hbm, ⟨10, _⟩ => ⟨S1x1048576, .i32⟩
  | .hbm, ⟨11, _⟩ => ⟨S25x1048576, .i32⟩
  | .hbm, ⟨12, _⟩ => ⟨S25x1048576, .i32⟩
  | .hbm, ⟨13, _⟩ => ⟨S25x1048576, .i32⟩
  | .hbm, ⟨14, _⟩ => ⟨S1x1048576, .i32⟩
  | .hbm, ⟨15, _⟩ => ⟨S25x1048576, .i32⟩
  | .hbm, ⟨16, _⟩ => ⟨S25x1048576, .i32⟩
  | .hbm, ⟨17, _⟩ => ⟨S25x1048576, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S25x1048576, .i32⟩
  | .hbm, ⟨22, _⟩ => ⟨S25x1048576, .i32⟩
  | .hbm, ⟨23, _⟩ => ⟨S_, .i32⟩
  | .hbm, ⟨24, _⟩ => ⟨S25x1048576, .i32⟩
  | .hbm, ⟨25, _⟩ => ⟨S25x1048576, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S25x1048576, .i32⟩
  | .hbm, ⟨30, _⟩ => ⟨S25x1048576, .i32⟩
  | .hbm, ⟨31, _⟩ => ⟨S_, .i32⟩
  | .hbm, ⟨32, _⟩ => ⟨S25x1048576, .i32⟩
  | .hbm, ⟨33, _⟩ => ⟨S25x1048576, .i32⟩
  | .hbm, ⟨34, _⟩ => ⟨S_, .i32⟩
  | .hbm, ⟨35, _⟩ => ⟨S25x1048576, .i32⟩
  | .hbm, ⟨36, _⟩ => ⟨S25x1048576, .i32⟩
  | .hbm, ⟨37, _⟩ => ⟨S25x1048576, .i32⟩
  | .hbm, ⟨38, _⟩ => ⟨S26214400, .i32⟩
  | .hbm, ⟨39, _⟩ => ⟨S26214400, .f32⟩
  | .hbm, ⟨40, _⟩ => ⟨S_, .f32⟩
  | .hbm, ⟨41, _⟩ => ⟨S4194304, .f32⟩
  | .hbm, ⟨42, _⟩ => ⟨S26214400x1, .i32⟩
  | .hbm, ⟨43, _⟩ => ⟨S4194304, .f32⟩
  | .hbm, ⟨44, _⟩ => ⟨S2048x2048, .f32⟩
  | .local _ .vmem, ⟨0, _⟩ => ⟨S8192, .f32⟩
  | .local _ .vmem, ⟨1, _⟩ => ⟨S8192, .f32⟩
  | .local _ .vmem, ⟨2, _⟩ => ⟨S8192, .f32⟩
  | .local _ .vmem, ⟨3, _⟩ => ⟨S8192, .f32⟩
  | .local _ .vmem, ⟨4, _⟩ => ⟨S8192, .f32⟩
  | .local _ .vmem, ⟨5, _⟩ => ⟨S8192, .f32⟩
  | .local _ .vmem, ⟨6, _⟩ => ⟨S25x1, .i32⟩
  | .local _ .vmem, ⟨7, _⟩ => ⟨S25x1, .i32⟩
  | .local _ .vmem, ⟨8, _⟩ => ⟨S25x8192, .f32⟩
  | .local _ .vmem, ⟨9, _⟩ => ⟨S25x8192, .f32⟩
  | .local _ .vmem, ⟨10, _⟩ => ⟨S8192, .i32⟩
  | .local _ .vmem, ⟨11, _⟩ => ⟨S8192, .i32⟩
  | .local _ .vmem, ⟨12, _⟩ => ⟨S8192, .i32⟩
  | .local _ .vmem, ⟨13, _⟩ => ⟨S8192, .i32⟩
  | _, _ => ⟨S1048576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_3 : Ref sig .tc := ⟨.hbm, 18, rfl⟩
abbrev main_c_4 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v9 : Ref sig .tc := ⟨.hbm, 25, rfl⟩
abbrev main_c_5 : Ref sig .tc := ⟨.hbm, 26, rfl⟩
abbrev main_c_6 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v10 : Ref sig .tc := ⟨.hbm, 33, rfl⟩
abbrev main_c_7 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_cst : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 1 → Nat :=
  let arg0 : BitVec 32 := BitVec.ofNat 32 (i 0).val
  let c0_i32 : BitVec 32 := 0#32
  ![arg0.toNat]

def cc0_transform_7 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S25x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S25x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S25x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8192 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8192 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S8192_S8192_0 : ∀ a, (![0] : Fin 1 → Nat) a + S8192.size a ≤ S8192.size a
  h_S8192 : 0 < S8192.numel
  inb_S25x1_S25x1_0_0 : ∀ a, (![0, 0] : Fin 2 → Nat) a + S25x1.size a ≤ S25x1.size a
  h_S25x1 : 0 < S25x1.numel
  shapeCasts_S25x1_S25x1 : S25x1.ShapeCasts S25x1
  broadcasts_S25x1_S25x8192 : S25x1.Broadcasts S25x8192
  shapeCasts_S8192_S1x8192 : S8192.ShapeCasts S1x8192
  shapeCasts_S1x8192_S1x8192 : S1x8192.ShapeCasts S1x8192
  broadcasts_S1x8192_S25x8192 : S1x8192.Broadcasts S25x8192
  reduces_S25x8192_S8192 : S25x8192.Reduces [0] S8192
  inb_S25x8192_S25x8192_0_0 : ∀ a, (![0, 0] : Fin 2 → Nat) a + S25x8192.size a ≤ S25x8192.size a
  h_S25x8192 : 0 < S25x8192.numel
  bcast_S1048576_S1x1048576_1 : S1048576.BroadcastsInDim S1x1048576 (![1] : Fin 1 → Fin S1x1048576.rank)
  bcast_S1x1048576_S25x1048576_0_1 : S1x1048576.BroadcastsInDim S25x1048576 (![0, 1] : Fin 2 → Fin S25x1048576.rank)
  bcast_S25x1_S25x1048576_0_1 : S25x1.BroadcastsInDim S25x1048576 (![0, 1] : Fin 2 → Fin S25x1048576.rank)
  bcast_S_S25x1048576 : S_.BroadcastsInDim S25x1048576 (![] : Fin 0 → Fin S25x1048576.rank)
  shapeCasts_S25x1048576_S26214400 : S25x1048576.ShapeCasts S26214400
  bcast_S_S4194304 : S_.BroadcastsInDim S4194304 (![] : Fin 0 → Fin S4194304.rank)
  bcast_S26214400_S26214400x1_0 : S26214400.BroadcastsInDim S26214400x1 (![0] : Fin 1 → Fin S26214400x1.rank)
  shapeCasts_S4194304_S2048x2048 : S4194304.ShapeCasts S2048x2048
  scatter_S4194304_S26214400x1_S26214400_n_0_0_1_wf : ScatterDims.WF S4194304 S26214400x1 S26214400 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192.size a ≤ S1048576.size a
  hwx0_0 : ∀ i : grid0.Coords, EltTy.bits .f32 = 32 ∨ (Rect.block (s := S1048576) S8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192.size a ≤ S1048576.size a
  hwx0_1 : ∀ i : grid0.Coords, EltTy.bits .f32 = 32 ∨ (Rect.block (s := S1048576) S8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192.size a ≤ S1048576.size a
  hwx0_2 : ∀ i : grid0.Coords, EltTy.bits .f32 = 32 ∨ (Rect.block (s := S1048576) S8192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S25x1.size a ≤ S25x1.size a
  hwx0_3 : ∀ i : grid0.Coords, EltTy.bits .i32 = 32 ∨ (Rect.block (s := S25x1) S25x1.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S25x1.size a ≤ S25x1.size a
  hwx0_4 : ∀ i : grid0.Coords, EltTy.bits .i32 = 32 ∨ (Rect.block (s := S25x1) S25x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S25x8192.size a ≤ S25x1048576.size a
  hwx0_5 : ∀ i : grid0.Coords, EltTy.bits .f32 = 32 ∨ (Rect.block (s := S25x1048576) S25x8192.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8192.size a ≤ S1048576.size a
  hwx0_6 : ∀ i : grid0.Coords, EltTy.bits .i32 = 32 ∨ (Rect.block (s := S1048576) S8192.size (cc0_transform_6 i) (hinb0_6 i)).WholeWords (EltTy.packing .i32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8192.size a ≤ S1048576.size a
  hwx0_7 : ∀ i : grid0.Coords, EltTy.bits .i32 = 32 ∨ (Rect.block (s := S1048576) S8192.size (cc0_transform_7 i) (hinb0_7 i)).WholeWords (EltTy.packing .i32)

variable [Facts₀]

def scatter_S4194304_S26214400x1_S26214400_n_0_0_1 : ScatterDims S4194304 S26214400x1 S26214400 where
  updateWindowDims := []
  insertedWindowDims := [0]
  scatterDimsToOperandDims := [0]
  indexVectorDim := 1
  wf := scatter_S4194304_S26214400x1_S26214400_n_0_0_1_wf

abbrev win0_0 : Pipeline.Window sig grid0 :=
  Pipeline.Window.ofSpec (Memref.whole main_arg0) S8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_c) S25x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_c_0) S25x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S25x8192.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S8192.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_2) S8192.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1048576 : Shape := ⟨1, ![1048576]⟩
abbrev S25 : Shape := ⟨1, ![25]⟩
abbrev S_ : Shape := ⟨0, ![]⟩
abbrev S1048576x1 : Shape := ⟨2, ![1048576, 1]⟩
abbrev S1x25 : Shape := ⟨2, ![1, 25]⟩
abbrev S1048576x25 : Shape := ⟨2, ![1048576, 25]⟩
abbrev S26214400 : Shape := ⟨1, ![26214400]⟩
abbrev S4194304 : Shape := ⟨1, ![4194304]⟩
abbrev S26214400x1 : Shape := ⟨2, ![26214400, 1]⟩
abbrev S2048x2048 : Shape := ⟨2, ![2048, 2048]⟩

abbrev nBuf : Space → Nat
  | .hbm => 109
  | .vmem => 0
  | .smem => 0
  | _ => 0

abbrev bufTy : (tb : Table) → Fin (tcTables nBuf tb) → BufTy
  | .hbm, ⟨0, _⟩ => ⟨S1048576, .f32⟩
  | .hbm, ⟨1, _⟩ => ⟨S1048576, .f32⟩
  | .hbm, ⟨2, _⟩ => ⟨S1048576, .f32⟩
  | .hbm, ⟨3, _⟩ => ⟨S25, .i32⟩
  | .hbm, ⟨4, _⟩ => ⟨S25, .i32⟩
  | .hbm, ⟨5, _⟩ => ⟨S_, .f32⟩
  | .hbm, ⟨6, _⟩ => ⟨S1048576, .f32⟩
  | .hbm, ⟨7, _⟩ => ⟨S1048576, .f32⟩
  | .hbm, ⟨8, _⟩ => ⟨S_, .f32⟩
  | .hbm, ⟨9, _⟩ => ⟨S1048576, .f32⟩
  | .hbm, ⟨10, _⟩ => ⟨S1048576, .f32⟩
  | .hbm, ⟨11, _⟩ => ⟨S_, .f32⟩
  | .hbm, ⟨12, _⟩ => ⟨S1048576, .f32⟩
  | .hbm, ⟨13, _⟩ => ⟨S1048576, .f32⟩
  | .hbm, ⟨14, _⟩ => ⟨S_, .f32⟩
  | .hbm, ⟨15, _⟩ => ⟨S1048576, .f32⟩
  | .hbm, ⟨16, _⟩ => ⟨S1048576, .f32⟩
  | .hbm, ⟨17, _⟩ => ⟨S1048576, .f32⟩
  | .hbm, ⟨18, _⟩ => ⟨S1048576, .i32⟩
  | .hbm, ⟨19, _⟩ => ⟨S1048576, .f32⟩
  | .hbm, ⟨20, _⟩ => ⟨S1048576, .i32⟩
  | .hbm, ⟨21, _⟩ => ⟨S1048576, .f32⟩
  | .hbm, ⟨22, _⟩ => ⟨S1048576, .f32⟩
  | .hbm, ⟨23, _⟩ => ⟨S1048576, .f32⟩
  | .hbm, ⟨24, _⟩ => ⟨S1048576, .f32⟩
  | .hbm, ⟨25, _⟩ => ⟨S1048576x1, .i32⟩
  | .hbm, ⟨26, _⟩ => ⟨S1x25, .i32⟩
  | .hbm, ⟨27, _⟩ => ⟨S1048576x25, .i32⟩
  | .hbm, ⟨28, _⟩ => ⟨S1048576x25, .i32⟩
  | .hbm, ⟨29, _⟩ => ⟨S1048576x25, .i32⟩
  | .hbm, ⟨30, _⟩ => ⟨S1048576x1, .i32⟩
  | .hbm, ⟨31, _⟩ => ⟨S1x25, .i32⟩
  | .hbm, ⟨32, _⟩ => ⟨S1048576x25, .i32⟩
  | .hbm, ⟨33, _⟩ => ⟨S1048576x25, .i32⟩
  | .hbm, ⟨34, _⟩ => ⟨S1048576x25, .i32⟩
  | .hbm, ⟨35, _⟩ => ⟨S1048576x1, .f32⟩
  | .hbm, ⟨36, _⟩ => ⟨S1x25, .i32⟩
  | .hbm, ⟨37, _⟩ => ⟨S1x25, .f32⟩
  | .hbm, ⟨38, _⟩ => ⟨S1048576x25, .f32⟩
  | .hbm, ⟨39, _⟩ => ⟨S1048576x25, .f32⟩
  | .hbm, ⟨40, _⟩ => ⟨S1048576x25, .f32⟩
  | .hbm, ⟨41, _⟩ => ⟨S1048576x1, .f32⟩
  | .hbm, ⟨42, _⟩ => ⟨S1x25, .i32⟩
  | .hbm, ⟨43, _⟩ => ⟨S1x25, .f32⟩
  | .hbm, ⟨44, _⟩ => ⟨S1048576x25, .f32⟩
  | .hbm, ⟨45, _⟩ => ⟨S1048576x25, .f32⟩
  | .hbm, ⟨46, _⟩ => ⟨S1048576x25, .f32⟩
  | .hbm, ⟨47, _⟩ => ⟨S1048576x25, .f32⟩
  | .hbm, ⟨48, _⟩ => ⟨S1048576x25, .f32⟩
  | .hbm, ⟨49, _⟩ => ⟨S1048576x25, .f32⟩
  | .hbm, ⟨50, _⟩ => ⟨S_, .f32⟩
  | .hbm, ⟨51, _⟩ => ⟨S1048576x25, .f32⟩
  | .hbm, ⟨52, _⟩ => ⟨S1048576x25, .f32⟩
  | .hbm, ⟨53, _⟩ => ⟨S_, .f32⟩
  | .hbm, ⟨54, _⟩ => ⟨S1048576x25, .f32⟩
  | .hbm, ⟨55, _⟩ => ⟨S1048576x25, .f32⟩
  | .hbm, ⟨56, _⟩ => ⟨S1048576x25, .f32⟩
  | .hbm, ⟨57, _⟩ => ⟨S_, .f32⟩
  | .hbm, ⟨58, _⟩ => ⟨S1048576, .f32⟩
  | .hbm, ⟨59, _⟩ => ⟨S1048576x1, .f32⟩
  | .hbm, ⟨60, _⟩ => ⟨S1048576x25, .f32⟩
  | .hbm, ⟨61, _⟩ => ⟨S1048576x25, .f32⟩
  | .hbm, ⟨62, _⟩ => ⟨S_, .i32⟩
  | .hbm, ⟨63, _⟩ => ⟨S1048576x25, .i32⟩
  | .hbm, ⟨64, _⟩ => ⟨S1048576x25, .i1⟩
  | .hbm, ⟨65, _⟩ => ⟨S_, .i32⟩
  | .hbm, ⟨66, _⟩ => ⟨S1048576x25, .i32⟩
  | .hbm, ⟨67, _⟩ => ⟨S1048576x25, .i1⟩
  | .hbm, ⟨68, _⟩ => ⟨S1048576x25, .i1⟩
  | .hbm, ⟨69, _⟩ => ⟨S_, .i32⟩
  | .hbm, ⟨70, _⟩ => ⟨S1048576x25, .i32⟩
  | .hbm, ⟨71, _⟩ => ⟨S1048576x25, .i1⟩
  | .hbm, ⟨72, _⟩ => ⟨S1048576x25, .i1⟩
  | .hbm, ⟨73, _⟩ => ⟨S_, .i32⟩
  | .hbm, ⟨74, _⟩ => ⟨S1048576x25, .i32⟩
  | .hbm, ⟨75, _⟩ => ⟨S1048576x25, .i1⟩
  | .hbm, ⟨76, _⟩ => ⟨S1048576x25, .i1⟩
  | .hbm, ⟨77, _⟩ => ⟨S_, .i32⟩
  | .hbm, ⟨78, _⟩ => ⟨S_, .i32⟩
  | .hbm, ⟨79, _⟩ => ⟨S_, .i32⟩
  | .hbm, ⟨80, _⟩ => ⟨S1048576x25, .i32⟩
  | .hbm, ⟨81, _⟩ => ⟨S1048576x25, .i32⟩
  | .hbm, ⟨82, _⟩ => ⟨S_, .i32⟩
  | .hbm, ⟨83, _⟩ => ⟨S1048576x25, .i32⟩
  | .hbm, ⟨84, _⟩ => ⟨S1048576x25, .i32⟩
  | .hbm, ⟨85, _⟩ => ⟨S_, .i32⟩
  | .hbm, ⟨86, _⟩ => ⟨S_, .i32⟩
  | .hbm, ⟨87, _⟩ => ⟨S_, .i32⟩
  | .hbm, ⟨88, _⟩ => ⟨S1048576x25, .i32⟩
  | .hbm, ⟨89, _⟩ => ⟨S1048576x25, .i32⟩
  | .hbm, ⟨90, _⟩ => ⟨S_, .i32⟩
  | .hbm, ⟨91, _⟩ => ⟨S1048576x25, .i32⟩
  | .hbm, ⟨92, _⟩ => ⟨S1048576x25, .i32⟩
  | .hbm, ⟨93, _⟩ => ⟨S1048576x1, .f32⟩
  | .hbm, ⟨94, _⟩ => ⟨S1048576x25, .f32⟩
  | .hbm, ⟨95, _⟩ => ⟨S1048576x25, .f32⟩
  | .hbm, ⟨96, _⟩ => ⟨S1048576x25, .f32⟩
  | .hbm, ⟨97, _⟩ => ⟨S1048576x25, .f32⟩
  | .hbm, ⟨98, _⟩ => ⟨S_, .i32⟩
  | .hbm, ⟨99, _⟩ => ⟨S1048576x25, .i32⟩
  | .hbm, ⟨100, _⟩ => ⟨S1048576x25, .i32⟩
  | .hbm, ⟨101, _⟩ => ⟨S1048576x25, .i32⟩
  | .hbm, ⟨102, _⟩ => ⟨S26214400, .i32⟩
  | .hbm, ⟨103, _⟩ => ⟨S26214400, .f32⟩
  | .hbm, ⟨104, _⟩ => ⟨S_, .f32⟩
  | .hbm, ⟨105, _⟩ => ⟨S4194304, .f32⟩
  | .hbm, ⟨106, _⟩ => ⟨S26214400x1, .i32⟩
  | .hbm, ⟨107, _⟩ => ⟨S4194304, .f32⟩
  | .hbm, ⟨108, _⟩ => ⟨S2048x2048, .f32⟩
  | _, _ => ⟨S1048576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_cst_2 : Ref sig .tc := ⟨.hbm, 11, rfl⟩
abbrev main_v4 : Ref sig .tc := ⟨.hbm, 12, rfl⟩
abbrev main_v5 : Ref sig .tc := ⟨.hbm, 13, rfl⟩
abbrev main_cst_3 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_4 : Ref sig .tc := ⟨.hbm, 50, rfl⟩
abbrev main_v41 : Ref sig .tc := ⟨.hbm, 51, rfl⟩
abbrev main_v42 : Ref sig .tc := ⟨.hbm, 52, rfl⟩
abbrev main_cst_5 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_6 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_c_7 : Ref sig .tc := ⟨.hbm, 62, rfl⟩
abbrev main_v50 : Ref sig .tc := ⟨.hbm, 63, rfl⟩
abbrev main_v51 : Ref sig .tc := ⟨.hbm, 64, rfl⟩
abbrev main_c_8 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_c_9 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_c_10 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_c_11 : Ref sig .tc := ⟨.hbm, 77, rfl⟩
abbrev main_c_12 : Ref sig .tc := ⟨.hbm, 78, rfl⟩
abbrev main_call0_v0 : Ref sig .tc := ⟨.hbm, 79, rfl⟩
abbrev main_call0_v1 : Ref sig .tc := ⟨.hbm, 80, rfl⟩
abbrev main_call0_v2 : Ref sig .tc := ⟨.hbm, 81, rfl⟩
abbrev main_call0_v3 : Ref sig .tc := ⟨.hbm, 82, rfl⟩
abbrev main_call0_v4 : Ref sig .tc := ⟨.hbm, 83, rfl⟩
abbrev main_v61 : Ref sig .tc := ⟨.hbm, 84, rfl⟩
abbrev main_c_13 : Ref sig .tc := ⟨.hbm, 85, rfl⟩
abbrev main_c_14 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_c_15 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_16 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩

abbrev nD : Nat := 1
abbrev τ : Topo := Topo.v7x

variable {F : FTy → Type} [FloatOps F]

class Facts₀ : Prop where
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S25_S1x25_1 : S25.BroadcastsInDim S1x25 (![1] : Fin 1 → Fin S1x25.rank)
  bcast_S1048576x1_S1048576x25_0_1 : S1048576x1.BroadcastsInDim S1048576x25 (![0, 1] : Fin 2 → Fin S1048576x25.rank)
  bcast_S1x25_S1048576x25_0_1 : S1x25.BroadcastsInDim S1048576x25 (![0, 1] : Fin 2 → Fin S1048576x25.rank)
  bcast_S_S1048576x25 : S_.BroadcastsInDim S1048576x25 (![] : Fin 0 → Fin S1048576x25.rank)
  reducesTo_S1048576x25_S1048576_d1 : S1048576x25.ReducesTo [1] S1048576
  h_S_ : 0 < S_.numel
  shapeCasts_S1048576x25_S26214400 : S1048576x25.ShapeCasts S26214400
  bcast_S_S4194304 : S_.BroadcastsInDim S4194304 (![] : Fin 0 → Fin S4194304.rank)
  bcast_S26214400_S26214400x1_0 : S26214400.BroadcastsInDim S26214400x1 (![0] : Fin 1 → Fin S26214400x1.rank)
  shapeCasts_S4194304_S2048x2048 : S4194304.ShapeCasts S2048x2048
  scatter_S4194304_S26214400x1_S26214400_n_0_0_1_wf : ScatterDims.WF S4194304 S26214400x1 S26214400 [] [0] [0] 1

variable [Facts₀]

def scatter_S4194304_S26214400x1_S26214400_n_0_0_1 : ScatterDims S4194304 S26214400x1 S26214400 where
  updateWindowDims := []
  insertedWindowDims := [0]
  scatterDimsToOperandDims := [0]
  indexVectorDim := 1
  wf := scatter_S4194304_S26214400x1_S26214400_n_0_0_1_wf

class Facts : Prop extends Facts₀ where

variable [Facts]
-- ==== Proof.Spec.lean ====
/-
  The mathematics both programs compute, one image point and one tap at a time, on the extended reals.

  A point (x, y) with value v is carried to pixel coordinates pix x = (x + 1) / 2⁻¹⁰ and pix y; its base pixel is the
  integer part (base), and its offset inside the pixel the remainder (frac). The point is spread over the 5 × 5 pixels
  around its base pixel: tap t sits at (base x + offx t, base y + offy t) and receives the share wt / wsum of v, where
  wt = exp (-½ · ((frac x - offx t)² + (frac y - offy t)²) / ¼) and wsum is the sum of the 25 weights. A tap that leaves
  the 2048 × 2048 image contributes nothing: one program selects zero there, the other multiplies by the 0/1 flag, and on
  the extended reals a · 1 = a and a · 0 = 0 for every a, infinite ones included, so the two agree with no assumption.
  Every tap is added to the image cell whose flat index is row · 2048 + column of its clamped pixel (cell).
-/
import Idealize.ShloMosaic.PureOps.Ideal
import Idealize.ShloMosaic.PureOps.Ideal.Laws
import Idealize.ShloMosaic.Lib.ValueIdx

noncomputable section

namespace Cert.Splat

open Idealize.ShloMosaic

/-- An extended real, as a float of the idealized programs. -/
abbrev E : Type := Ideal .f32

/-- The taps' horizontal pixel offsets: -2 … 2, five times. -/
def offx : Fin 25 → BitVec 32 := fun
  | 0 => 4294967294#32 | 1 => 4294967295#32 | 2 => 0#32 | 3 => 1#32 | 4 => 2#32 | 5 => 4294967294#32 | 6 => 4294967295#32 | 7 => 0#32
  | 8 => 1#32 | 9 => 2#32 | 10 => 4294967294#32 | 11 => 4294967295#32 | 12 => 0#32 | 13 => 1#32 | 14 => 2#32 | 15 => 4294967294#32
  | 16 => 4294967295#32 | 17 => 0#32 | 18 => 1#32 | 19 => 2#32 | 20 => 4294967294#32 | 21 => 4294967295#32 | 22 => 0#32 | 23 => 1#32
  | 24 => 2#32
  | _ => 0#32

/-- The taps' vertical pixel offsets: five of each of -2 … 2. -/
def offy : Fin 25 → BitVec 32 := fun
  | 0 => 4294967294#32 | 1 => 4294967294#32 | 2 => 4294967294#32 | 3 => 4294967294#32 | 4 => 4294967294#32 | 5 => 4294967295#32 | 6 => 4294967295#32 | 7 => 4294967295#32
  | 8 => 4294967295#32 | 9 => 4294967295#32 | 10 => 0#32 | 11 => 0#32 | 12 => 0#32 | 13 => 0#32 | 14 => 0#32 | 15 => 1#32
  | 16 => 1#32 | 17 => 1#32 | 18 => 1#32 | 19 => 1#32 | 20 => 2#32 | 21 => 2#32 | 22 => 2#32 | 23 => 2#32
  | 24 => 2#32
  | _ => 0#32

/-- The pixel coordinate of a position: (x - (-1)) / 2⁻¹⁰. -/
def pix (x : E) : E :=
  FloatOps.divf (FloatOps.subf x (FloatOps.ofBits .f32 0xBF800000#32)) (FloatOps.ofBits .f32 0x3A800000#32)

/-- The base pixel: the integer part of the pixel coordinate, as a 32-bit integer. -/
def base (x : E) : BitVec 32 := FloatOps.fptosi 32 (FloatOps.floor (pix x))

/-- The offset inside the base pixel. -/
def frac (x : E) : E := FloatOps.subf (pix x) (FloatOps.sitofp .f32 (base x))

/-- The squared distance, along one axis, from the point to the tap at integer offset o. -/
def sq (a : E) (o : BitVec 32) : E :=
  FloatOps.mulf (FloatOps.subf a (FloatOps.sitofp .f32 o)) (FloatOps.subf a (FloatOps.sitofp .f32 o))

/-- Tap t's Gaussian weight before normalisation. -/
def wt (x y : E) (t : Fin 25) : E :=
  FloatOps.exp (FloatOps.divf
    (FloatOps.mulf (FloatOps.ofBits .f32 0xBF000000#32) (FloatOps.addf (sq (frac x) (offx t)) (sq (frac y) (offy t))))
    (FloatOps.ofBits .f32 0x3E800000#32))

/-- The sum of the 25 weights of a point. -/
def wsum (x y : E) : E := ∑ t : Fin 25, wt x y t

/-- Tap t's pixel column and row. -/
def xi (x : E) (t : Fin 25) : BitVec 32 := IntOp.addi (base x) (offx t)
def yi (y : E) (t : Fin 25) : BitVec 32 := IntOp.addi (base y) (offy t)

/-- Whether tap t lies inside the image, as a one-bit flag. -/
def ok (x y : E) (t : Fin 25) : BitVec 1 :=
  IntOp.andi (IntOp.andi (IntOp.andi (IntOp.cmpi .sge (xi x t) 0#32) (IntOp.cmpi .slt (xi x t) 2048#32))
    (IntOp.cmpi .sge (yi y t) 0#32)) (IntOp.cmpi .slt (yi y t) 2048#32)

/-- Tap t's normalised share of the value v. -/
def share (x y v : E) (t : Fin 25) : E := FloatOps.mulf v (FloatOps.divf (wt x y t) (wsum x y))

/-- The tap's contribution, with zero selected outside the image. -/
def tapSel (x y v : E) (t : Fin 25) : E := Scalar.select (ok x y t) (share x y v t) (FloatOps.ofBits .f32 0x00000000#32)

/-- The tap's contribution, multiplied by the 0/1 flag. -/
def tapMul (x y v : E) (t : Fin 25) : E := FloatOps.mulf (share x y v t) (FloatOps.uitofp .f32 (ok x y t))

/-- A one-bit flag is zero or one. -/
theorem bit_cases (c : BitVec 1) : c = 0#1 ∨ c = 1#1 := by
  revert c; decide

/-- Selecting zero where the flag is down is multiplying by the flag: a · 1 = a and a · 0 = 0 on all extended reals. -/
theorem tapSel_eq_tapMul (x y v : E) (t : Fin 25) : tapSel x y v t = tapMul x y v t := by
  unfold tapSel tapMul
  rcases bit_cases (ok x y t) with h | h
  · rw [h]
    show Ideal.ofBits .f32 0x00000000#32 = share x y v t * (((0#1 : BitVec 1).toNat : ℝ) : EReal)
    rw [Ideal.ofBits_zero_f32]
    simp
  · rw [h]
    show share x y v t = share x y v t * (((1#1 : BitVec 1).toNat : ℝ) : EReal)
    simp

/-- A pixel coordinate clamped into the image. -/
def clip (b : BitVec 32) : BitVec 32 := IntOp.minsi 2047#32 (IntOp.maxsi 0#32 b)

/-- The flat index of the image cell tap t is added to: clamped row times 2048 plus clamped column. -/
def cell (x y : E) (t : Fin 25) : BitVec 32 :=
  IntOp.addi (IntOp.muli (clip (yi y t)) 2048#32) (clip (xi x t))

end Cert.Splat

end
-- ==== Proof.Relayout.lean ====
/-
  The accumulating scatter of 25 × 1048576 contributions into 4194304 cells does not depend on the order in which the
  contributions are laid out. Each contribution carries the index of the cell it is added to; on the extended reals the
  scatter's value at a cell is the cell's initial value plus the SUM of the contributions whose index lands on it, and a
  sum is the same whichever way its terms are listed. So the contributions listed tap by tap (tap t of point p at
  position t · 1048576 + p) and listed point by point (at position p · 25 + t) scatter to the same image, as soon as the
  two lists hold the same index and the same value for each pair (t, p).
-/
import Idealize.ShloMosaic.PureOps.Ideal
import Idealize.ShloMosaic.PureOps.Ideal.Laws
import Idealize.ShloMosaic.Lib.ValueIdx

noncomputable section

namespace Cert.Splat

open Idealize.ShloMosaic ValueIdx

abbrev S4194304 : Shape := ⟨1, ![4194304]⟩
abbrev S26214400 : Shape := ⟨1, ![26214400]⟩
abbrev S26214400x1 : Shape := ⟨2, ![26214400, 1]⟩
abbrev S25x1048576 : Shape := ⟨2, ![25, 1048576]⟩
abbrev S1048576x25 : Shape := ⟨2, ![1048576, 25]⟩

/-- The scatter's dimension numbers: one index per contribution, naming a cell of the one-axis image. -/
def dS : ScatterDims S4194304 S26214400x1 S26214400 where
  updateWindowDims := []
  insertedWindowDims := [0]
  scatterDimsToOperandDims := [0]
  indexVectorDim := 1
  wf := by decide

/-- Two contributions land on the same cell (or both outside) when their start indices and window coordinates agree. -/
theorem resultIdx?_congr {s si u : Shape} (d : ScatterDims s si u) {w : Nat} (j j' : u.Idx) (idx idx' : IVec si w)
    (hs : ∀ a, d.start j idx a = d.start j' idx' a) (hw : ∀ a, d.window j a = d.window j' a) :
    d.resultIdx? j idx = d.resultIdx? j' idx' := by
  unfold ScatterDims.resultIdx?
  simp only [hs, hw]

/-- The cell an index word names: inside the image the cell of that number, outside nothing. -/
def land (b : BitVec 32) : Option S4194304.Idx := dS.resultIdx? (ix1 (⟨0, by decide⟩ : Fin 26214400)) (fun _ => b)

/-- Contribution j reads its index at row j of the one-column index array, and lands where that word says. -/
theorem resultIdx?_column (X : S26214400.Idx → BitVec 32) (hb : S26214400.BroadcastsInDim S26214400x1 ![0])
    (j : S26214400.Idx) :
    dS.resultIdx? j (broadcastInDim S26214400x1 ![0] hb X) = land (X j) := by
  unfold land
  apply resultIdx?_congr
  · intro a
    unfold ScatterDims.start
    by_cases ha : a ∈ dS.scatterDimsToOperandDims
    · rw [dif_pos ha, dif_pos ha]
      refine congrArg BitVec.toInt (congrArg X ?_)
      funext a'
      match a' with
      | ⟨0, _⟩ => exact Fin.ext rfl
    · rw [dif_neg ha, dif_neg ha]
  · intro a; rfl

/-- Exchanging the two coordinates of a pair (tap, point). -/
def swapIdx : S25x1048576.Idx ≃ S1048576x25.Idx where
  toFun k := ix2 (n0 := 1048576) (n1 := 25) (k 1) (k 0)
  invFun k := ix2 (n0 := 25) (n1 := 1048576) (k 1) (k 0)
  left_inv k := by funext a; match a with | ⟨0, _⟩ => rfl | ⟨1, _⟩ => rfl
  right_inv k := by funext a; match a with | ⟨0, _⟩ => rfl | ⟨1, _⟩ => rfl

/-- The scatter of the contributions listed tap by tap is the scatter of the same contributions listed point by point. -/
theorem scatter_relayout (z : S4194304.Idx → EReal)
    (hb : S26214400.BroadcastsInDim S26214400x1 ![0])
    (hK : S25x1048576.ShapeCasts S26214400) (hR : S1048576x25.ShapeCasts S26214400)
    (A : S25x1048576.Idx → BitVec 32) (a : S25x1048576.Idx → EReal)
    (B : S1048576x25.Idx → BitVec 32) (b : S1048576x25.Idx → EReal)
    (hAB : ∀ (t : Fin 25) (p : Fin 1048576), A (ix2 t p) = B (ix2 p t))
    (hab : ∀ (t : Fin 25) (p : Fin 1048576), a (ix2 t p) = b (ix2 p t)) :
    Ideal.hostScatterAdd dS z (broadcastInDim S26214400x1 ![0] hb (shapeCast S26214400 A hK)) (shapeCast S26214400 a hK)
      = Ideal.hostScatterAdd dS z (broadcastInDim S26214400x1 ![0] hb (shapeCast S26214400 B hR)) (shapeCast S26214400 b hR) := by
  funext i
  unfold Ideal.hostScatterAdd
  refine congrArg (fun s => z i + s) ?_
  rw [Finset.sum_filter, Finset.sum_filter]
  have hL : ∀ j : S26214400.Idx,
      (if dS.resultIdx? j (broadcastInDim S26214400x1 ![0] hb (shapeCast S26214400 A hK)) = some i
        then shapeCast S26214400 a hK j else 0)
      = (fun k => if land (A k) = some i then a k else 0) (Shape.reshapeEquiv hK j) := by
    intro j; rw [resultIdx?_column]; rfl
  have hR' : ∀ j : S26214400.Idx,
      (if dS.resultIdx? j (broadcastInDim S26214400x1 ![0] hb (shapeCast S26214400 B hR)) = some i
        then shapeCast S26214400 b hR j else 0)
      = (fun k => if land (B k) = some i then b k else 0) (Shape.reshapeEquiv hR j) := by
    intro j; rw [resultIdx?_column]; rfl
  rw [Finset.sum_congr rfl (fun j _ => hL j), Finset.sum_congr rfl (fun j _ => hR' j)]
  rw [(Shape.reshapeEquiv hK).sum_comp (fun k => if land (A k) = some i then a k else 0),
    (Shape.reshapeEquiv hR).sum_comp (fun k => if land (B k) = some i then b k else 0),
    ← swapIdx.sum_comp (fun k => if land (B k) = some i then b k else 0)]
  refine Finset.sum_congr rfl fun k _ => ?_
  have hA : A k = B (swapIdx k) := (congrArg A (eq_ix2 k)).trans (hAB (k 0) (k 1))
  have ha : a k = b (swapIdx k) := (congrArg a (eq_ix2 k)).trans (hab (k 0) (k 1))
  rw [hA, ha]

end Cert.Splat

end
-- ==== Proof.LibTypedRef.lean ====
/-
  A host operation's result is written into a buffer whose declared type is, by a stated equation, the type of the value;
  the value is carried along that equation into the buffer and, when a later operation reads it, carried back. Carried
  there and back, a value is itself: the two transports cancel, whatever the value is.
-/
import Idealize.ShloMosaic.Lib.StableHlo

namespace Cert.Lib.TypedRef

open Idealize.ShloMosaic

/-- Contents carried to a typed reference's buffer type and back are the contents. -/
theorem ofBuf_toBuf {sg : RefSig} {T : BufTy} {Val : EltTy → Type} (x : StableHlo.TRef sg T) (v : T.Contents Val) :
    x.ofBuf (x.toBuf v) = v := by
  obtain ⟨r, h, _, _⟩ := x
  subst h
  rfl

/-- Contents of the buffer's type carried to the value's type and back are the contents. -/
theorem toBuf_ofBuf {sg : RefSig} {T : BufTy} {Val : EltTy → Type} (x : StableHlo.TRef sg T) (v : x.ref.ty.Contents Val) :
    x.toBuf (x.ofBuf v) = v := by
  obtain ⟨r, h, _, _⟩ := x
  subst h
  rfl

end Cert.Lib.TypedRef
-- ==== Proof.KernelTail.lean ====
/-
  What the kernel's program does after its one launch. The launch leaves three arrays: the [25, 1048576] array S of the
  taps' contributions (tap t of point p at (t, p)) and the two integer arrays xb, yb of the points' base pixels. The
  host lines that follow rebuild every tap's pixel from the base pixels and the two offset tables (c1: columns, c2: rows,
  each a [25, 1] table), clamp it into the image, form the flat cell index row · 2048 + column, and add every contribution
  to its cell with one accumulating scatter into the zero image. Here that stretch of lines is read back as one term of
  S, xb, yb, c1, c2, and the term is read at an index: cell (t, p) of the index array is the clamped pixel of tap t of
  point p, so the whole tail is the scatter of S along those cells.
-/
import proofs.«165584_j75892072120707_2_alg».proof.Proof.Gen.KernelIdeal.Frame
import proofs.«165584_j75892072120707_2_alg».proof.Proof.Spec
import proofs.«165584_j75892072120707_2_alg».proof.Proof.Relayout
import proofs.«165584_j75892072120707_2_alg».proof.Proof.LibTypedRef
import Idealize.ShloMosaic.Lib.StableHlo.Run
import Idealize.ShloMosaic.Lib.ValueIdx

set_option maxRecDepth 16384

noncomputable section

namespace Cert.KernelIdeal.KTail

open Idealize.ShloMosaic Idealize.ShloMosaic.TcCoe Idealize.SL.Sem Cert.KernelIdeal Cert.KernelIdeal.Gen ValueIdx

/-- A pixel coordinate from a base pixel and an offset, clamped into the image, as the host lines compute it for every
    (tap, point) at once: the base pixels repeated over the 25 taps, the offsets over the points. -/
def clampedK (b : S1048576.Idx → BitVec 32) (o : S25x1.Idx → BitVec 32) : S25x1048576.Idx → BitVec 32 :=
  minsi (broadcastInDim S25x1048576 ![] Facts₀.bcast_S_S25x1048576 (constantI S_ 32 2047#32))
    (maxsi (broadcastInDim S25x1048576 ![] Facts₀.bcast_S_S25x1048576 (constantI S_ 32 0#32))
      (addi (broadcastInDim S25x1048576 ![0, 1] Facts₀.bcast_S1x1048576_S25x1048576_0_1
          (broadcastInDim S1x1048576 ![1] Facts₀.bcast_S1048576_S1x1048576_1 b))
        (broadcastInDim S25x1048576 ![0, 1] Facts₀.bcast_S25x1_S25x1048576_0_1 o)))

/-- The flat cell index of every (tap, point): clamped row times 2048 plus clamped column. -/
def cellsVec (xb yb : S1048576.Idx → BitVec 32) (c1 c2 : S25x1.Idx → BitVec 32) : S25x1048576.Idx → BitVec 32 :=
  addi (muli (clampedK yb c2) (broadcastInDim S25x1048576 ![] Facts₀.bcast_S_S25x1048576 (constantI S_ 32 2048#32)))
    (clampedK xb c1)

/-- The host lines after the launch, as one term of the launch's three arrays and the two offset tables. -/
def tailVec (S : S25x1048576.Idx → Ideal .f32) (xb yb : S1048576.Idx → BitVec 32) (c1 c2 : S25x1.Idx → BitVec 32) :
    S2048x2048.Idx → Ideal .f32 :=
  shapeCast S2048x2048
    (Host.scatterAdd (F := Ideal) scatter_S4194304_S26214400x1_S26214400_n_0_0_1
      (broadcastInDim S4194304 ![] Facts₀.bcast_S_S4194304 (constant (F := Ideal) S_ .f32 0x00000000#32))
      (broadcastInDim S26214400x1 ![0] Facts₀.bcast_S26214400_S26214400x1_0
        (shapeCast S26214400 (cellsVec xb yb c1 c2) Facts₀.shapeCasts_S25x1048576_S26214400))
      (shapeCast S26214400 S Facts₀.shapeCasts_S25x1048576_S26214400))
    Facts₀.shapeCasts_S4194304_S2048x2048

/-- Reading the 39 lines back: the result buffer holds `tailVec` of what the five buffers they read held before. -/
theorem tail_read (W : Valuation τ sig (Elt Ideal)) :
    StableHlo.after ([hostOps1, hostOps1_1, hostOps1_2, hostOps1_3, hostOps1_4] : List (List (HloOp τ sig (Elt Ideal)))).flatten W
        (Proc.devRef .tc main_v19)
      = tailVec (W (Proc.devRef .tc main_v0_0)) (W (Proc.devRef .tc main_v0_1)) (W (Proc.devRef .tc main_v0_2))
          (W (Proc.devRef .tc main_c_1)) (W (Proc.devRef .tc main_c_2)) := by
  simp only [hostOps1, hostOps1_1, hostOps1_2, hostOps1_3, hostOps1_4, List.flatten_cons, List.flatten_nil, List.append_nil,
    List.cons_append, List.nil_append]
  after_results_simp
  rfl

/-- The base pixels repeated over the taps, read at (t, p): point p's base pixel. -/
theorem row_apply {α : Type} (b : S1048576.Idx → α) (t : Fin 25) (p : Fin 1048576) :
    broadcastInDim S25x1048576 ![0, 1] Facts₀.bcast_S1x1048576_S25x1048576_0_1
      (broadcastInDim S1x1048576 ![1] Facts₀.bcast_S1048576_S1x1048576_1 b) (ix2 t p) = b (ix1 p) := by
  show b _ = b _
  refine congrArg b ?_
  funext a
  match a with
  | ⟨0, _⟩ => exact Fin.ext rfl

/-- A [25, 1] table repeated over the points, read at (t, p): the table's entry t. -/
theorem col_apply {α : Type} (o : S25x1.Idx → α) (t : Fin 25) (p : Fin 1048576) :
    broadcastInDim S25x1048576 ![0, 1] Facts₀.bcast_S25x1_S25x1048576_0_1 o (ix2 t p) = o (ix2 (n0 := 25) (n1 := 1) t 0) := by
  show o _ = o _
  refine congrArg o ?_
  funext a
  match a with
  | ⟨0, _⟩ => exact Fin.ext rfl
  | ⟨1, _⟩ => exact Fin.ext rfl

/-- The clamped pixel of tap t of point p. -/
theorem clampedK_apply (b : S1048576.Idx → BitVec 32) (o : S25x1.Idx → BitVec 32) (t : Fin 25) (p : Fin 1048576) :
    clampedK b o (ix2 t p) = Cert.Splat.clip (IntOp.addi (b (ix1 p)) (o (ix2 (n0 := 25) (n1 := 1) t 0))) := by
  show IntOp.minsi 2047#32 (IntOp.maxsi 0#32 (IntOp.addi
      (broadcastInDim S25x1048576 ![0, 1] Facts₀.bcast_S1x1048576_S25x1048576_0_1
        (broadcastInDim S1x1048576 ![1] Facts₀.bcast_S1048576_S1x1048576_1 b) (ix2 t p))
      (broadcastInDim S25x1048576 ![0, 1] Facts₀.bcast_S25x1_S25x1048576_0_1 o (ix2 t p)))) = _
  rw [row_apply, col_apply]
  rfl

/-- The flat cell index of tap t of point p. -/
theorem cellsVec_apply (xb yb : S1048576.Idx → BitVec 32) (c1 c2 : S25x1.Idx → BitVec 32) (t : Fin 25) (p : Fin 1048576) :
    cellsVec xb yb c1 c2 (ix2 t p)
      = IntOp.addi (IntOp.muli (Cert.Splat.clip (IntOp.addi (yb (ix1 p)) (c2 (ix2 (n0 := 25) (n1 := 1) t 0)))) 2048#32)
          (Cert.Splat.clip (IntOp.addi (xb (ix1 p)) (c1 (ix2 (n0 := 25) (n1 := 1) t 0)))) := by
  show IntOp.addi (IntOp.muli (clampedK yb c2 (ix2 t p)) 2048#32) (clampedK xb c1 (ix2 t p)) = _
  rw [clampedK_apply, clampedK_apply]

/-- The cell index of tap (k 0) of point (k 1). -/
def cellsK (x y : S1048576.Idx → Ideal .f32) : S25x1048576.Idx → BitVec 32 := fun k =>
  Cert.Splat.cell (x (ix1 (n := 1048576) (k 1))) (y (ix1 (n := 1048576) (k 1))) (k 0)

/-- The selected contribution of tap (k 0) of point (k 1). -/
def tapsK (x y v : S1048576.Idx → Ideal .f32) : S25x1048576.Idx → Ideal .f32 := fun k =>
  Cert.Splat.tapSel (x (ix1 (n := 1048576) (k 1))) (y (ix1 (n := 1048576) (k 1))) (v (ix1 (n := 1048576) (k 1))) (k 0)

/-- The image the kernel's program computes, as one function of its three argument arrays: zero plus, at each cell, the
    sum of the contributions whose cell index names it, the contributions listed tap by tap. -/
def kernOut (x y v : S1048576.Idx → Ideal .f32) : S2048x2048.Idx → Ideal .f32 :=
  shapeCast S2048x2048
    (Ideal.hostScatterAdd Cert.Splat.dS (fun _ => FloatOps.ofBits (F := Ideal) .f32 0x00000000#32)
      (broadcastInDim S26214400x1 ![0] Facts₀.bcast_S26214400_S26214400x1_0
        (shapeCast S26214400 (cellsK x y) Facts₀.shapeCasts_S25x1048576_S26214400))
      (shapeCast S26214400 (tapsK x y v) Facts₀.shapeCasts_S25x1048576_S26214400))
    Facts₀.shapeCasts_S4194304_S2048x2048

/-- With the launch's arrays at the taps' contributions and the points' base pixels, and the tables at the taps' offsets,
    the tail is that image. -/
theorem tail_eq_kernOut (x y v : S1048576.Idx → Ideal .f32) (c1 c2 : S25x1.Idx → BitVec 32)
    (hc1 : ∀ t : Fin 25, c1 (ix2 (n0 := 25) (n1 := 1) t 0) = Cert.Splat.offx t)
    (hc2 : ∀ t : Fin 25, c2 (ix2 (n0 := 25) (n1 := 1) t 0) = Cert.Splat.offy t) :
    tailVec (tapsK x y v) (fun k => Cert.Splat.base (x k)) (fun k => Cert.Splat.base (y k)) c1 c2 = kernOut x y v := by
  have hcells : cellsVec (fun k => Cert.Splat.base (x k)) (fun k => Cert.Splat.base (y k)) c1 c2 = cellsK x y := by
    funext k
    obtain ⟨t, p, rfl⟩ : ∃ (t : Fin 25) (p : Fin 1048576), k = ix2 t p := ⟨k 0, k 1, eq_ix2 k⟩
    rw [cellsVec_apply, hc1, hc2]
    rfl
  unfold tailVec kernOut
  rw [hcells]
  rfl

end Cert.KernelIdeal.KTail

end
-- ==== Proof.KernelPay.lean ====
/-
  The kernel body's arithmetic, read one image point and one tap at a time on the extended reals.

  A block holds 8192 points. The body lays each per-point quantity (the value, the base pixel, the offset inside the
  pixel) as one row repeated over the 25 taps, and each per-tap quantity (the tap's two pixel offsets) as one column
  repeated over the 8192 points, so that at position (t, q) of the 25 × 8192 block every operand is the quantity of
  point q or of tap t. Every operation between them is pointwise, except the sum of the 25 weights of a point, which
  is a sum down a column of the block. Read at (t, q), the stored block is therefore tap t's selected contribution of
  point q, and the two integer blocks are each point's base pixel column and row.
-/
import proofs.«165584_j75892072120707_2_alg».proof.Proof.Gen.KernelIdeal.Frame
import proofs.«165584_j75892072120707_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KVal

open Idealize.ShloMosaic Idealize.ShloMosaic.TcCoe Idealize.SL.Sem Cert.KernelIdeal Cert.KernelIdeal.Gen ValueIdx

/-! ## Rows and columns repeated over the block -/

section Layout
variable {α : Type}

/-- A vector over the block's 8192 points, laid as one row and repeated over the 25 taps, reads at (t, q) its entry q. -/
theorem row_at (v : S8192.Idx → α) (h1 : S8192.ShapeCasts S1x8192) (h3 : S1x8192.Broadcasts S25x8192)
    (t : Fin 25) (q : Fin 8192) :
    broadcastTo S25x8192 (shapeCast S1x8192 v h1) h3 (ix2 t q) = v (ix1 q) :=
  (broadcastTo_1b_ab_apply (shapeCast S1x8192 v h1) h3 t q).trans (shapeCast_a_1a_apply v h1 (0 : Fin 1) q)

/-- The same with the row cast once more to its own shape. -/
theorem row_row_at (v : S8192.Idx → α) (h1 : S8192.ShapeCasts S1x8192) (h2 : S1x8192.ShapeCasts S1x8192)
    (h3 : S1x8192.Broadcasts S25x8192) (t : Fin 25) (q : Fin 8192) :
    broadcastTo S25x8192 (shapeCast S1x8192 (shapeCast S1x8192 v h1) h2) h3 (ix2 t q) = v (ix1 q) :=
  (congrArg (fun u => broadcastTo S25x8192 u h3 (ix2 t q)) (shapeCast_self (shapeCast S1x8192 v h1) h2)).trans
    (row_at v h1 h3 t q)

/-- A column of 25 entries repeated over the 8192 points reads at (t, q) its entry t. -/
theorem col_at (v : S25x1.Idx → α) (h1 : S25x1.ShapeCasts S25x1) (h2 : S25x1.Broadcasts S25x8192)
    (t : Fin 25) (q : Fin 8192) :
    broadcastTo S25x8192 (shapeCast S25x1 v h1) h2 (ix2 t q) = v (ix2 t (0 : Fin 1)) := by
  refine (congrArg (fun u => broadcastTo S25x8192 u h2 (ix2 t q)) (shapeCast_self v h1)).trans ?_
  refine broadcastTo_apply v h2 (ix2 t q) (ix2 t (0 : Fin 1)) fun ax => ?_
  match ax with
  | ⟨0, _⟩ => rfl
  | ⟨1, _⟩ => rfl

end Layout

/-! ## The per-point quantities -/

/-- The pixel coordinate of each point of a block. -/
theorem pay2_at (x : Vec Ideal S8192 .f32) (i : S8192.Idx) : k0_pay2 x i = Cert.Splat.pix (x i) := rfl
theorem pay3_at (x : Vec Ideal S8192 .f32) (i : S8192.Idx) : k0_pay3 x i = Cert.Splat.pix (x i) := rfl

/-- The base pixel of each point of a block: what the two integer blocks store. -/
theorem pay4_at (x : Vec Ideal S8192 .f32) (i : S8192.Idx) : k0_pay4 x i = Cert.Splat.base (x i) := rfl
theorem pay5_at (x : Vec Ideal S8192 .f32) (i : S8192.Idx) : k0_pay5 x i = Cert.Splat.base (x i) := rfl

/-- The values, repeated over the taps. -/
theorem pay8_at (x2 : Vec Ideal S8192 .f32) (t : Fin 25) (q : Fin 8192) : k0_pay8 x2 (ix2 t q) = x2 (ix1 q) :=
  row_row_at x2 shapeCasts_S8192_S1x8192 shapeCasts_S1x8192_S1x8192 broadcasts_S1x8192_S25x8192 t q

/-- The taps' offsets, repeated over the points. -/
theorem pay6_at (x3 : Vec Ideal S25x1 .i32) (t : Fin 25) (q : Fin 8192) :
    k0_pay6 (F := Ideal) x3 (ix2 t q) = x3 (ix2 t (0 : Fin 1)) :=
  col_at x3 shapeCasts_S25x1_S25x1 broadcasts_S25x1_S25x8192 t q
theorem pay7_at (x4 : Vec Ideal S25x1 .i32) (t : Fin 25) (q : Fin 8192) :
    k0_pay7 (F := Ideal) x4 (ix2 t q) = x4 (ix2 t (0 : Fin 1)) :=
  col_at x4 shapeCasts_S25x1_S25x1 broadcasts_S25x1_S25x8192 t q

/-- Tap t's pixel column for point q: the base column plus the tap's horizontal offset. -/
theorem pay9_at (x0 : Vec Ideal S8192 .f32) (x3 : Vec Ideal S25x1 .i32) (t : Fin 25) (q : Fin 8192) :
    k0_pay9 x0 x3 (ix2 t q) = IntOp.addi (Cert.Splat.base (x0 (ix1 q))) (x3 (ix2 t (0 : Fin 1))) :=
  congrArg₂ IntOp.addi (row_row_at (k0_pay4 x0) shapeCasts_S8192_S1x8192 shapeCasts_S1x8192_S1x8192 broadcasts_S1x8192_S25x8192 t q) (pay6_at x3 t q)

/-- Tap t's pixel row for point q. -/
theorem pay10_at (x1 : Vec Ideal S8192 .f32) (x4 : Vec Ideal S25x1 .i32) (t : Fin 25) (q : Fin 8192) :
    k0_pay10 x1 x4 (ix2 t q) = IntOp.addi (Cert.Splat.base (x1 (ix1 q))) (x4 (ix2 t (0 : Fin 1))) :=
  congrArg₂ IntOp.addi (row_row_at (k0_pay5 x1) shapeCasts_S8192_S1x8192 shapeCasts_S1x8192_S1x8192 broadcasts_S1x8192_S25x8192 t q) (pay7_at x4 t q)

/-- The squared horizontal distance from point q to tap t. -/
theorem pay11_at (x0 : Vec Ideal S8192 .f32) (x3 : Vec Ideal S25x1 .i32) (t : Fin 25) (q : Fin 8192) :
    k0_pay11 x0 x3 (ix2 t q) = Cert.Splat.sq (Cert.Splat.frac (x0 (ix1 q))) (x3 (ix2 t (0 : Fin 1))) := by
  have e := congrArg₂ (FloatOps.subf (F := Ideal) (φ := .f32))
    (row_row_at (subf (k0_pay2 x0) (sitofp .f32 (k0_pay4 x0))) shapeCasts_S8192_S1x8192 shapeCasts_S1x8192_S1x8192
      broadcasts_S1x8192_S25x8192 t q)
    (congrArg (FloatOps.sitofp (F := Ideal) .f32) (pay6_at x3 t q))
  exact congrArg₂ (FloatOps.mulf (F := Ideal) (φ := .f32)) e e

/-- The squared vertical distance from point q to tap t. -/
theorem pay12_at (x1 : Vec Ideal S8192 .f32) (x4 : Vec Ideal S25x1 .i32) (t : Fin 25) (q : Fin 8192) :
    k0_pay12 x1 x4 (ix2 t q) = Cert.Splat.sq (Cert.Splat.frac (x1 (ix1 q))) (x4 (ix2 t (0 : Fin 1))) := by
  have e := congrArg₂ (FloatOps.subf (F := Ideal) (φ := .f32))
    (row_row_at (subf (k0_pay3 x1) (sitofp .f32 (k0_pay5 x1))) shapeCasts_S8192_S1x8192 shapeCasts_S1x8192_S1x8192
      broadcasts_S1x8192_S25x8192 t q)
    (congrArg (FloatOps.sitofp (F := Ideal) .f32) (pay7_at x4 t q))
  exact congrArg₂ (FloatOps.mulf (F := Ideal) (φ := .f32)) e e

/-! ## The weights, their sum down a column, and the selected contribution -/

/-- The 25 × 8192 Gaussian weights before normalisation, from the two blocks of squared distances. -/
def wvec (v46 v47 : FVec Ideal S25x8192 .f32) : FVec Ideal S25x8192 .f32 :=
  exp (divf (mulf (broadcast S25x8192 (Scalar.ofBits (F := Ideal) .f32 0xBF000000#32)) (addf v46 v47))
    (broadcast S25x8192 (Scalar.ofBits (F := Ideal) .f32 0x3E800000#32)))

/-- A weight read at one position: the exponential of minus half the summed squared distances over a quarter. -/
theorem wvec_at (v46 v47 : FVec Ideal S25x8192 .f32) (i : S25x8192.Idx) (a b : Cert.Splat.E)
    (h46 : v46 i = a) (h47 : v47 i = b) :
    wvec v46 v47 i = FloatOps.exp (FloatOps.divf
      (FloatOps.mulf (FloatOps.ofBits .f32 0xBF000000#32) (FloatOps.addf a b)) (FloatOps.ofBits .f32 0x3E800000#32)) := by
  subst h46 h47; rfl

/-- The sum over the tap axis of a 25 × 8192 block, read at point q, is the sum of column q's 25 entries. -/
theorem colsum_at (v : FVec Ideal S25x8192 .f32) (h : S25x8192.Reduces [0] S8192) (hφ : FKind.Formats FTy.f32)
    (hacc : (0x00000000#32 : BitVec 32) = FKind.add.neutral .f32 hφ) (q : Fin 8192) :
    multiReduction (F := Ideal) .add [0] S8192 v 0x00000000#32 h hφ hacc (ix1 q) = ∑ k : Fin 25, v (ix2 k q) := by
  refine (Ideal.multiReduction_add_single v 0x00000000#32 h hφ hacc (ix1 q)).trans ?_
  show ∑ k : Fin 25, v (h.lift (ix1 q) k) = ∑ k : Fin 25, v (ix2 k q)
  refine Finset.sum_congr rfl fun k _ => congrArg v ?_
  funext a
  match a with
  | ⟨0, _⟩ => exact Fin.ext rfl
  | ⟨1, _⟩ => exact Fin.ext rfl

/-- The stored block at (t, q), over any operand blocks: the value times the normalised weight where the tap's pixel
    lies in the image, zero elsewhere. -/
theorem pay1_apply (v39 v46 v47 : FVec Ideal S25x8192 .f32) (v40 v41 : IVec S25x8192 32) (t : Fin 25) (q : Fin 8192) :
    k0_pay1 v39 v40 v41 v46 v47 (ix2 t q)
      = Scalar.select
          (IntOp.andi (IntOp.andi (IntOp.andi (IntOp.cmpi .sge (v40 (ix2 t q)) 0#32) (IntOp.cmpi .slt (v40 (ix2 t q)) 2048#32))
            (IntOp.cmpi .sge (v41 (ix2 t q)) 0#32)) (IntOp.cmpi .slt (v41 (ix2 t q)) 2048#32))
          (FloatOps.mulf (v39 (ix2 t q)) (FloatOps.divf (wvec v46 v47 (ix2 t q)) (∑ k : Fin 25, wvec v46 v47 (ix2 k q))))
          (FloatOps.ofBits .f32 0x00000000#32) := by
  have hs : broadcastTo S25x8192 (shapeCast S1x8192
        (multiReduction (F := Ideal) .add [0] S8192 (wvec v46 v47) 0x00000000#32 reduces_S25x8192_S8192 (.inl rfl) rfl)
        shapeCasts_S8192_S1x8192) broadcasts_S1x8192_S25x8192 (ix2 t q) = ∑ k : Fin 25, wvec v46 v47 (ix2 k q) :=
    (row_at _ shapeCasts_S8192_S1x8192 broadcasts_S1x8192_S25x8192 t q).trans
      (colsum_at (wvec v46 v47) reduces_S25x8192_S8192 (.inl rfl) rfl q)
  exact congrArg (fun s => Scalar.select
      (IntOp.andi (IntOp.andi (IntOp.andi (IntOp.cmpi .sge (v40 (ix2 t q)) 0#32) (IntOp.cmpi .slt (v40 (ix2 t q)) 2048#32))
        (IntOp.cmpi .sge (v41 (ix2 t q)) 0#32)) (IntOp.cmpi .slt (v41 (ix2 t q)) 2048#32))
      (FloatOps.mulf (v39 (ix2 t q)) (FloatOps.divf (wvec v46 v47 (ix2 t q)) s))
      (FloatOps.ofBits (F := Ideal) .f32 0x00000000#32)) hs

/-- THE STORED BLOCK, READ: with the two offset tables holding the taps' offsets, position (t, q) of the block the body
    stores is tap t's selected contribution of the block's point q. -/
theorem pay1_at (x0 x1 x2 : Vec Ideal S8192 .f32) (x3 x4 : Vec Ideal S25x1 .i32)
    (h3 : ∀ s : Fin 25, x3 (ix2 s (0 : Fin 1)) = Cert.Splat.offx s)
    (h4 : ∀ s : Fin 25, x4 (ix2 s (0 : Fin 1)) = Cert.Splat.offy s) (t : Fin 25) (q : Fin 8192) :
    k0_pay1 (k0_pay8 x2) (k0_pay9 x0 x3) (k0_pay10 x1 x4) (k0_pay11 x0 x3) (k0_pay12 x1 x4) (ix2 t q)
      = Cert.Splat.tapSel (x0 (ix1 q)) (x1 (ix1 q)) (x2 (ix1 q)) t := by
  have hw : ∀ s : Fin 25, wvec (k0_pay11 x0 x3) (k0_pay12 x1 x4) (ix2 s q)
      = Cert.Splat.wt (x0 (ix1 q)) (x1 (ix1 q)) s := fun s =>
    wvec_at _ _ _ _ _ ((pay11_at x0 x3 s q).trans (congrArg _ (h3 s))) ((pay12_at x1 x4 s q).trans (congrArg _ (h4 s)))
  have hsum : (∑ k : Fin 25, wvec (k0_pay11 x0 x3) (k0_pay12 x1 x4) (ix2 k q))
      = Cert.Splat.wsum (x0 (ix1 q)) (x1 (ix1 q)) := Finset.sum_congr rfl fun k _ => hw k
  have h9 : k0_pay9 x0 x3 (ix2 t q) = Cert.Splat.xi (x0 (ix1 q)) t :=
    (pay9_at x0 x3 t q).trans (congrArg _ (h3 t))
  have h10 : k0_pay10 x1 x4 (ix2 t q) = Cert.Splat.yi (x1 (ix1 q)) t :=
    (pay10_at x1 x4 t q).trans (congrArg _ (h4 t))
  rw [pay1_apply, h9, h10, pay8_at, hw t, hsum]
  rfl

/-- The same at any position of the block, its two coordinates read off the index. -/
theorem pay1_at_idx (x0 x1 x2 : Vec Ideal S8192 .f32) (x3 x4 : Vec Ideal S25x1 .i32)
    (h3 : ∀ s : Fin 25, x3 (ix2 s (0 : Fin 1)) = Cert.Splat.offx s)
    (h4 : ∀ s : Fin 25, x4 (ix2 s (0 : Fin 1)) = Cert.Splat.offy s) (i : S25x8192.Idx) :
    k0_pay1 (k0_pay8 x2) (k0_pay9 x0 x3) (k0_pay10 x1 x4) (k0_pay11 x0 x3) (k0_pay12 x1 x4) i
      = Cert.Splat.tapSel (x0 (ix1 (n := 8192) (i 1))) (x1 (ix1 (n := 8192) (i 1))) (x2 (ix1 (n := 8192) (i 1))) (i 0) :=
  (congrArg (k0_pay1 (k0_pay8 x2) (k0_pay9 x0 x3) (k0_pay10 x1 x4) (k0_pay11 x0 x3) (k0_pay12 x1 x4)) (eq_ix2 i)).trans
    (pay1_at x0 x1 x2 x3 x4 h3 h4 (i 0) (i 1))

end Cert.KernelIdeal.KVal

end
-- ==== Proof.KernelArrays.lean ====
/-
  From the blocks to the arrays. The 1048576 points are handled 8192 at a time: grid point t reads points
  8192·t … 8192·t + 8191 of the three argument arrays and the two 25-entry offset tables whole, and writes columns
  8192·t … 8192·t + 8191 of the 25 × 1048576 contributions and entries 8192·t … 8192·t + 8191 of the two integer arrays.
  Entry q of a block is therefore entry 8192·t + q of its array, the 128 blocks cover every column once, and each
  output array, after the last grid point, is one function of the argument arrays: the contributions hold, at (tap,
  point), that tap's selected contribution of that point; the integer arrays hold each point's base pixel.
-/
import proofs.«165584_j75892072120707_2_alg».proof.Proof.Gen.KernelIdeal.Frame
import proofs.«165584_j75892072120707_2_alg».proof.Proof.Spec
import proofs.«165584_j75892072120707_2_alg».proof.Proof.KernelPay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KVal

open Idealize.ShloMosaic Idealize.ShloMosaic.TcCoe Idealize.SL.Sem Cert.KernelIdeal Cert.KernelIdeal.Gen ValueIdx
open Idealize.ShloMosaic.Pipeline (Dat)

variable (m : (ℓ : Loc nD τ sig) → Buf (Elt Ideal) ℓ)

theorem hz1 : (![0] : Fin 1 → Nat) = fun _ => 0 := funext fun a => by fin_cases a; rfl
theorem hz2 : (![0, 0] : Fin 2 → Nat) = fun _ => 0 := funext fun a => by fin_cases a <;> rfl

/-- The block each window holds at grid point t: block t of the three argument arrays and of the two integer arrays,
    column block t of the contributions, and the two offset tables whole. -/
theorem idx_facts : ∀ t : Fin cfg0.N, win0_0.index t (0 : Fin 1) = t.val
    ∧ win0_1.index t (0 : Fin 1) = t.val
    ∧ win0_2.index t (0 : Fin 1) = t.val
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val
    ∧ win0_6.index t (0 : Fin 1) = t.val
    ∧ win0_7.index t (0 : Fin 1) = t.val :=
  (by decide +kernel : ∀ t : Fin grid0.N, _)

/-! ## The two integer arrays -/

/-- What grid point t writes back to the first integer array is block t of the points' base pixel columns. -/
theorem xib_flushed (c : Dev nD) (t : Fin cfg0.N) :
    (dats (F := Ideal) m 0 c).flushed 6 t = ((cfg0.win 6).blk t).view.read (Elt Ideal)
      (fun k : S1048576.Idx => Cert.Splat.base (m ((c : Thread nD τ).loc main_arg0) k)) := by
  show (cfg0.win 6).cut (grid0.coords t) ((dats m 0 c).after 6 t) = _
  rw [after0_6]
  unfold out0_6
  rw [View.canon_unit_zero hz1]
  simp only [View.ld_unit_zero (S := S8192) hz1]
  obtain ⟨e0, e1, e2, e30, e31, e40, e41, e50, e51, e6, e7⟩ := idx_facts t
  funext j
  show Cert.Splat.base (V m c main_arg0 (((cfg0.win 0).blk t).view.emb j))
    = Cert.Splat.base (m ((c : Thread nD τ).loc main_arg0) (((cfg0.win 6).blk t).view.emb j))
  have h0 : ((cfg0.win 0).blk t).view.emb j = ((cfg0.win 6).blk t).view.emb j := by
    funext a; apply Fin.ext
    match a with
    | ⟨0, _⟩ => show win0_0.index t (0 : Fin 1) * 8192 + 1 * (j 0).val = win0_6.index t (0 : Fin 1) * 8192 + 1 * (j 0).val; omega
  rw [h0, V_main_arg0]

/-- An index of the first integer array is in grid point t's block iff it lies in the block's range. -/
theorem mem_blk6 (t : Fin cfg0.N) (i : S1048576.Idx) :
    i ∈ ((cfg0.win 6).blk t).view.set ↔ ∀ a : Fin 1, win0_6.index t a * S8192.size a ≤ (i a).val
      ∧ (i a).val < win0_6.index t a * S8192.size a + S8192.size a := by
  show i ∈ ((View.whole main_v0_1).slice (win0_6.rect t)).set ↔ _
  rw [View.set_slice_whole, Rect.mem_set_unit]
  exact Iff.rfl

/-- After the region the first integer array holds each point's base pixel column. -/
theorem xib_final (c : Dev nD) : (dats (F := Ideal) m 0 c).arrAt 6 cfg0.N =
    (fun k : S1048576.Idx => Cert.Splat.base (m ((c : Thread nD τ).loc main_arg0) k)) := by
  refine (dats (F := Ideal) m 0 c).arrAt_eq_of_cover 6 _ (fun t _ => xib_flushed m c t) fun i => ?_
  have hi : (i 0).val < 1048576 := (i 0).isLt
  have hN : cfg0.N = 128 := N_0
  obtain ⟨t, ht⟩ : ∃ t : Fin cfg0.N, t.val = (i 0).val / 8192 := ⟨⟨(i 0).val / 8192, by rw [hN]; omega⟩, rfl⟩
  obtain ⟨e0, e1, e2, e30, e31, e40, e41, e50, e51, e6, e7⟩ := idx_facts t
  refine ⟨t, flush0_6 t, ?_⟩
  rw [mem_blk6]
  intro a
  match a with
  | ⟨0, _⟩ =>
    show win0_6.index t (0 : Fin 1) * 8192 ≤ (i 0).val ∧ (i 0).val < win0_6.index t (0 : Fin 1) * 8192 + 8192
    omega

/-- What grid point t writes back to the second integer array is block t of the points' base pixel rows. -/
theorem yib_flushed (c : Dev nD) (t : Fin cfg0.N) :
    (dats (F := Ideal) m 0 c).flushed 7 t = ((cfg0.win 7).blk t).view.read (Elt Ideal)
      (fun k : S1048576.Idx => Cert.Splat.base (m ((c : Thread nD τ).loc main_arg1) k)) := by
  show (cfg0.win 7).cut (grid0.coords t) ((dats m 0 c).after 7 t) = _
  rw [after0_7]
  unfold out0_7
  rw [View.canon_unit_zero hz1]
  simp only [View.ld_unit_zero (S := S8192) hz1]
  obtain ⟨e0, e1, e2, e30, e31, e40, e41, e50, e51, e6, e7⟩ := idx_facts t
  funext j
  show Cert.Splat.base (V m c main_arg1 (((cfg0.win 1).blk t).view.emb j))
    = Cert.Splat.base (m ((c : Thread nD τ).loc main_arg1) (((cfg0.win 7).blk t).view.emb j))
  have h1 : ((cfg0.win 1).blk t).view.emb j = ((cfg0.win 7).blk t).view.emb j := by
    funext a; apply Fin.ext
    match a with
    | ⟨0, _⟩ => show win0_1.index t (0 : Fin 1) * 8192 + 1 * (j 0).val = win0_7.index t (0 : Fin 1) * 8192 + 1 * (j 0).val; omega
  rw [h1, V_main_arg1]

/-- An index of the second integer array is in grid point t's block iff it lies in the block's range. -/
theorem mem_blk7 (t : Fin cfg0.N) (i : S1048576.Idx) :
    i ∈ ((cfg0.win 7).blk t).view.set ↔ ∀ a : Fin 1, win0_7.index t a * S8192.size a ≤ (i a).val
      ∧ (i a).val < win0_7.index t a * S8192.size a + S8192.size a := by
  show i ∈ ((View.whole main_v0_2).slice (win0_7.rect t)).set ↔ _
  rw [View.set_slice_whole, Rect.mem_set_unit]
  exact Iff.rfl

/-- After the region the second integer array holds each point's base pixel row. -/
theorem yib_final (c : Dev nD) : (dats (F := Ideal) m 0 c).arrAt 7 cfg0.N =
    (fun k : S1048576.Idx => Cert.Splat.base (m ((c : Thread nD τ).loc main_arg1) k)) := by
  refine (dats (F := Ideal) m 0 c).arrAt_eq_of_cover 7 _ (fun t _ => yib_flushed m c t) fun i => ?_
  have hi : (i 0).val < 1048576 := (i 0).isLt
  have hN : cfg0.N = 128 := N_0
  obtain ⟨t, ht⟩ : ∃ t : Fin cfg0.N, t.val = (i 0).val / 8192 := ⟨⟨(i 0).val / 8192, by rw [hN]; omega⟩, rfl⟩
  obtain ⟨e0, e1, e2, e30, e31, e40, e41, e50, e51, e6, e7⟩ := idx_facts t
  refine ⟨t, flush0_7 t, ?_⟩
  rw [mem_blk7]
  intro a
  match a with
  | ⟨0, _⟩ =>
    show win0_7.index t (0 : Fin 1) * 8192 ≤ (i 0).val ∧ (i 0).val < win0_7.index t (0 : Fin 1) * 8192 + 8192
    omega

/-! ## The contributions -/

/-- The two 25-entry tables the program writes before the region are the taps' offsets, entry by entry. -/
theorem lit0_offx : ∀ s : Fin 25, lit0 s = Cert.Splat.offx s := by decide
theorem lit1_offy : ∀ s : Fin 25, lit1 s = Cert.Splat.offy s := by decide

/-- The first offset table, as the region finds it, holds the taps' horizontal offsets. -/
theorem tabx_at (c : Dev nD) (t : Fin cfg0.N) (s : Fin 25) :
    (iblk m c 3 t : Vec Ideal S25x1 .i32) (ix2 s (0 : Fin 1)) = Cert.Splat.offx s := by
  obtain ⟨e0, e1, e2, e30, e31, e40, e41, e50, e51, e6, e7⟩ := idx_facts t
  have e : (V m c main_c : S25x1.Idx → BitVec 32) = fun i => lit0 (S25x1.rowMajor i) := by
    show StableHlo.after hostOps0 (fun b => m (c, b)) (Proc.devRef .tc main_c) = _
    after_results
    rfl
  unfold iblk
  rw [View.read_apply]
  show V m c main_c (((cfg0.win 3).blk t).view.emb (ix2 s (0 : Fin 1))) = _
  rw [e]
  have hk : S25x1.rowMajor (((cfg0.win 3).blk t).view.emb (ix2 s (0 : Fin 1))) = (s : Fin 25) :=
    Fin.ext (by
      rw [Shape.rowMajor_val_two]
      show (win0_3.index t (0 : Fin 2) * 25 + 1 * s.val) * 1 + (win0_3.index t (1 : Fin 2) * 1 + 1 * 0) = s.val
      omega)
  show lit0 (S25x1.rowMajor (((cfg0.win 3).blk t).view.emb (ix2 s (0 : Fin 1)))) = _
  rw [hk]
  exact lit0_offx s

/-- The second offset table holds the taps' vertical offsets. -/
theorem taby_at (c : Dev nD) (t : Fin cfg0.N) (s : Fin 25) :
    (iblk m c 4 t : Vec Ideal S25x1 .i32) (ix2 s (0 : Fin 1)) = Cert.Splat.offy s := by
  obtain ⟨e0, e1, e2, e30, e31, e40, e41, e50, e51, e6, e7⟩ := idx_facts t
  have e : (V m c main_c_0 : S25x1.Idx → BitVec 32) = fun i => lit1 (S25x1.rowMajor i) := by
    show StableHlo.after hostOps0 (fun b => m (c, b)) (Proc.devRef .tc main_c_0) = _
    after_results
    rfl
  unfold iblk
  rw [View.read_apply]
  show V m c main_c_0 (((cfg0.win 4).blk t).view.emb (ix2 s (0 : Fin 1))) = _
  rw [e]
  have hk : S25x1.rowMajor (((cfg0.win 4).blk t).view.emb (ix2 s (0 : Fin 1))) = (s : Fin 25) :=
    Fin.ext (by
      rw [Shape.rowMajor_val_two]
      show (win0_4.index t (0 : Fin 2) * 25 + 1 * s.val) * 1 + (win0_4.index t (1 : Fin 2) * 1 + 1 * 0) = s.val
      omega)
  show lit1 (S25x1.rowMajor (((cfg0.win 4).blk t).view.emb (ix2 s (0 : Fin 1)))) = _
  rw [hk]
  exact lit1_offy s

/-- Entry q of block t of the horizontal positions is entry 8192·t + q of the array. -/
theorem blk0_at (c : Dev nD) (t : Fin cfg0.N) (j : S8192.Idx) (p : S1048576.Idx)
    (hp : (p 0).val = t.val * 8192 + (j 0).val) :
    (iblk m c 0 t : Vec Ideal S8192 .f32) j = (m ((c : Thread nD τ).loc main_arg0) : S1048576.Idx → Ideal .f32) p := by
  obtain ⟨e0, e1, e2, e30, e31, e40, e41, e50, e51, e6, e7⟩ := idx_facts t
  unfold iblk
  rw [View.read_apply]
  show V m c main_arg0 (((cfg0.win 0).blk t).view.emb j) = _
  rw [V_main_arg0]
  refine congrArg (m ((c : Thread nD τ).loc main_arg0) : S1048576.Idx → Ideal .f32) (funext fun a => Fin.ext ?_)
  match a with
  | ⟨0, _⟩ => show win0_0.index t (0 : Fin 1) * 8192 + 1 * (j 0).val = (p 0).val; omega

/-- The same for the vertical positions. -/
theorem blk1_at (c : Dev nD) (t : Fin cfg0.N) (j : S8192.Idx) (p : S1048576.Idx)
    (hp : (p 0).val = t.val * 8192 + (j 0).val) :
    (iblk m c 1 t : Vec Ideal S8192 .f32) j = (m ((c : Thread nD τ).loc main_arg1) : S1048576.Idx → Ideal .f32) p := by
  obtain ⟨e0, e1, e2, e30, e31, e40, e41, e50, e51, e6, e7⟩ := idx_facts t
  unfold iblk
  rw [View.read_apply]
  show V m c main_arg1 (((cfg0.win 1).blk t).view.emb j) = _
  rw [V_main_arg1]
  refine congrArg (m ((c : Thread nD τ).loc main_arg1) : S1048576.Idx → Ideal .f32) (funext fun a => Fin.ext ?_)
  match a with
  | ⟨0, _⟩ => show win0_1.index t (0 : Fin 1) * 8192 + 1 * (j 0).val = (p 0).val; omega

/-- The same for the values. -/
theorem blk2_at (c : Dev nD) (t : Fin cfg0.N) (j : S8192.Idx) (p : S1048576.Idx)
    (hp : (p 0).val = t.val * 8192 + (j 0).val) :
    (iblk m c 2 t : Vec Ideal S8192 .f32) j = (m ((c : Thread nD τ).loc main_arg2) : S1048576.Idx → Ideal .f32) p := by
  obtain ⟨e0, e1, e2, e30, e31, e40, e41, e50, e51, e6, e7⟩ := idx_facts t
  unfold iblk
  rw [View.read_apply]
  show V m c main_arg2 (((cfg0.win 2).blk t).view.emb j) = _
  rw [V_main_arg2]
  refine congrArg (m ((c : Thread nD τ).loc main_arg2) : S1048576.Idx → Ideal .f32) (funext fun a => Fin.ext ?_)
  match a with
  | ⟨0, _⟩ => show win0_2.index t (0 : Fin 1) * 8192 + 1 * (j 0).val = (p 0).val; omega

/-- A tap's contribution depends only on the point's three numbers and the tap. -/
theorem tapSel_congr {x x' y y' v v' : Cert.Splat.E} {s s' : Fin 25} (hx : x = x') (hy : y = y') (hv : v = v')
    (hs : s = s') : Cert.Splat.tapSel x y v s = Cert.Splat.tapSel x' y' v' s' := by
  subst hx hy hv hs; rfl

/-- What grid point t writes back to the contributions is column block t of: at (tap, point), that tap's selected
    contribution of that point. -/
theorem splat_flushed (c : Dev nD) (t : Fin cfg0.N) :
    (dats (F := Ideal) m 0 c).flushed 5 t = ((cfg0.win 5).blk t).view.read (Elt Ideal)
      (fun k : S25x1048576.Idx => Cert.Splat.tapSel (m ((c : Thread nD τ).loc main_arg0) (ix1 (n := 1048576) (k 1)))
        (m ((c : Thread nD τ).loc main_arg1) (ix1 (n := 1048576) (k 1))) (m ((c : Thread nD τ).loc main_arg2) (ix1 (n := 1048576) (k 1))) (k 0)) := by
  show (cfg0.win 5).cut (grid0.coords t) ((dats m 0 c).after 5 t) = _
  rw [after0_5]
  unfold out0_5
  rw [View.canon_unit_zero hz2]
  simp only [View.ld_unit_zero (S := S8192) hz1, View.ld_unit_zero (S := S25x1) hz2]
  obtain ⟨e0, e1, e2, e30, e31, e40, e41, e50, e51, e6, e7⟩ := idx_facts t
  refine funext fun (j : S25x8192.Idx) => ?_
  have hp : ((((cfg0.win 5).blk t).view.emb j : S25x1048576.Idx) 1).val = t.val * 8192 + (j 1).val := by
    show win0_5.index t (1 : Fin 2) * 8192 + 1 * (j 1).val = _; omega
  have hq : ((((cfg0.win 5).blk t).view.emb j : S25x1048576.Idx) 0).val = (j 0).val := by
    show win0_5.index t (0 : Fin 2) * 25 + 1 * (j 0).val = _; omega
  refine (pay1_at_idx (iblk m c 0 t) (iblk m c 1 t) (iblk m c 2 t) (iblk m c 3 t) (iblk m c 4 t)
    (tabx_at m c t) (taby_at m c t) j).trans ?_
  exact tapSel_congr
    (blk0_at m c t (ix1 (n := 8192) (j 1)) (ix1 (n := 1048576) ((((cfg0.win 5).blk t).view.emb j : S25x1048576.Idx) 1)) hp)
    (blk1_at m c t (ix1 (n := 8192) (j 1)) (ix1 (n := 1048576) ((((cfg0.win 5).blk t).view.emb j : S25x1048576.Idx) 1)) hp)
    (blk2_at m c t (ix1 (n := 8192) (j 1)) (ix1 (n := 1048576) ((((cfg0.win 5).blk t).view.emb j : S25x1048576.Idx) 1)) hp)
    (Fin.ext hq.symm)

/-- An index of the contributions is in grid point t's block iff each coordinate lies in the block's range. -/
theorem mem_blk5 (t : Fin cfg0.N) (i : S25x1048576.Idx) :
    i ∈ ((cfg0.win 5).blk t).view.set ↔ ∀ a : Fin 2, win0_5.index t a * S25x8192.size a ≤ (i a).val
      ∧ (i a).val < win0_5.index t a * S25x8192.size a + S25x8192.size a := by
  show i ∈ ((View.whole main_v0_0).slice (win0_5.rect t)).set ↔ _
  rw [View.set_slice_whole, Rect.mem_set_unit]
  exact Iff.rfl

/-- After the region the [25, 1048576] array holds, at (t, p), tap t's selected contribution of point p. -/
theorem splat_final (c : Dev nD) : (dats (F := Ideal) m 0 c).arrAt 5 cfg0.N =
    (fun k : S25x1048576.Idx => Cert.Splat.tapSel (m ((c : Thread nD τ).loc main_arg0) (ix1 (n := 1048576) (k 1)))
      (m ((c : Thread nD τ).loc main_arg1) (ix1 (n := 1048576) (k 1))) (m ((c : Thread nD τ).loc main_arg2) (ix1 (n := 1048576) (k 1))) (k 0)) := by
  refine (dats (F := Ideal) m 0 c).arrAt_eq_of_cover 5 _ (fun t _ => splat_flushed m c t) fun i => ?_
  have hi0 : (i 0).val < 25 := (i 0).isLt
  have hi1 : (i 1).val < 1048576 := (i 1).isLt
  have hN : cfg0.N = 128 := N_0
  obtain ⟨t, ht⟩ : ∃ t : Fin cfg0.N, t.val = (i 1).val / 8192 := ⟨⟨(i 1).val / 8192, by rw [hN]; omega⟩, rfl⟩
  obtain ⟨e0, e1, e2, e30, e31, e40, e41, e50, e51, e6, e7⟩ := idx_facts t
  refine ⟨t, flush0_5 t, ?_⟩
  rw [mem_blk5]
  intro a
  match a with
  | ⟨0, _⟩ =>
    show win0_5.index t (0 : Fin 2) * 25 ≤ (i 0).val ∧ (i 0).val < win0_5.index t (0 : Fin 2) * 25 + 25
    omega
  | ⟨1, _⟩ =>
    show win0_5.index t (1 : Fin 2) * 8192 ≤ (i 1).val ∧ (i 1).val < win0_5.index t (1 : Fin 2) * 8192 + 8192
    omega

end Cert.KernelIdeal.KVal

end
-- ==== Proof.KernelRun.lean ====
/-
  The kernel's program, run: every execution ends with the result buffer at the image `kernOut` of the three argument
  arrays, and the arguments as launched. The launch leaves its three arrays at the taps' contributions and the points'
  base pixels; the two offset tables the later lines read were written before the launch and no line overwrites them;
  the later lines are the tail read back in KernelTail.
-/
import proofs.«165584_j75892072120707_2_alg».proof.Proof.KernelTail
import proofs.«165584_j75892072120707_2_alg».proof.Proof.KernelArrays
import Idealize.ShloMosaic.Lib.Pipeline.Value

set_option maxRecDepth 16384

noncomputable section

namespace Cert.KernelIdeal.KTail

open Idealize.ShloMosaic Idealize.ShloMosaic.TcCoe Idealize.SL.Sem Cert.KernelIdeal Cert.KernelIdeal.Gen ValueIdx

variable (m : (ℓ : Loc nD τ sig) → Buf (Elt Ideal) ℓ) (ρ : Dev nD → PrngReg)

/-- The column-offset table the later lines read, as the lines before the launch wrote it. -/
theorem table1 (c : Dev nD) : (V0 m c (Proc.devRef .tc main_c_1) : S25x1.Idx → BitVec 32) = fun i => lit2 (S25x1.rowMajor i) := by
  show StableHlo.after (List.flatten [hostOps0]) (fun b => m (c, b)) (Proc.devRef .tc main_c_1) = _
  simp only [hostOps0, List.flatten_cons, List.flatten_nil, List.append_nil]
  after_results
  rfl

/-- The row-offset table likewise. -/
theorem table2 (c : Dev nD) : (V0 m c (Proc.devRef .tc main_c_2) : S25x1.Idx → BitVec 32) = fun i => lit3 (S25x1.rowMajor i) := by
  show StableHlo.after (List.flatten [hostOps0]) (fun b => m (c, b)) (Proc.devRef .tc main_c_2) = _
  simp only [hostOps0, List.flatten_cons, List.flatten_nil, List.append_nil]
  after_results
  rfl

/-- Entry t of the column table is tap t's column offset; of the row table, its row offset. -/
theorem lit2_offx (t : Fin 25) : lit2 (S25x1.rowMajor (ix2 (n0 := 25) (n1 := 1) t 0)) = Cert.Splat.offx t := by
  fin_cases t <;> rfl
theorem lit3_offy (t : Fin 25) : lit3 (S25x1.rowMajor (ix2 (n0 := 25) (n1 := 1) t 0)) = Cert.Splat.offy t := by
  fin_cases t <;> rfl

/-- The result buffer is none of the pipeline's arrays: the run's post gives it as the later lines leave it. -/
theorem v19_rest : main_v19 ∈ Pipeline.restRefs sig (cfgs 0).spec := by decide

/-- THE RUN, given what the launch leaves in its three arrays. -/
theorem run_k_of
    (hS : ∀ c : Dev nD, (dats (F := Ideal) m 0 c).arrAt 5 cfg0.N
      = tapsK (m ((c : Thread nD τ).loc main_arg0)) (m ((c : Thread nD τ).loc main_arg1)) (m ((c : Thread nD τ).loc main_arg2)))
    (hx : ∀ c : Dev nD, (dats (F := Ideal) m 0 c).arrAt 6 cfg0.N = fun k : S1048576.Idx => Cert.Splat.base (m ((c : Thread nD τ).loc main_arg0) k))
    (hy : ∀ c : Dev nD, (dats (F := Ideal) m 0 c).arrAt 7 cfg0.N = fun k : S1048576.Idx => Cert.Splat.base (m ((c : Thread nD τ).loc main_arg1) k)) :
    θ_run (defs (F := Ideal)) (onTc (τ := τ) (main (F := Ideal))) ⟨m, fun _ => 0, ρ⟩ (fun r => ∀ c : Dev nD,
      r.2.mem ((c.tc : Thread nD τ).loc main_v19)
        = kernOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨by
      have e5 : Pipeline.withArrays (cfgs 0).spec c (V0 m c) (fun w => (dats (F := Ideal) m 0 c).arrAt w (cfgs 0).N) (Proc.devRef .tc main_v0_0)
          = (dats (F := Ideal) m 0 c).arrAt 5 cfg0.N := Pipeline.withArrays_arr spec0 launch0.win.arr_inj c _ _ 5
      have e6 : Pipeline.withArrays (cfgs 0).spec c (V0 m c) (fun w => (dats (F := Ideal) m 0 c).arrAt w (cfgs 0).N) (Proc.devRef .tc main_v0_1)
          = (dats (F := Ideal) m 0 c).arrAt 6 cfg0.N := Pipeline.withArrays_arr spec0 launch0.win.arr_inj c _ _ 6
      have e7 : Pipeline.withArrays (cfgs 0).spec c (V0 m c) (fun w => (dats (F := Ideal) m 0 c).arrAt w (cfgs 0).N) (Proc.devRef .tc main_v0_2)
          = (dats (F := Ideal) m 0 c).arrAt 7 cfg0.N := Pipeline.withArrays_arr spec0 launch0.win.arr_inj c _ _ 7
      have e1 : Pipeline.withArrays (cfgs 0).spec c (V0 m c) (fun w => (dats (F := Ideal) m 0 c).arrAt w (cfgs 0).N) (Proc.devRef .tc main_c_1)
          = V0 m c (Proc.devRef .tc main_c_1) := Pipeline.withArrays_of_ne spec0 c _ _ main_c_1 (by intro w; fin_cases w <;> decide)
      have e2 : Pipeline.withArrays (cfgs 0).spec c (V0 m c) (fun w => (dats (F := Ideal) m 0 c).arrAt w (cfgs 0).N) (Proc.devRef .tc main_c_2)
          = V0 m c (Proc.devRef .tc main_c_2) := Pipeline.withArrays_of_ne spec0 c _ _ main_c_2 (by intro w; fin_cases w <;> decide)
      rw [(h c).2 main_v19 v19_rest]
      unfold Pipeline.afterTail₀
      rw [tail_read, e5, e6, e7, e1, e2, hS c, hx c, hy c, table1, table2]
      exact tail_eq_kernOut _ _ _ _ _ lit2_offx lit3_offy,
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c)))⟩) (run_main m ρ)

/-- THE RUN of the kernel's program: the image `kernOut` of the argument arrays in the result buffer, the arguments kept. -/
theorem run_k :
    θ_run (defs (F := Ideal)) (onTc (τ := τ) (main (F := Ideal))) ⟨m, fun _ => 0, ρ⟩ (fun r => ∀ c : Dev nD,
      r.2.mem ((c.tc : Thread nD τ).loc main_v19)
        = kernOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_k_of m ρ (fun c => Cert.KernelIdeal.KVal.splat_final m c) (fun c => Cert.KernelIdeal.KVal.xib_final m c)
    (fun c => Cert.KernelIdeal.KVal.yib_final m c)

end Cert.KernelIdeal.KTail

end
-- ==== Proof.RefOps.lean ====
/-
  The reference's @main written out as the list of its host operations, in order and cut where the computation cuts
  itself: coordinates, tap positions, distances, weights, flags, clamping, and the scatter into the image. The two
  calls of the clamping function appear as that function's six operations on the call's own buffers.
-/
import proofs.«165584_j75892072120707_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem

variable {F : FTy → Type} [FloatOps F]

/-- 22 operations: the pixel coordinates, base pixels and in-pixel offsets of every point. -/
abbrev opsA : List (HloOp τ sig (Elt F)) :=
  [ StableHlo.nullary main_c (fun i => lit0 (S25.rowMajor i)),
    StableHlo.nullary main_c_0 (fun i => lit1 (S25.rowMajor i)),
    StableHlo.nullary main_cst (constant S_ .f32 0xBF800000#32),
    StableHlo.unary main_cst main_v0 (broadcastInDim S1048576 ![] bcast_S_S1048576 : (⟨S_, .f32⟩ : BufTy).Contents (Elt F) → (⟨S1048576, .f32⟩ : BufTy).Contents (Elt F)),
    StableHlo.binary main_arg0 main_v0 main_v1 (subf : (⟨S1048576, .f32⟩ : BufTy).Contents (Elt F) → (⟨S1048576, .f32⟩ : BufTy).Contents (Elt F) → (⟨S1048576, .f32⟩ : BufTy).Contents (Elt F)),
    StableHlo.nullary main_cst_1 (constant S_ .f32 0x3A800000#32),
    StableHlo.unary main_cst_1 main_v2 (broadcastInDim S1048576 ![] bcast_S_S1048576 : (⟨S_, .f32⟩ : BufTy).Contents (Elt F) → (⟨S1048576, .f32⟩ : BufTy).Contents (Elt F)),
    StableHlo.binary main_v1 main_v2 main_v3 (Host.divf : (⟨S1048576, .f32⟩ : BufTy).Contents (Elt F) → (⟨S1048576, .f32⟩ : BufTy).Contents (Elt F) → (⟨S1048576, .f32⟩ : BufTy).Contents (Elt F)),
    StableHlo.nullary main_cst_2 (constant S_ .f32 0xBF800000#32),
    StableHlo.unary main_cst_2 main_v4 (broadcastInDim S1048576 ![] bcast_S_S1048576 : (⟨S_, .f32⟩ : BufTy).Contents (Elt F) → (⟨S1048576, .f32⟩ : BufTy).Contents (Elt F)),
    StableHlo.binary main_arg1 main_v4 main_v5 (subf : (⟨S1048576, .f32⟩ : BufTy).Contents (Elt F) → (⟨S1048576, .f32⟩ : BufTy).Contents (Elt F) → (⟨S1048576, .f32⟩ : BufTy).Contents (Elt F)),
    StableHlo.nullary main_cst_3 (constant S_ .f32 0x3A800000#32),
    StableHlo.unary main_cst_3 main_v6 (broadcastInDim S1048576 ![] bcast_S_S1048576 : (⟨S_, .f32⟩ : BufTy).Contents (Elt F) → (⟨S1048576, .f32⟩ : BufTy).Contents (Elt F)),
    StableHlo.binary main_v5 main_v6 main_v7 (Host.divf : (⟨S1048576, .f32⟩ : BufTy).Contents (Elt F) → (⟨S1048576, .f32⟩ : BufTy).Contents (Elt F) → (⟨S1048576, .f32⟩ : BufTy).Contents (Elt F)),
    StableHlo.unary main_v3 main_v8 (Host.floor : (⟨S1048576, .f32⟩ : BufTy).Contents (Elt F) → (⟨S1048576, .f32⟩ : BufTy).Contents (Elt F)),
    StableHlo.unary main_v8 main_v9 (fptosi 32 : (⟨S1048576, .f32⟩ : BufTy).Contents (Elt F) → (⟨S1048576, .i32⟩ : BufTy).Contents (Elt F)),
    StableHlo.unary main_v7 main_v10 (Host.floor : (⟨S1048576, .f32⟩ : BufTy).Contents (Elt F) → (⟨S1048576, .f32⟩ : BufTy).Contents (Elt F)),
    StableHlo.unary main_v10 main_v11 (fptosi 32 : (⟨S1048576, .f32⟩ : BufTy).Contents (Elt F) → (⟨S1048576, .i32⟩ : BufTy).Contents (Elt F)),
    StableHlo.unary main_v9 main_v12 (sitofp .f32 : (⟨S1048576, .i32⟩ : BufTy).Contents (Elt F) → (⟨S1048576, .f32⟩ : BufTy).Contents (Elt F)),
    StableHlo.binary main_v3 main_v12 main_v13 (subf : (⟨S1048576, .f32⟩ : BufTy).Contents (Elt F) → (⟨S1048576, .f32⟩ : BufTy).Contents (Elt F) → (⟨S1048576, .f32⟩ : BufTy).Contents (Elt F)),
    StableHlo.unary main_v11 main_v14 (sitofp .f32 : (⟨S1048576, .i32⟩ : BufTy).Contents (Elt F) → (⟨S1048576, .f32⟩ : BufTy).Contents (Elt F)),
    StableHlo.binary main_v7 main_v14 main_v15 (subf : (⟨S1048576, .f32⟩ : BufTy).Contents (Elt F) → (⟨S1048576, .f32⟩ : BufTy).Contents (Elt F) → (⟨S1048576, .f32⟩ : BufTy).Contents (Elt F)) ]

/-- 10 operations: every tap's pixel column and row. -/
abbrev opsB : List (HloOp τ sig (Elt F)) :=
  [ StableHlo.unary main_v9 main_v16 (broadcastInDim S1048576x1 ![0] bcast_S1048576_S1048576x1_0 : (⟨S1048576, .i32⟩ : BufTy).Contents (Elt F) → (⟨S1048576x1, .i32⟩ : BufTy).Contents (Elt F)),
    StableHlo.unary main_c main_v17 (broadcastInDim S1x25 ![1] bcast_S25_S1x25_1 : (⟨S25, .i32⟩ : BufTy).Contents (Elt F) → (⟨S1x25, .i32⟩ : BufTy).Contents (Elt F)),
    StableHlo.unary main_v16 main_v18 (broadcastInDim S1048576x25 ![0, 1] bcast_S1048576x1_S1048576x25_0_1 : (⟨S1048576x1, .i32⟩ : BufTy).Contents (Elt F) → (⟨S1048576x25, .i32⟩ : BufTy).Contents (Elt F)),
    StableHlo.unary main_v17 main_v19 (broadcastInDim S1048576x25 ![0, 1] bcast_S1x25_S1048576x25_0_1 : (⟨S1x25, .i32⟩ : BufTy).Contents (Elt F) → (⟨S1048576x25, .i32⟩ : BufTy).Contents (Elt F)),
    StableHlo.binary main_v18 main_v19 main_v20 (addi : (⟨S1048576x25, .i32⟩ : BufTy).Contents (Elt F) → (⟨S1048576x25, .i32⟩ : BufTy).Contents (Elt F) → (⟨S1048576x25, .i32⟩ : BufTy).Contents (Elt F)),
    StableHlo.unary main_v11 main_v21 (broadcastInDim S1048576x1 ![0] bcast_S1048576_S1048576x1_0 : (⟨S1048576, .i32⟩ : BufTy).Contents (Elt F) → (⟨S1048576x1, .i32⟩ : BufTy).Contents (Elt F)),
    StableHlo.unary main_c_0 main_v22 (broadcastInDim S1x25 ![1] bcast_S25_S1x25_1 : (⟨S25, .i32⟩ : BufTy).Contents (Elt F) → (⟨S1x25, .i32⟩ : BufTy).Contents (Elt F)),
    StableHlo.unary main_v21 main_v23 (broadcastInDim S1048576x25 ![0, 1] bcast_S1048576x1_S1048576x25_0_1 : (⟨S1048576x1, .i32⟩ : BufTy).Contents (Elt F) → (⟨S1048576x25, .i32⟩ : BufTy).Contents (Elt F)),
    StableHlo.unary main_v22 main_v24 (broadcastInDim S1048576x25 ![0, 1] bcast_S1x25_S1048576x25_0_1 : (⟨S1x25, .i32⟩ : BufTy).Contents (Elt F) → (⟨S1048576x25, .i32⟩ : BufTy).Contents (Elt F)),
    StableHlo.binary main_v23 main_v24 main_v25 (addi : (⟨S1048576x25, .i32⟩ : BufTy).Contents (Elt F) → (⟨S1048576x25, .i32⟩ : BufTy).Contents (Elt F) → (⟨S1048576x25, .i32⟩ : BufTy).Contents (Elt F)) ]

/-- 15 operations: every tap's squared distance from its point. -/
abbrev opsC : List (HloOp τ sig (Elt F)) :=
  [ StableHlo.unary main_v13 main_v26 (broadcastInDim S1048576x1 ![0] bcast_S1048576_S1048576x1_0 : (⟨S1048576, .f32⟩ : BufTy).Contents (Elt F) → (⟨S1048576x1, .f32⟩ : BufTy).Contents (Elt F)),
    StableHlo.unary main_c main_v27 (broadcastInDim S1x25 ![1] bcast_S25_S1x25_1 : (⟨S25, .i32⟩ : BufTy).Contents (Elt F) → (⟨S1x25, .i32⟩ : BufTy).Contents (Elt F)),
    StableHlo.unary main_v27 main_v28 (sitofp .f32 : (⟨S1x25, .i32⟩ : BufTy).Contents (Elt F) → (⟨S1x25, .f32⟩ : BufTy).Contents (Elt F)),
    StableHlo.unary main_v26 main_v29 (broadcastInDim S1048576x25 ![0, 1] bcast_S1048576x1_S1048576x25_0_1 : (⟨S1048576x1, .f32⟩ : BufTy).Contents (Elt F) → (⟨S1048576x25, .f32⟩ : BufTy).Contents (Elt F)),
    StableHlo.unary main_v28 main_v30 (broadcastInDim S1048576x25 ![0, 1] bcast_S1x25_S1048576x25_0_1 : (⟨S1x25, .f32⟩ : BufTy).Contents (Elt F) → (⟨S1048576x25, .f32⟩ : BufTy).Contents (Elt F)),
    StableHlo.binary main_v29 main_v30 main_v31 (subf : (⟨S1048576x25, .f32⟩ : BufTy).Contents (Elt F) → (⟨S1048576x25, .f32⟩ : BufTy).Contents (Elt F) → (⟨S1048576x25, .f32⟩ : BufTy).Contents (Elt F)),
    StableHlo.unary main_v15 main_v32 (broadcastInDim S1048576x1 ![0] bcast_S1048576_S1048576x1_0 : (⟨S1048576, .f32⟩ : BufTy).Contents (Elt F) → (⟨S1048576x1, .f32⟩ : BufTy).Contents (Elt F)),
    StableHlo.unary main_c_0 main_v33 (broadcastInDim S1x25 ![1] bcast_S25_S1x25_1 : (⟨S25, .i32⟩ : BufTy).Contents (Elt F) → (⟨S1x25, .i32⟩ : BufTy).Contents (Elt F)),
    StableHlo.unary main_v33 main_v34 (sitofp .f32 : (⟨S1x25, .i32⟩ : BufTy).Contents (Elt F) → (⟨S1x25, .f32⟩ : BufTy).Contents (Elt F)),
    StableHlo.unary main_v32 main_v35 (broadcastInDim S1048576x25 ![0, 1] bcast_S1048576x1_S1048576x25_0_1 : (⟨S1048576x1, .f32⟩ : BufTy).Contents (Elt F) → (⟨S1048576x25, .f32⟩ : BufTy).Contents (Elt F)),
    StableHlo.unary main_v34 main_v36 (broadcastInDim S1048576x25 ![0, 1] bcast_S1x25_S1048576x25_0_1 : (⟨S1x25, .f32⟩ : BufTy).Contents (Elt F) → (⟨S1048576x25, .f32⟩ : BufTy).Contents (Elt F)),
    StableHlo.binary main_v35 main_v36 main_v37 (subf : (⟨S1048576x25, .f32⟩ : BufTy).Contents (Elt F) → (⟨S1048576x25, .f32⟩ : BufTy).Contents (Elt F) → (⟨S1048576x25, .f32⟩ : BufTy).Contents (Elt F)),
    StableHlo.binary main_v31 main_v31 main_v38 (mulf : (⟨S1048576x25, .f32⟩ : BufTy).Contents (Elt F) → (⟨S1048576x25, .f32⟩ : BufTy).Contents (Elt F) → (⟨S1048576x25, .f32⟩ : BufTy).Contents (Elt F)),
    StableHlo.binary main_v37 main_v37 main_v39 (mulf : (⟨S1048576x25, .f32⟩ : BufTy).Contents (Elt F) → (⟨S1048576x25, .f32⟩ : BufTy).Contents (Elt F) → (⟨S1048576x25, .f32⟩ : BufTy).Contents (Elt F)),
    StableHlo.binary main_v38 main_v39 main_v40 (addf : (⟨S1048576x25, .f32⟩ : BufTy).Contents (Elt F) → (⟨S1048576x25, .f32⟩ : BufTy).Contents (Elt F) → (⟨S1048576x25, .f32⟩ : BufTy).Contents (Elt F)) ]

/-- 12 operations: the Gaussian weights and their normalisation by each point's sum. -/
abbrev opsD : List (HloOp τ sig (Elt F)) :=
  [ StableHlo.nullary main_cst_4 (constant S_ .f32 0xBF000000#32),
    StableHlo.unary main_cst_4 main_v41 (broadcastInDim S1048576x25 ![] bcast_S_S1048576x25 : (⟨S_, .f32⟩ : BufTy).Contents (Elt F) → (⟨S1048576x25, .f32⟩ : BufTy).Contents (Elt F)),
    StableHlo.binary main_v41 main_v40 main_v42 (mulf : (⟨S1048576x25, .f32⟩ : BufTy).Contents (Elt F) → (⟨S1048576x25, .f32⟩ : BufTy).Contents (Elt F) → (⟨S1048576x25, .f32⟩ : BufTy).Contents (Elt F)),
    StableHlo.nullary main_cst_5 (constant S_ .f32 0x3E800000#32),
    StableHlo.unary main_cst_5 main_v43 (broadcastInDim S1048576x25 ![] bcast_S_S1048576x25 : (⟨S_, .f32⟩ : BufTy).Contents (Elt F) → (⟨S1048576x25, .f32⟩ : BufTy).Contents (Elt F)),
    StableHlo.binary main_v42 main_v43 main_v44 (Host.divf : (⟨S1048576x25, .f32⟩ : BufTy).Contents (Elt F) → (⟨S1048576x25, .f32⟩ : BufTy).Contents (Elt F) → (⟨S1048576x25, .f32⟩ : BufTy).Contents (Elt F)),
    StableHlo.unary main_v44 main_v45 (Host.exp : (⟨S1048576x25, .f32⟩ : BufTy).Contents (Elt F) → (⟨S1048576x25, .f32⟩ : BufTy).Contents (Elt F)),
    StableHlo.nullary main_cst_6 (constant S_ .f32 0x00000000#32),
    StableHlo.binary main_v45 main_cst_6 main_v46 ((fun x v => Host.reduceAdd x v reducesTo_S1048576x25_S1048576_d1 h_S_) : (⟨S1048576x25, .f32⟩ : BufTy).Contents (Elt F) → (⟨S_, .f32⟩ : BufTy).Contents (Elt F) → (⟨S1048576, .f32⟩ : BufTy).Contents (Elt F)),
    StableHlo.unary main_v46 main_v47 (broadcastInDim S1048576x1 ![0] bcast_S1048576_S1048576x1_0 : (⟨S1048576, .f32⟩ : BufTy).Contents (Elt F) → (⟨S1048576x1, .f32⟩ : BufTy).Contents (Elt F)),
    StableHlo.unary main_v47 main_v48 (broadcastInDim S1048576x25 ![0, 1] bcast_S1048576x1_S1048576x25_0_1 : (⟨S1048576x1, .f32⟩ : BufTy).Contents (Elt F) → (⟨S1048576x25, .f32⟩ : BufTy).Contents (Elt F)),
    StableHlo.binary main_v45 main_v48 main_v49 (Host.divf : (⟨S1048576x25, .f32⟩ : BufTy).Contents (Elt F) → (⟨S1048576x25, .f32⟩ : BufTy).Contents (Elt F) → (⟨S1048576x25, .f32⟩ : BufTy).Contents (Elt F)) ]

/-- 15 operations: the inside-the-image flag of every tap. -/
abbrev opsE : List (HloOp τ sig (Elt F)) :=
  [ StableHlo.nullary main_c_7 (constantI S_ 32 0#32),
    StableHlo.unary main_c_7 main_v50 (broadcastInDim S1048576x25 ![] bcast_S_S1048576x25 : (⟨S_, .i32⟩ : BufTy).Contents (Elt F) → (⟨S1048576x25, .i32⟩ : BufTy).Contents (Elt F)),
    StableHlo.binary main_v20 main_v50 main_v51 (cmpi .sge : (⟨S1048576x25, .i32⟩ : BufTy).Contents (Elt F) → (⟨S1048576x25, .i32⟩ : BufTy).Contents (Elt F) → (⟨S1048576x25, .i1⟩ : BufTy).Contents (Elt F)),
    StableHlo.nullary main_c_8 (constantI S_ 32 2048#32),
    StableHlo.unary main_c_8 main_v52 (broadcastInDim S1048576x25 ![] bcast_S_S1048576x25 : (⟨S_, .i32⟩ : BufTy).Contents (Elt F) → (⟨S1048576x25, .i32⟩ : BufTy).Contents (Elt F)),
    StableHlo.binary main_v20 main_v52 main_v53 (cmpi .slt : (⟨S1048576x25, .i32⟩ : BufTy).Contents (Elt F) → (⟨S1048576x25, .i32⟩ : BufTy).Contents (Elt F) → (⟨S1048576x25, .i1⟩ : BufTy).Contents (Elt F)),
    StableHlo.binary main_v51 main_v53 main_v54 (andi : (⟨S1048576x25, .i1⟩ : BufTy).Contents (Elt F) → (⟨S1048576x25, .i1⟩ : BufTy).Contents (Elt F) → (⟨S1048576x25, .i1⟩ : BufTy).Contents (Elt F)),
    StableHlo.nullary main_c_9 (constantI S_ 32 0#32),
    StableHlo.unary main_c_9 main_v55 (broadcastInDim S1048576x25 ![] bcast_S_S1048576x25 : (⟨S_, .i32⟩ : BufTy).Contents (Elt F) → (⟨S1048576x25, .i32⟩ : BufTy).Contents (Elt F)),
    StableHlo.binary main_v25 main_v55 main_v56 (cmpi .sge : (⟨S1048576x25, .i32⟩ : BufTy).Contents (Elt F) → (⟨S1048576x25, .i32⟩ : BufTy).Contents (Elt F) → (⟨S1048576x25, .i1⟩ : BufTy).Contents (Elt F)),
    StableHlo.binary main_v54 main_v56 main_v57 (andi : (⟨S1048576x25, .i1⟩ : BufTy).Contents (Elt F) → (⟨S1048576x25, .i1⟩ : BufTy).Contents (Elt F) → (⟨S1048576x25, .i1⟩ : BufTy).Contents (Elt F)),
    StableHlo.nullary main_c_10 (constantI S_ 32 2048#32),
    StableHlo.unary main_c_10 main_v58 (broadcastInDim S1048576x25 ![] bcast_S_S1048576x25 : (⟨S_, .i32⟩ : BufTy).Contents (Elt F) → (⟨S1048576x25, .i32⟩ : BufTy).Contents (Elt F)),
    StableHlo.binary main_v25 main_v58 main_v59 (cmpi .slt : (⟨S1048576x25, .i32⟩ : BufTy).Contents (Elt F) → (⟨S1048576x25, .i32⟩ : BufTy).Contents (Elt F) → (⟨S1048576x25, .i1⟩ : BufTy).Contents (Elt F)),
    StableHlo.binary main_v57 main_v59 main_v60 (andi : (⟨S1048576x25, .i1⟩ : BufTy).Contents (Elt F) → (⟨S1048576x25, .i1⟩ : BufTy).Contents (Elt F) → (⟨S1048576x25, .i1⟩ : BufTy).Contents (Elt F)) ]

/-- 16 operations: the pixel columns and rows clamped into the image. -/
abbrev opsF : List (HloOp τ sig (Elt F)) :=
  [ StableHlo.nullary main_c_11 (constantI S_ 32 0#32),
    StableHlo.nullary main_c_12 (constantI S_ 32 2047#32),
    StableHlo.TRef.unary (.of main_c_11 : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S1048576x25, .i32⟩) (broadcastInDim S1048576x25 ![] bcast_S_S1048576x25),
    StableHlo.TRef.binary (.of main_call0_v1 : StableHlo.TRef sig ⟨S1048576x25, .i32⟩) (.of main_v20 : StableHlo.TRef sig ⟨S1048576x25, .i32⟩) (.of main_call0_v2 : StableHlo.TRef sig ⟨S1048576x25, .i32⟩) maxsi,
    StableHlo.TRef.unary (.of main_c_12 : StableHlo.TRef sig ⟨S_, .i32⟩) (.of main_call0_v3 : StableHlo.TRef sig ⟨S_, .i32⟩) id,
    StableHlo.TRef.unary (.of main_call0_v3 : StableHlo.TRef sig ⟨S_, .i32⟩) (.of main_call0_v4 : StableHlo.TRef sig ⟨S1048576x25, .i32⟩) (broadcastInDim S1048576x25 ![] bcast_S_S1048576x25),
    StableHlo.TRef.binary (.of main_call0_v4 : StableHlo.TRef sig ⟨S1048576x25, .i32⟩) (.of main_call0_v2 : StableHlo.TRef sig ⟨S1048576x25, .i32⟩) (.of main_v61 : StableHlo.TRef sig ⟨S1048576x25, .i32⟩) minsi,
    StableHlo.nullary main_c_13 (constantI S_ 32 0#32),
    StableHlo.nullary main_c_14 (constantI S_ 32 2047#32),
    StableHlo.TRef.unary (.of main_c_13 : StableHlo.TRef sig ⟨S_, .i32⟩) (.of main_call1_v0 : StableHlo.TRef sig ⟨S_, .i32⟩) id,
    StableHlo.TRef.unary (.of main_call1_v0 : StableHlo.TRef sig ⟨S_, .i32⟩) (.of main_call1_v1 : StableHlo.TRef sig ⟨S1048576x25, .i32⟩) (broadcastInDim S1048576x25 ![] bcast_S_S1048576x25),
    StableHlo.TRef.binary (.of main_call1_v1 : StableHlo.TRef sig ⟨S1048576x25, .i32⟩) (.of main_v25 : StableHlo.TRef sig ⟨S1048576x25, .i32⟩) (.of main_call1_v2 : StableHlo.TRef sig ⟨S1048576x25, .i32⟩) maxsi,
    StableHlo.TRef.unary (.of main_c_14 : StableHlo.TRef sig ⟨S_, .i32⟩) (.of main_call1_v3 : StableHlo.TRef sig ⟨S_, .i32⟩) id,
    StableHlo.TRef.unary (.of main_call1_v3 : StableHlo.TRef sig ⟨S_, .i32⟩) (.of main_call1_v4 : StableHlo.TRef sig ⟨S1048576x25, .i32⟩) (broadcastInDim S1048576x25 ![] bcast_S_S1048576x25),
    StableHlo.TRef.binary (.of main_call1_v4 : StableHlo.TRef sig ⟨S1048576x25, .i32⟩) (.of main_call1_v2 : StableHlo.TRef sig ⟨S1048576x25, .i32⟩) (.of main_v62 : StableHlo.TRef sig ⟨S1048576x25, .i32⟩) minsi ]

/-- 16 operations: the masked contributions, the flat cell indices, the accumulating scatter and the image. -/
abbrev opsG : List (HloOp τ sig (Elt F)) :=
  [ StableHlo.unary main_arg2 main_v63 (broadcastInDim S1048576x1 ![0] bcast_S1048576_S1048576x1_0 : (⟨S1048576, .f32⟩ : BufTy).Contents (Elt F) → (⟨S1048576x1, .f32⟩ : BufTy).Contents (Elt F)),
    StableHlo.unary main_v63 main_v64 (broadcastInDim S1048576x25 ![0, 1] bcast_S1048576x1_S1048576x25_0_1 : (⟨S1048576x1, .f32⟩ : BufTy).Contents (Elt F) → (⟨S1048576x25, .f32⟩ : BufTy).Contents (Elt F)),
    StableHlo.binary main_v64 main_v49 main_v65 (mulf : (⟨S1048576x25, .f32⟩ : BufTy).Contents (Elt F) → (⟨S1048576x25, .f32⟩ : BufTy).Contents (Elt F) → (⟨S1048576x25, .f32⟩ : BufTy).Contents (Elt F)),
    StableHlo.unary main_v60 main_v66 (uitofp .f32 : (⟨S1048576x25, .i1⟩ : BufTy).Contents (Elt F) → (⟨S1048576x25, .f32⟩ : BufTy).Contents (Elt F)),
    StableHlo.binary main_v65 main_v66 main_v67 (mulf : (⟨S1048576x25, .f32⟩ : BufTy).Contents (Elt F) → (⟨S1048576x25, .f32⟩ : BufTy).Contents (Elt F) → (⟨S1048576x25, .f32⟩ : BufTy).Contents (Elt F)),
    StableHlo.nullary main_c_15 (constantI S_ 32 2048#32),
    StableHlo.unary main_c_15 main_v68 (broadcastInDim S1048576x25 ![] bcast_S_S1048576x25 : (⟨S_, .i32⟩ : BufTy).Contents (Elt F) → (⟨S1048576x25, .i32⟩ : BufTy).Contents (Elt F)),
    StableHlo.binary main_v62 main_v68 main_v69 (muli : (⟨S1048576x25, .i32⟩ : BufTy).Contents (Elt F) → (⟨S1048576x25, .i32⟩ : BufTy).Contents (Elt F) → (⟨S1048576x25, .i32⟩ : BufTy).Contents (Elt F)),
    StableHlo.binary main_v69 main_v61 main_v70 (addi : (⟨S1048576x25, .i32⟩ : BufTy).Contents (Elt F) → (⟨S1048576x25, .i32⟩ : BufTy).Contents (Elt F) → (⟨S1048576x25, .i32⟩ : BufTy).Contents (Elt F)),
    StableHlo.reshape main_v70 main_v71 rfl shapeCasts_S1048576x25_S26214400,
    StableHlo.reshape main_v67 main_v72 rfl shapeCasts_S1048576x25_S26214400,
    StableHlo.nullary main_cst_16 (constant S_ .f32 0x00000000#32),
    StableHlo.unary main_cst_16 main_v73 (broadcastInDim S4194304 ![] bcast_S_S4194304 : (⟨S_, .f32⟩ : BufTy).Contents (Elt F) → (⟨S4194304, .f32⟩ : BufTy).Contents (Elt F)),
    StableHlo.unary main_v71 main_v74 (broadcastInDim S26214400x1 ![0] bcast_S26214400_S26214400x1_0 : (⟨S26214400, .i32⟩ : BufTy).Contents (Elt F) → (⟨S26214400x1, .i32⟩ : BufTy).Contents (Elt F)),
    StableHlo.ternary main_v73 main_v74 main_v72 main_v75 ((fun x i u => Host.scatterAdd scatter_S4194304_S26214400x1_S26214400_n_0_0_1 x i u) : (⟨S4194304, .f32⟩ : BufTy).Contents (Elt F) → (⟨S26214400x1, .i32⟩ : BufTy).Contents (Elt F) → (⟨S26214400, .f32⟩ : BufTy).Contents (Elt F) → (⟨S4194304, .f32⟩ : BufTy).Contents (Elt F)),
    StableHlo.reshape main_v75 main_v76 rfl shapeCasts_S4194304_S2048x2048 ]

/-- The whole program: the seven stretches one after another. -/
abbrev ops : List (HloOp τ sig (Elt F)) := opsA ++ opsB ++ opsC ++ opsD ++ opsE ++ opsF ++ opsG

end Cert.ReferenceIdeal.RefValue

end
-- ==== Proof.RefRun.lean ====
/-
  The reference's run. Its @main is one straight line of host operations: the printed program's two windows one after
  the other, each call of the clamping function standing for its body's six operations on that call's own buffers. The
  line is the list of RefOps.lean, operation for operation. A straight line of operations that touch TensorCore
  buffers only and each determine their results terminates under every weakly fair schedule, and leaves every buffer
  at the fold of the operations' results over what the launch put there.
-/
import proofs.«165584_j75892072120707_2_alg».proof.Proof.RefOps
import Idealize.ShloMosaic.Lib.StableHlo.Run
import Idealize.ShloMosaic.Lib.Pipeline.Regions
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## @main is the line -/

/-- For any float values: sequencing is associative and a call is its body, so the two windows in order, with both
    calls opened, are the same chain of steps as the line of the seven stretches appended. Both sides are closed
    terms; the equation is checked by unfolding them against each other. -/
theorem main_eq_seq (c : Dev nD) : main (F := F) c = StableHlo.seq (ops (F := F)) := by
  chain_rfl

theorem main_eq (c : Dev nD) : main (F := Ideal) c = StableHlo.seq (ops (F := Ideal)) := main_eq_seq c

/-! ## The line's side conditions -/

/-- The signature scopes no TensorCore buffer and no semaphore: the program is tensor values only. -/
theorem scopedRefs_eq : (Finset.univ.filter fun b : Ref sig .tc => b.isScoped) = ∅ := by decide
theorem scopedSems_eq : (Finset.univ.filter fun sm : SemLoc sig => sm.isScoped .tc) = ∅ := by decide

/-- A property of every operation of two lists holds of every operation of their concatenation. -/
private theorem forall_app {α : Type} {p : α → Prop} {xs ys : List α} (hx : xs.Forall p) (hy : ys.Forall p) :
    (xs ++ ys).Forall p := List.forall_append.2 ⟨hx, hy⟩

/- Stretch by stretch, in the order of the operations: each touches TensorCore references only, and each determines
   its results (none allocates a buffer of unchosen contents). -/
theorem opsA_sub : (opsA : List (HloOp τ sig (Elt F))).Forall fun op => op.bufs ⊆ tcRefs τ sig :=
  ⟨nullary_bufs_sub .., nullary_bufs_sub .., nullary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., binary_bufs_sub .., unary_bufs_sub .., unary_bufs_sub .., unary_bufs_sub .., unary_bufs_sub ..,
    unary_bufs_sub .., binary_bufs_sub .., unary_bufs_sub .., binary_bufs_sub ..⟩
theorem opsA_fresh : (opsA : List (HloOp τ sig (Elt F))).Forall fun op => op.fresh = ∅ :=
  ⟨rfl, rfl, rfl, rfl, rfl, rfl,
    rfl, rfl, rfl, rfl, rfl, rfl,
    rfl, rfl, rfl, rfl, rfl, rfl,
    rfl, rfl, rfl, rfl⟩

theorem opsB_sub : (opsB : List (HloOp τ sig (Elt F))).Forall fun op => op.bufs ⊆ tcRefs τ sig :=
  ⟨unary_bufs_sub .., unary_bufs_sub .., unary_bufs_sub .., unary_bufs_sub .., binary_bufs_sub .., unary_bufs_sub ..,
    unary_bufs_sub .., unary_bufs_sub .., unary_bufs_sub .., binary_bufs_sub ..⟩
theorem opsB_fresh : (opsB : List (HloOp τ sig (Elt F))).Forall fun op => op.fresh = ∅ :=
  ⟨rfl, rfl, rfl, rfl, rfl, rfl,
    rfl, rfl, rfl, rfl⟩

theorem opsC_sub : (opsC : List (HloOp τ sig (Elt F))).Forall fun op => op.bufs ⊆ tcRefs τ sig :=
  ⟨unary_bufs_sub .., unary_bufs_sub .., unary_bufs_sub .., unary_bufs_sub .., unary_bufs_sub .., binary_bufs_sub ..,
    unary_bufs_sub .., unary_bufs_sub .., unary_bufs_sub .., unary_bufs_sub .., unary_bufs_sub .., binary_bufs_sub ..,
    binary_bufs_sub .., binary_bufs_sub .., binary_bufs_sub ..⟩
theorem opsC_fresh : (opsC : List (HloOp τ sig (Elt F))).Forall fun op => op.fresh = ∅ :=
  ⟨rfl, rfl, rfl, rfl, rfl, rfl,
    rfl, rfl, rfl, rfl, rfl, rfl,
    rfl, rfl, rfl⟩

theorem opsD_sub : (opsD : List (HloOp τ sig (Elt F))).Forall fun op => op.bufs ⊆ tcRefs τ sig :=
  ⟨nullary_bufs_sub .., unary_bufs_sub .., binary_bufs_sub .., nullary_bufs_sub .., unary_bufs_sub .., binary_bufs_sub ..,
    unary_bufs_sub .., nullary_bufs_sub .., binary_bufs_sub .., unary_bufs_sub .., unary_bufs_sub .., binary_bufs_sub ..⟩
theorem opsD_fresh : (opsD : List (HloOp τ sig (Elt F))).Forall fun op => op.fresh = ∅ :=
  ⟨rfl, rfl, rfl, rfl, rfl, rfl,
    rfl, rfl, rfl, rfl, rfl, rfl⟩

theorem opsE_sub : (opsE : List (HloOp τ sig (Elt F))).Forall fun op => op.bufs ⊆ tcRefs τ sig :=
  ⟨nullary_bufs_sub .., unary_bufs_sub .., binary_bufs_sub .., nullary_bufs_sub .., unary_bufs_sub .., binary_bufs_sub ..,
    binary_bufs_sub .., nullary_bufs_sub .., unary_bufs_sub .., binary_bufs_sub .., binary_bufs_sub .., nullary_bufs_sub ..,
    unary_bufs_sub .., binary_bufs_sub .., binary_bufs_sub ..⟩
theorem opsE_fresh : (opsE : List (HloOp τ sig (Elt F))).Forall fun op => op.fresh = ∅ :=
  ⟨rfl, rfl, rfl, rfl, rfl, rfl,
    rfl, rfl, rfl, rfl, rfl, rfl,
    rfl, rfl, rfl⟩

theorem opsF_sub : (opsF : List (HloOp τ sig (Elt F))).Forall fun op => op.bufs ⊆ tcRefs τ sig :=
  ⟨nullary_bufs_sub .., nullary_bufs_sub .., unary_bufs_sub .., unary_bufs_sub .., binary_bufs_sub .., unary_bufs_sub ..,
    unary_bufs_sub .., binary_bufs_sub .., nullary_bufs_sub .., nullary_bufs_sub .., unary_bufs_sub .., unary_bufs_sub ..,
    binary_bufs_sub .., unary_bufs_sub .., unary_bufs_sub .., binary_bufs_sub ..⟩
theorem opsF_fresh : (opsF : List (HloOp τ sig (Elt F))).Forall fun op => op.fresh = ∅ :=
  ⟨rfl, rfl, rfl, rfl, rfl, rfl,
    rfl, rfl, rfl, rfl, rfl, rfl,
    rfl, rfl, rfl, rfl⟩

theorem opsG_sub : (opsG : List (HloOp τ sig (Elt F))).Forall fun op => op.bufs ⊆ tcRefs τ sig :=
  ⟨unary_bufs_sub .., unary_bufs_sub .., binary_bufs_sub .., unary_bufs_sub .., binary_bufs_sub .., nullary_bufs_sub ..,
    unary_bufs_sub .., binary_bufs_sub .., binary_bufs_sub .., reshape_bufs_sub .., reshape_bufs_sub .., nullary_bufs_sub ..,
    unary_bufs_sub .., unary_bufs_sub .., ternary_bufs_sub .., reshape_bufs_sub ..⟩
theorem opsG_fresh : (opsG : List (HloOp τ sig (Elt F))).Forall fun op => op.fresh = ∅ :=
  ⟨rfl, rfl, rfl, rfl, rfl, rfl,
    rfl, rfl, rfl, rfl, rfl, rfl,
    rfl, rfl, rfl, rfl⟩

/-- Every operation of the line touches TensorCore references only. -/
theorem ops_sub : (ops : List (HloOp τ sig (Elt F))).Forall fun op => op.bufs ⊆ tcRefs τ sig :=
  forall_app (forall_app (forall_app (forall_app (forall_app (forall_app opsA_sub opsB_sub) opsC_sub) opsD_sub) opsE_sub) opsF_sub) opsG_sub

/-- Every operation of the line determines its results. -/
theorem ops_fresh : ∀ op ∈ (ops : List (HloOp τ sig (Elt F))), op.fresh = ∅ :=
  List.forall_iff_forall_mem.1
    (forall_app (forall_app (forall_app (forall_app (forall_app (forall_app opsA_fresh opsB_fresh) opsC_fresh) opsD_fresh) opsE_fresh) opsF_fresh) opsG_fresh)

/-! ## The run -/

/-- At the exact reals, from any memory with zero counters: every weakly fair execution of @main terminates, and every
    final state has each TensorCore buffer at the fold of the line's operations over its launch contents. -/
theorem run_after (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (d : Dev nD) (b : Ref sig .tc), r.2.mem ((d.tc : Thread nD τ).loc b)
        = StableHlo.after (ops (F := Ideal)) (StableHlo.launchContents m d) (Proc.devRef .tc b) :=
  run_seq scopedRefs_eq scopedSems_eq defs main (fun _ => ops) main_eq (fun _ => ops_sub) m ρ (fun _ => ops_fresh)

end Cert.ReferenceIdeal.RefValue

end
-- ==== Proof.RefOut.lean ====
/-
  The image the reference computes, as one function of its three argument arrays: the image starts at zero and every
  tap t of every point p adds its contribution — the point's value times the tap's normalised Gaussian weight, times the
  0/1 flag of the tap lying inside the image — to the cell at the tap's clamped pixel. The contributions are listed
  point by point: pair (p, t) at position p · 25 + t.
-/
import proofs.«165584_j75892072120707_2_alg».proof.Proof.RefOps
import proofs.«165584_j75892072120707_2_alg».proof.Proof.Spec
import proofs.«165584_j75892072120707_2_alg».proof.Proof.Relayout
import Idealize.ShloMosaic.Lib.ValueIdx

noncomputable section

namespace Cert.ReferenceIdeal.RefValue

open Cert.ReferenceIdeal Cert.ReferenceIdeal.Gen Idealize.ShloMosaic Idealize.ShloMosaic.TcCoe Idealize.SL.Sem ValueIdx

/-- The cell index of tap (k 1) of point (k 0). -/
def cellsR (x y : S1048576.Idx → Ideal .f32) : S1048576x25.Idx → BitVec 32 := fun k =>
  Cert.Splat.cell (x (ix1 (n := 1048576) (k 0))) (y (ix1 (n := 1048576) (k 0))) (k 1)

/-- The flagged contribution of tap (k 1) of point (k 0). -/
def tapsR (x y v : S1048576.Idx → Ideal .f32) : S1048576x25.Idx → Ideal .f32 := fun k =>
  Cert.Splat.tapMul (x (ix1 (n := 1048576) (k 0))) (y (ix1 (n := 1048576) (k 0))) (v (ix1 (n := 1048576) (k 0))) (k 1)

/-- The image: zero plus, at each cell, the sum of the contributions whose cell index names it. -/
def refOut (x y v : S1048576.Idx → Ideal .f32) : S2048x2048.Idx → Ideal .f32 :=
  shapeCast S2048x2048
    (Ideal.hostScatterAdd Cert.Splat.dS (fun _ => FloatOps.ofBits (F := Ideal) .f32 0x00000000#32)
      (broadcastInDim S26214400x1 ![0] Facts₀.bcast_S26214400_S26214400x1_0
        (shapeCast S26214400 (cellsR x y) Facts₀.shapeCasts_S1048576x25_S26214400))
      (shapeCast S26214400 (tapsR x y v) Facts₀.shapeCasts_S1048576x25_S26214400))
    Facts₀.shapeCasts_S4194304_S2048x2048

end Cert.ReferenceIdeal.RefValue

end
-- ==== Proof.LibAfterAppend.lean ====
/-
  Folding a list of host operations over buffer contents: the fold of a concatenation is the fold of the second list
  over the fold of the first, for any signature and contents. It lets a long straight-line program be read back in
  pieces: cut the list where the computation cuts itself and carry what the buffers hold across the cuts.
-/
import Idealize.ShloMosaic.Lib.StableHlo.Run

namespace Cert.LibAfterAppend

open Idealize.ShloMosaic

/-- Running one list of operations after another is running their concatenation. -/
theorem after_append {τ : Topo} {sig : RefSig} {Val : EltTy → Type} (a b : List (HloOp τ sig Val)) (V : Valuation τ sig Val) :
    StableHlo.after (a ++ b) V = StableHlo.after b (StableHlo.after a V) := by
  induction a generalizing V with
  | nil => rfl
  | cons op a ih => simp only [List.cons_append, StableHlo.after_cons, ih]

end Cert.LibAfterAppend
-- ==== Proof.RefReadFrame.lean ====
/-
  Each stretch of the program writes only its own result buffers: a buffer that is none of them holds after the
  stretch what it held before, whatever the contents were. One statement per stretch, over the list of the buffers the
  stretch writes.
-/
import proofs.«165584_j75892072120707_2_alg».proof.Proof.RefOut
import proofs.«165584_j75892072120707_2_alg».proof.Proof.LibAfterAppend
import proofs.«165584_j75892072120707_2_alg».proof.Proof.LibTypedRef
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Gen Idealize.ShloMosaic Idealize.ShloMosaic.TcCoe Idealize.SL.Sem ValueIdx

/-- A buffer the stretch A does not write keeps its contents. -/
theorem frameA (W : Valuation τ sig (Elt Ideal)) (r : Ref sig .tc)
    (hr : r ∉ [main_c, main_c_0, main_cst, main_v0, main_v1, main_cst_1, main_v2, main_v3, main_cst_2, main_v4, main_v5, main_cst_3, main_v6, main_v7, main_v8, main_v9, main_v10, main_v11, main_v12, main_v13, main_v14, main_v15]) :
    StableHlo.after (opsA (F := Ideal)) W (Proc.devRef .tc r) = W (Proc.devRef .tc r) := by
  refine StableHlo.after_of_writes_sub _ W ?_ hr
  simp only [List.Forall, StableHlo.TRef.unary, StableHlo.TRef.binary, StableHlo.nullary_writes, StableHlo.unary_writes,
    StableHlo.binary_writes, StableHlo.ternary_writes, StableHlo.reshape_writes,
    Finset.singleton_subset_iff, List.mem_toFinset, List.mem_map_of_injective (Proc.devRef_injective _)]
  decide

/-- A buffer the stretch B does not write keeps its contents. -/
theorem frameB (W : Valuation τ sig (Elt Ideal)) (r : Ref sig .tc)
    (hr : r ∉ [main_v16, main_v17, main_v18, main_v19, main_v20, main_v21, main_v22, main_v23, main_v24, main_v25]) :
    StableHlo.after (opsB (F := Ideal)) W (Proc.devRef .tc r) = W (Proc.devRef .tc r) := by
  refine StableHlo.after_of_writes_sub _ W ?_ hr
  simp only [List.Forall, StableHlo.TRef.unary, StableHlo.TRef.binary, StableHlo.nullary_writes, StableHlo.unary_writes,
    StableHlo.binary_writes, StableHlo.ternary_writes, StableHlo.reshape_writes,
    Finset.singleton_subset_iff, List.mem_toFinset, List.mem_map_of_injective (Proc.devRef_injective _)]
  decide

/-- A buffer the stretch C does not write keeps its contents. -/
theorem frameC (W : Valuation τ sig (Elt Ideal)) (r : Ref sig .tc)
    (hr : r ∉ [main_v26, main_v27, main_v28, main_v29, main_v30, main_v31, main_v32, main_v33, main_v34, main_v35, main_v36, main_v37, main_v38, main_v39, main_v40]) :
    StableHlo.after (opsC (F := Ideal)) W (Proc.devRef .tc r) = W (Proc.devRef .tc r) := by
  refine StableHlo.after_of_writes_sub _ W ?_ hr
  simp only [List.Forall, StableHlo.TRef.unary, StableHlo.TRef.binary, StableHlo.nullary_writes, StableHlo.unary_writes,
    StableHlo.binary_writes, StableHlo.ternary_writes, StableHlo.reshape_writes,
    Finset.singleton_subset_iff, List.mem_toFinset, List.mem_map_of_injective (Proc.devRef_injective _)]
  decide

/-- A buffer the stretch D does not write keeps its contents. -/
theorem frameD (W : Valuation τ sig (Elt Ideal)) (r : Ref sig .tc)
    (hr : r ∉ [main_cst_4, main_v41, main_v42, main_cst_5, main_v43, main_v44, main_v45, main_cst_6, main_v46, main_v47, main_v48, main_v49]) :
    StableHlo.after (opsD (F := Ideal)) W (Proc.devRef .tc r) = W (Proc.devRef .tc r) := by
  refine StableHlo.after_of_writes_sub _ W ?_ hr
  simp only [List.Forall, StableHlo.TRef.unary, StableHlo.TRef.binary, StableHlo.nullary_writes, StableHlo.unary_writes,
    StableHlo.binary_writes, StableHlo.ternary_writes, StableHlo.reshape_writes,
    Finset.singleton_subset_iff, List.mem_toFinset, List.mem_map_of_injective (Proc.devRef_injective _)]
  decide

/-- A buffer the stretch E does not write keeps its contents. -/
theorem frameE (W : Valuation τ sig (Elt Ideal)) (r : Ref sig .tc)
    (hr : r ∉ [main_c_7, main_v50, main_v51, main_c_8, main_v52, main_v53, main_v54, main_c_9, main_v55, main_v56, main_v57, main_c_10, main_v58, main_v59, main_v60]) :
    StableHlo.after (opsE (F := Ideal)) W (Proc.devRef .tc r) = W (Proc.devRef .tc r) := by
  refine StableHlo.after_of_writes_sub _ W ?_ hr
  simp only [List.Forall, StableHlo.TRef.unary, StableHlo.TRef.binary, StableHlo.nullary_writes, StableHlo.unary_writes,
    StableHlo.binary_writes, StableHlo.ternary_writes, StableHlo.reshape_writes,
    Finset.singleton_subset_iff, List.mem_toFinset, List.mem_map_of_injective (Proc.devRef_injective _)]
  decide

/-- A buffer the stretch F does not write keeps its contents. -/
theorem frameF (W : Valuation τ sig (Elt Ideal)) (r : Ref sig .tc)
    (hr : r ∉ [main_c_11, main_c_12, main_call0_v0, main_call0_v1, main_call0_v2, main_call0_v3, main_call0_v4, main_v61, main_c_13, main_c_14, main_call1_v0, main_call1_v1, main_call1_v2, main_call1_v3, main_call1_v4, main_v62]) :
    StableHlo.after (opsF (F := Ideal)) W (Proc.devRef .tc r) = W (Proc.devRef .tc r) := by
  refine StableHlo.after_of_writes_sub _ W ?_ hr
  simp only [List.Forall, StableHlo.TRef.unary, StableHlo.TRef.binary, StableHlo.nullary_writes, StableHlo.unary_writes,
    StableHlo.binary_writes, StableHlo.ternary_writes, StableHlo.reshape_writes,
    Finset.singleton_subset_iff, List.mem_toFinset, List.mem_map_of_injective (Proc.devRef_injective _)]
  decide

/-- A buffer the stretch G does not write keeps its contents. -/
theorem frameG (W : Valuation τ sig (Elt Ideal)) (r : Ref sig .tc)
    (hr : r ∉ [main_v63, main_v64, main_v65, main_v66, main_v67, main_c_15, main_v68, main_v69, main_v70, main_v71, main_v72, main_cst_16, main_v73, main_v74, main_v75, main_v76]) :
    StableHlo.after (opsG (F := Ideal)) W (Proc.devRef .tc r) = W (Proc.devRef .tc r) := by
  refine StableHlo.after_of_writes_sub _ W ?_ hr
  simp only [List.Forall, StableHlo.TRef.unary, StableHlo.TRef.binary, StableHlo.nullary_writes, StableHlo.unary_writes,
    StableHlo.binary_writes, StableHlo.ternary_writes, StableHlo.reshape_writes,
    Finset.singleton_subset_iff, List.mem_toFinset, List.mem_map_of_injective (Proc.devRef_injective _)]
  decide

end Cert.ReferenceIdeal.RefValue

end
-- ==== Proof.RefReadA.lean ====
/-
  The first stretch read back: from any contents, with x and y the first two argument arrays, it leaves every point's
  base pixel and in-pixel offset along each axis, and the two tables of tap offsets.
-/
import proofs.«165584_j75892072120707_2_alg».proof.Proof.RefOut
import proofs.«165584_j75892072120707_2_alg».proof.Proof.LibAfterAppend
import proofs.«165584_j75892072120707_2_alg».proof.Proof.LibTypedRef
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Gen Idealize.ShloMosaic Idealize.ShloMosaic.TcCoe Idealize.SL.Sem ValueIdx

/-- The base pixel columns. -/
theorem A_v9 (W : Valuation τ sig (Elt Ideal)) :
    StableHlo.after (opsA (F := Ideal)) W (Proc.devRef .tc main_v9) = fun i => Cert.Splat.base (W (Proc.devRef .tc main_arg0) i) := by
  after_results
  rfl

/-- The base pixel rows. -/
theorem A_v11 (W : Valuation τ sig (Elt Ideal)) :
    StableHlo.after (opsA (F := Ideal)) W (Proc.devRef .tc main_v11) = fun i => Cert.Splat.base (W (Proc.devRef .tc main_arg1) i) := by
  after_results
  rfl

/-- The horizontal offsets inside the base pixel. -/
theorem A_v13 (W : Valuation τ sig (Elt Ideal)) :
    StableHlo.after (opsA (F := Ideal)) W (Proc.devRef .tc main_v13) = fun i => Cert.Splat.frac (W (Proc.devRef .tc main_arg0) i) := by
  after_results
  rfl

/-- The vertical offsets inside the base pixel. -/
theorem A_v15 (W : Valuation τ sig (Elt Ideal)) :
    StableHlo.after (opsA (F := Ideal)) W (Proc.devRef .tc main_v15) = fun i => Cert.Splat.frac (W (Proc.devRef .tc main_arg1) i) := by
  after_results
  rfl

/-- The table of horizontal tap offsets. -/
theorem A_c (W : Valuation τ sig (Elt Ideal)) :
    StableHlo.after (opsA (F := Ideal)) W (Proc.devRef .tc main_c) = fun i => lit0 (S25.rowMajor i) := by
  after_results
  rfl

/-- The table of vertical tap offsets. -/
theorem A_c_0 (W : Valuation τ sig (Elt Ideal)) :
    StableHlo.after (opsA (F := Ideal)) W (Proc.devRef .tc main_c_0) = fun i => lit1 (S25.rowMajor i) := by
  after_results
  rfl

/-- The two tables are the taps' offsets, entry by entry. -/
theorem lit0_eq (t : Fin 25) : lit0 t = Cert.Splat.offx t := by
  revert t; decide
theorem lit1_eq (t : Fin 25) : lit1 t = Cert.Splat.offy t := by
  revert t; decide

/-- The row-major position of a one-coordinate index is the coordinate. -/
theorem rowMajor_ix1 (t : Fin 25) : S25.rowMajor (ix1 t) = t := by
  refine Fin.ext ?_
  rw [Shape.rowMajor_val_one]

end Cert.ReferenceIdeal.RefValue

end
-- ==== Proof.LibBcastForms.lean ====
/-
  Broadcasts between a vector, a one-column or one-row matrix and a full matrix, read at an index given by its
  coordinates: a column vector broadcast along the rows reads its entry at the row, a row vector broadcast down the
  columns reads its entry at the column, and a scalar broadcast anywhere reads the scalar. For any extents and any
  element type: these are the layouts a per-row or per-column quantity takes before it meets a full matrix entrywise.
-/
import Idealize.ShloMosaic.Lib.ValueIdx
import Idealize.ShloMosaic.Lib.Pipeline.Value
import Idealize.ShloMosaic.Lib.ValueLayout

namespace Cert.Lib.Bcast

open Idealize.ShloMosaic ValueIdx

variable {α : Type}

/-- A vector of n entries made a one-column matrix reads, in row p, its entry p. -/
theorem vec_col {n : Nat} (x : (⟨1, ![n]⟩ : Shape).Idx → α)
    (h : (⟨1, ![n]⟩ : Shape).BroadcastsInDim ⟨2, ![n, 1]⟩ ![0]) (p : Fin n) (u : Fin 1) :
    broadcastInDim ⟨2, ![n, 1]⟩ ![0] h x (ix2 p u) = x (ix1 p) := by
  refine broadcastInDim_apply _ h x (ix2 p u) (ix1 p) fun a => ?_
  match a with
  | ⟨0, _⟩ =>
    show p.val = if n = 1 then 0 else p.val
    split
    · have := p.isLt; omega
    · rfl

/-- A one-column matrix broadcast along m columns reads, at (p, t), its row p. -/
theorem col_mat {n m : Nat} (x : (⟨2, ![n, 1]⟩ : Shape).Idx → α)
    (h : (⟨2, ![n, 1]⟩ : Shape).BroadcastsInDim ⟨2, ![n, m]⟩ ![0, 1]) (p : Fin n) (t : Fin m) :
    broadcastInDim ⟨2, ![n, m]⟩ ![0, 1] h x (ix2 p t) = x (ix2 p (0 : Fin 1)) := by
  refine broadcastInDim_apply _ h x (ix2 p t) (ix2 p (0 : Fin 1)) fun a => ?_
  match a with
  | ⟨0, _⟩ =>
    show p.val = if n = 1 then 0 else p.val
    split
    · have := p.isLt; omega
    · rfl
  | ⟨1, _⟩ => rfl

/-- A vector of m entries made a one-row matrix reads, in column t, its entry t. -/
theorem vec_row {m : Nat} (x : (⟨1, ![m]⟩ : Shape).Idx → α)
    (h : (⟨1, ![m]⟩ : Shape).BroadcastsInDim ⟨2, ![1, m]⟩ ![1]) (u : Fin 1) (t : Fin m) :
    broadcastInDim ⟨2, ![1, m]⟩ ![1] h x (ix2 u t) = x (ix1 t) := by
  refine broadcastInDim_apply _ h x (ix2 u t) (ix1 t) fun a => ?_
  match a with
  | ⟨0, _⟩ =>
    show t.val = if m = 1 then 0 else t.val
    split
    · have := t.isLt; omega
    · rfl

/-- A one-row matrix broadcast down n rows reads, at (p, t), its column t. -/
theorem row_mat {n m : Nat} (x : (⟨2, ![1, m]⟩ : Shape).Idx → α)
    (h : (⟨2, ![1, m]⟩ : Shape).BroadcastsInDim ⟨2, ![n, m]⟩ ![0, 1]) (p : Fin n) (t : Fin m) :
    broadcastInDim ⟨2, ![n, m]⟩ ![0, 1] h x (ix2 p t) = x (ix2 (0 : Fin 1) t) := by
  refine broadcastInDim_apply _ h x (ix2 p t) (ix2 (0 : Fin 1) t) fun a => ?_
  match a with
  | ⟨0, _⟩ => rfl
  | ⟨1, _⟩ =>
    show t.val = if m = 1 then 0 else t.val
    split
    · have := t.isLt; omega
    · rfl

/-- A vector spread along the rows of a matrix, through a one-column matrix: entry p at every (p, t). -/
theorem vec_col_mat {n m : Nat} (x : (⟨1, ![n]⟩ : Shape).Idx → α)
    (h1 : (⟨1, ![n]⟩ : Shape).BroadcastsInDim ⟨2, ![n, 1]⟩ ![0])
    (h2 : (⟨2, ![n, 1]⟩ : Shape).BroadcastsInDim ⟨2, ![n, m]⟩ ![0, 1]) (p : Fin n) (t : Fin m) :
    broadcastInDim ⟨2, ![n, m]⟩ ![0, 1] h2 (broadcastInDim ⟨2, ![n, 1]⟩ ![0] h1 x) (ix2 p t) = x (ix1 p) :=
  (col_mat _ h2 p t).trans (vec_col x h1 p 0)

/-- A vector spread down the columns of a matrix, through a one-row matrix: entry t at every (p, t). -/
theorem vec_row_mat {n m : Nat} (x : (⟨1, ![m]⟩ : Shape).Idx → α)
    (h1 : (⟨1, ![m]⟩ : Shape).BroadcastsInDim ⟨2, ![1, m]⟩ ![1])
    (h2 : (⟨2, ![1, m]⟩ : Shape).BroadcastsInDim ⟨2, ![n, m]⟩ ![0, 1]) (p : Fin n) (t : Fin m) :
    broadcastInDim ⟨2, ![n, m]⟩ ![0, 1] h2 (broadcastInDim ⟨2, ![1, m]⟩ ![1] h1 x) (ix2 p t) = x (ix1 t) :=
  (row_mat _ h2 p t).trans (vec_row x h1 0 t)

/-- A scalar broadcast to any shape reads the scalar everywhere. -/
theorem scalar {t : Shape} (x : (⟨0, ![]⟩ : Shape).Idx → α)
    (h : (⟨0, ![]⟩ : Shape).BroadcastsInDim t ![]) (j : t.Idx) :
    broadcastInDim t ![] h x j = x ix0 := by
  unfold broadcastInDim
  exact congrArg x (funext fun a => a.elim0)

end Cert.Lib.Bcast
-- ==== Proof.RefReadB.lean ====
/-
  The second stretch read back: from any contents it leaves, at tap t of point p, the base pixel of the point plus the
  tap's offset, along each axis — the base pixels spread along the taps, the offsets down the points, and added.
-/
import proofs.«165584_j75892072120707_2_alg».proof.Proof.RefOut
import proofs.«165584_j75892072120707_2_alg».proof.Proof.LibAfterAppend
import proofs.«165584_j75892072120707_2_alg».proof.Proof.LibTypedRef
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws
import proofs.«165584_j75892072120707_2_alg».proof.Proof.LibBcastForms
set_option maxRecDepth 16384

noncomputable section

namespace Cert.ReferenceIdeal.RefValue

open Cert.ReferenceIdeal Cert.ReferenceIdeal.Gen Idealize.ShloMosaic Idealize.ShloMosaic.TcCoe Idealize.SL.Sem ValueIdx

/-- Tap t's pixel column: the point's base column plus the tap's horizontal offset. -/
theorem B_v20 (W : Valuation τ sig (Elt Ideal)) (p : Fin 1048576) (t : Fin 25) :
    StableHlo.after (opsB (F := Ideal)) W (Proc.devRef .tc main_v20) (ix2 p t)
      = IntOp.addi (W (Proc.devRef .tc main_v9) (ix1 p)) (W (Proc.devRef .tc main_c) (ix1 t)) := by
  after_results
  exact congrArg₂ IntOp.addi (Cert.Lib.Bcast.vec_col_mat _ _ _ p t) (Cert.Lib.Bcast.vec_row_mat _ _ _ p t)

/-- Tap t's pixel row: the point's base row plus the tap's vertical offset. -/
theorem B_v25 (W : Valuation τ sig (Elt Ideal)) (p : Fin 1048576) (t : Fin 25) :
    StableHlo.after (opsB (F := Ideal)) W (Proc.devRef .tc main_v25) (ix2 p t)
      = IntOp.addi (W (Proc.devRef .tc main_v11) (ix1 p)) (W (Proc.devRef .tc main_c_0) (ix1 t)) := by
  after_results
  exact congrArg₂ IntOp.addi (Cert.Lib.Bcast.vec_col_mat _ _ _ p t) (Cert.Lib.Bcast.vec_row_mat _ _ _ p t)

end Cert.ReferenceIdeal.RefValue

end
-- ==== Proof.RefReadC.lean ====
/-
  The third stretch read back: from any contents it leaves, at tap t of point p, the squared distance from the point to
  the tap — along each axis the point's offset inside its base pixel minus the tap's offset, squared, and the two added.
-/
import proofs.«165584_j75892072120707_2_alg».proof.Proof.RefOut
import proofs.«165584_j75892072120707_2_alg».proof.Proof.LibAfterAppend
import proofs.«165584_j75892072120707_2_alg».proof.Proof.LibTypedRef
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws
import proofs.«165584_j75892072120707_2_alg».proof.Proof.LibBcastForms
set_option maxRecDepth 16384

noncomputable section

namespace Cert.ReferenceIdeal.RefValue

open Cert.ReferenceIdeal Cert.ReferenceIdeal.Gen Idealize.ShloMosaic Idealize.ShloMosaic.TcCoe Idealize.SL.Sem ValueIdx

/-- A vector spread along the taps minus a table of integers, made reals, spread down the points: at (p, t) the
    vector's entry p minus the real of the table's entry t. -/
theorem C_sub (a : S1048576.Idx → Ideal .f32) (c : S25.Idx → BitVec 32) (p : Fin 1048576) (t : Fin 25) :
    subf (F := Ideal)
        (broadcastInDim S1048576x25 ![0, 1] bcast_S1048576x1_S1048576x25_0_1
          (broadcastInDim S1048576x1 ![0] bcast_S1048576_S1048576x1_0 a))
        (broadcastInDim S1048576x25 ![0, 1] bcast_S1x25_S1048576x25_0_1
          (sitofp (F := Ideal) .f32 (broadcastInDim S1x25 ![1] bcast_S25_S1x25_1 c))) (ix2 p t)
      = FloatOps.subf (a (ix1 p)) (FloatOps.sitofp .f32 (c (ix1 t))) :=
  congrArg₂ FloatOps.subf (Cert.Lib.Bcast.vec_col_mat _ _ _ p t)
    ((Cert.Lib.Bcast.row_mat _ _ p t).trans (congrArg (FloatOps.sitofp .f32) (Cert.Lib.Bcast.vec_row _ _ 0 t)))

/-- Tap t's squared distance from point p. -/
theorem C_v40 (W : Valuation τ sig (Elt Ideal)) (p : Fin 1048576) (t : Fin 25) :
    StableHlo.after (opsC (F := Ideal)) W (Proc.devRef .tc main_v40) (ix2 p t)
      = FloatOps.addf (Cert.Splat.sq (W (Proc.devRef .tc main_v13) (ix1 p)) (W (Proc.devRef .tc main_c) (ix1 t)))
          (Cert.Splat.sq (W (Proc.devRef .tc main_v15) (ix1 p)) (W (Proc.devRef .tc main_c_0) (ix1 t))) := by
  after_results
  exact congrArg₂ FloatOps.addf
    (congrArg₂ FloatOps.mulf (C_sub _ _ p t) (C_sub _ _ p t))
    (congrArg₂ FloatOps.mulf (C_sub _ _ p t) (C_sub _ _ p t))

end Cert.ReferenceIdeal.RefValue

end
-- ==== Proof.RefReadD.lean ====
/-
  The fourth stretch read back: from any contents d (the squared distances) it leaves, at tap t of point p, the tap's
  Gaussian weight exp (-½ · d / ¼) divided by the sum of the point's 25 weights. On the extended reals the sum over
  the tap axis is the initial value 0 plus the sum of the 25 entries of the point's row.
-/
import proofs.«165584_j75892072120707_2_alg».proof.Proof.RefOut
import proofs.«165584_j75892072120707_2_alg».proof.Proof.LibAfterAppend
import proofs.«165584_j75892072120707_2_alg».proof.Proof.LibTypedRef
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws
import proofs.«165584_j75892072120707_2_alg».proof.Proof.LibBcastForms
set_option maxRecDepth 16384

noncomputable section

namespace Cert.ReferenceIdeal.RefValue

open Cert.ReferenceIdeal Cert.ReferenceIdeal.Gen Idealize.ShloMosaic Idealize.ShloMosaic.TcCoe Idealize.SL.Sem ValueIdx

/-- The Gaussian weight of a squared distance. -/
def gauss (d : Ideal .f32) : Ideal .f32 :=
  FloatOps.exp (FloatOps.divf (FloatOps.mulf (FloatOps.ofBits .f32 0xBF000000#32) d) (FloatOps.ofBits .f32 0x3E800000#32))

/-- Summing over the tap axis: the source index over point p with tap k put back is (p, k). -/
theorem lift_ix (h : S1048576x25.Reduces [1] S1048576) (p : Fin 1048576) (k : Fin 25) :
    h.lift (ix1 p) k = ix2 p k := by
  funext a
  match a with
  | ⟨0, _⟩ => exact Fin.ext rfl
  | ⟨1, _⟩ => exact Fin.ext rfl

/-- The sum of a [1048576, 25] array over its tap axis from the initial value zero, at point p: the sum of row p. -/
theorem rowSum (g : S1048576x25.Idx → Ideal .f32) (p : Fin 1048576) :
    Host.reduceAdd (F := Ideal) g (constant (F := Ideal) S_ .f32 0x00000000#32) reducesTo_S1048576x25_S1048576_d1 h_S_ (ix1 p)
      = ∑ k : Fin 25, g (ix2 p k) := by
  have h : S1048576x25.Reduces [1] S1048576 := by decide
  refine (Ideal.hostReduceAdd_single reducesTo_S1048576x25_S1048576_d1 h g _ (ix1 p)).trans ?_
  show Ideal.ofBits .f32 0x00000000#32 + ∑ k : Fin 25, g (h.lift (ix1 p) k) = _
  rw [Ideal.ofBits_zero_f32, zero_add]
  exact Finset.sum_congr rfl fun k _ => congrArg g (lift_ix h p k)

/-- The host's quotient and exponential of arrays, at an index, are those of the entries. -/
theorem hostDivf_at {s : Shape} (a b : FVec Ideal s .f32) (i : s.Idx) : Host.divf a b i = FloatOps.divf (a i) (b i) := rfl
theorem hostExp_at {s : Shape} (a : FVec Ideal s .f32) (i : s.Idx) : Host.exp a i = FloatOps.exp (a i) := rfl

/-- Tap t's normalised weight at point p. -/
theorem D_v49 (W : Valuation τ sig (Elt Ideal)) (p : Fin 1048576) (t : Fin 25) :
    StableHlo.after (opsD (F := Ideal)) W (Proc.devRef .tc main_v49) (ix2 p t)
      = FloatOps.divf (gauss (W (Proc.devRef .tc main_v40) (ix2 p t))) (∑ k : Fin 25, gauss (W (Proc.devRef .tc main_v40) (ix2 p k))) := by
  after_results
  refine (hostDivf_at _ _ _).trans ?_
  refine congrArg₂ FloatOps.divf ?_ ?_
  · rfl
  · refine (Cert.Lib.Bcast.vec_col_mat _ _ _ p t).trans ?_
    refine (rowSum _ p).trans ?_
    rfl

end Cert.ReferenceIdeal.RefValue

end
-- ==== Proof.RefReadS1.lean ====
/-
  The contents of the live buffers after each of the first four stretches, from any initial contents V, at an index and
  in the words of the per-point functions: with x, y the first two argument arrays, tap t of point p has pixel column
  xi (x p) t and row yi (y p) t, squared distance sq (frac (x p)) (offx t) + sq (frac (y p)) (offy t), and normalised
  weight wt / wsum. Each stretch is read on its own and reads what the stretch before it left.
-/
import proofs.«165584_j75892072120707_2_alg».proof.Proof.RefOut
import proofs.«165584_j75892072120707_2_alg».proof.Proof.LibAfterAppend
import proofs.«165584_j75892072120707_2_alg».proof.Proof.LibTypedRef
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws
import proofs.«165584_j75892072120707_2_alg».proof.Proof.RefReadFrame
import proofs.«165584_j75892072120707_2_alg».proof.Proof.RefReadA
import proofs.«165584_j75892072120707_2_alg».proof.Proof.RefReadB
import proofs.«165584_j75892072120707_2_alg».proof.Proof.RefReadC
import proofs.«165584_j75892072120707_2_alg».proof.Proof.RefReadD
set_option maxRecDepth 16384

noncomputable section

namespace Cert.ReferenceIdeal.RefValue

open Cert.ReferenceIdeal Cert.ReferenceIdeal.Gen Idealize.ShloMosaic Idealize.ShloMosaic.TcCoe Idealize.SL.Sem ValueIdx

/-- The contents after the first stretch, after the first two, … -/
def stA (V : Valuation τ sig (Elt Ideal)) : Valuation τ sig (Elt Ideal) := StableHlo.after (opsA (F := Ideal)) V
def stB (V : Valuation τ sig (Elt Ideal)) : Valuation τ sig (Elt Ideal) := StableHlo.after (opsB (F := Ideal)) (stA V)
def stC (V : Valuation τ sig (Elt Ideal)) : Valuation τ sig (Elt Ideal) := StableHlo.after (opsC (F := Ideal)) (stB V)
def stD (V : Valuation τ sig (Elt Ideal)) : Valuation τ sig (Elt Ideal) := StableHlo.after (opsD (F := Ideal)) (stC V)

/-! ### After the first stretch -/

theorem stA_v9 (V : Valuation τ sig (Elt Ideal)) (p : Fin 1048576) : stA V (Proc.devRef .tc main_v9) (ix1 p) = Cert.Splat.base (V (Proc.devRef .tc main_arg0) (ix1 p)) :=
  congrFun (A_v9 V) (ix1 p)
theorem stA_v11 (V : Valuation τ sig (Elt Ideal)) (p : Fin 1048576) : stA V (Proc.devRef .tc main_v11) (ix1 p) = Cert.Splat.base (V (Proc.devRef .tc main_arg1) (ix1 p)) :=
  congrFun (A_v11 V) (ix1 p)
theorem stA_v13 (V : Valuation τ sig (Elt Ideal)) (p : Fin 1048576) : stA V (Proc.devRef .tc main_v13) (ix1 p) = Cert.Splat.frac (V (Proc.devRef .tc main_arg0) (ix1 p)) :=
  congrFun (A_v13 V) (ix1 p)
theorem stA_v15 (V : Valuation τ sig (Elt Ideal)) (p : Fin 1048576) : stA V (Proc.devRef .tc main_v15) (ix1 p) = Cert.Splat.frac (V (Proc.devRef .tc main_arg1) (ix1 p)) :=
  congrFun (A_v15 V) (ix1 p)
theorem stA_c (V : Valuation τ sig (Elt Ideal)) (t : Fin 25) : stA V (Proc.devRef .tc main_c) (ix1 t) = Cert.Splat.offx t :=
  (congrFun (A_c V) (ix1 t)).trans ((congrArg lit0 (rowMajor_ix1 t)).trans (lit0_eq t))
theorem stA_c_0 (V : Valuation τ sig (Elt Ideal)) (t : Fin 25) : stA V (Proc.devRef .tc main_c_0) (ix1 t) = Cert.Splat.offy t :=
  (congrFun (A_c_0 V) (ix1 t)).trans ((congrArg lit1 (rowMajor_ix1 t)).trans (lit1_eq t))
theorem stA_arg2 (V : Valuation τ sig (Elt Ideal)) : stA V (Proc.devRef .tc main_arg2) = V (Proc.devRef .tc main_arg2) := frameA V _ (by decide)

/-! ### After the second stretch -/

theorem stB_v20 (V : Valuation τ sig (Elt Ideal)) (p : Fin 1048576) (t : Fin 25) :
    stB V (Proc.devRef .tc main_v20) (ix2 p t) = Cert.Splat.xi (V (Proc.devRef .tc main_arg0) (ix1 p)) t :=
  (B_v20 (stA V) p t).trans (congrArg₂ IntOp.addi (stA_v9 V p) (stA_c V t))
theorem stB_v25 (V : Valuation τ sig (Elt Ideal)) (p : Fin 1048576) (t : Fin 25) :
    stB V (Proc.devRef .tc main_v25) (ix2 p t) = Cert.Splat.yi (V (Proc.devRef .tc main_arg1) (ix1 p)) t :=
  (B_v25 (stA V) p t).trans (congrArg₂ IntOp.addi (stA_v11 V p) (stA_c_0 V t))
theorem stB_v13 (V : Valuation τ sig (Elt Ideal)) (p : Fin 1048576) : stB V (Proc.devRef .tc main_v13) (ix1 p) = Cert.Splat.frac (V (Proc.devRef .tc main_arg0) (ix1 p)) :=
  (congrFun (frameB (stA V) main_v13 (by decide)) (ix1 p)).trans (stA_v13 V p)
theorem stB_v15 (V : Valuation τ sig (Elt Ideal)) (p : Fin 1048576) : stB V (Proc.devRef .tc main_v15) (ix1 p) = Cert.Splat.frac (V (Proc.devRef .tc main_arg1) (ix1 p)) :=
  (congrFun (frameB (stA V) main_v15 (by decide)) (ix1 p)).trans (stA_v15 V p)
theorem stB_c (V : Valuation τ sig (Elt Ideal)) (t : Fin 25) : stB V (Proc.devRef .tc main_c) (ix1 t) = Cert.Splat.offx t :=
  (congrFun (frameB (stA V) main_c (by decide)) (ix1 t)).trans (stA_c V t)
theorem stB_c_0 (V : Valuation τ sig (Elt Ideal)) (t : Fin 25) : stB V (Proc.devRef .tc main_c_0) (ix1 t) = Cert.Splat.offy t :=
  (congrFun (frameB (stA V) main_c_0 (by decide)) (ix1 t)).trans (stA_c_0 V t)
theorem stB_arg2 (V : Valuation τ sig (Elt Ideal)) : stB V (Proc.devRef .tc main_arg2) = V (Proc.devRef .tc main_arg2) := (frameB (stA V) _ (by decide)).trans (stA_arg2 V)

/-! ### After the third stretch -/

theorem stC_v40 (V : Valuation τ sig (Elt Ideal)) (p : Fin 1048576) (t : Fin 25) :
    stC V (Proc.devRef .tc main_v40) (ix2 p t)
      = FloatOps.addf (Cert.Splat.sq (Cert.Splat.frac (V (Proc.devRef .tc main_arg0) (ix1 p))) (Cert.Splat.offx t))
          (Cert.Splat.sq (Cert.Splat.frac (V (Proc.devRef .tc main_arg1) (ix1 p))) (Cert.Splat.offy t)) :=
  (C_v40 (stB V) p t).trans (congrArg₂ FloatOps.addf (congrArg₂ Cert.Splat.sq (stB_v13 V p) (stB_c V t))
    (congrArg₂ Cert.Splat.sq (stB_v15 V p) (stB_c_0 V t)))
theorem stC_v20 (V : Valuation τ sig (Elt Ideal)) (p : Fin 1048576) (t : Fin 25) :
    stC V (Proc.devRef .tc main_v20) (ix2 p t) = Cert.Splat.xi (V (Proc.devRef .tc main_arg0) (ix1 p)) t :=
  (congrFun (frameC (stB V) main_v20 (by decide)) (ix2 p t)).trans (stB_v20 V p t)
theorem stC_v25 (V : Valuation τ sig (Elt Ideal)) (p : Fin 1048576) (t : Fin 25) :
    stC V (Proc.devRef .tc main_v25) (ix2 p t) = Cert.Splat.yi (V (Proc.devRef .tc main_arg1) (ix1 p)) t :=
  (congrFun (frameC (stB V) main_v25 (by decide)) (ix2 p t)).trans (stB_v25 V p t)
theorem stC_arg2 (V : Valuation τ sig (Elt Ideal)) : stC V (Proc.devRef .tc main_arg2) = V (Proc.devRef .tc main_arg2) := (frameC (stB V) _ (by decide)).trans (stB_arg2 V)

/-! ### After the fourth stretch -/

theorem stD_v49 (V : Valuation τ sig (Elt Ideal)) (p : Fin 1048576) (t : Fin 25) :
    stD V (Proc.devRef .tc main_v49) (ix2 p t)
      = FloatOps.divf (Cert.Splat.wt (V (Proc.devRef .tc main_arg0) (ix1 p)) (V (Proc.devRef .tc main_arg1) (ix1 p)) t)
          (Cert.Splat.wsum (V (Proc.devRef .tc main_arg0) (ix1 p)) (V (Proc.devRef .tc main_arg1) (ix1 p))) := by
  refine (D_v49 (stC V) p t).trans ?_
  refine congrArg₂ FloatOps.divf (congrArg gauss (stC_v40 V p t)) ?_
  show _ = ∑ k : Fin 25, Cert.Splat.wt (V (Proc.devRef .tc main_arg0) (ix1 p)) (V (Proc.devRef .tc main_arg1) (ix1 p)) k
  exact Finset.sum_congr rfl fun k _ => congrArg gauss (stC_v40 V p k)
theorem stD_v20 (V : Valuation τ sig (Elt Ideal)) (p : Fin 1048576) (t : Fin 25) :
    stD V (Proc.devRef .tc main_v20) (ix2 p t) = Cert.Splat.xi (V (Proc.devRef .tc main_arg0) (ix1 p)) t :=
  (congrFun (frameD (stC V) main_v20 (by decide)) (ix2 p t)).trans (stC_v20 V p t)
theorem stD_v25 (V : Valuation τ sig (Elt Ideal)) (p : Fin 1048576) (t : Fin 25) :
    stD V (Proc.devRef .tc main_v25) (ix2 p t) = Cert.Splat.yi (V (Proc.devRef .tc main_arg1) (ix1 p)) t :=
  (congrFun (frameD (stC V) main_v25 (by decide)) (ix2 p t)).trans (stC_v25 V p t)
theorem stD_arg2 (V : Valuation τ sig (Elt Ideal)) : stD V (Proc.devRef .tc main_arg2) = V (Proc.devRef .tc main_arg2) := (frameD (stC V) _ (by decide)).trans (stC_arg2 V)

end Cert.ReferenceIdeal.RefValue

end
-- ==== Proof.RefReadR1.lean ====
/-
  Two stretches read back, from any contents. The flag stretch leaves, tap by tap, the conjunction of the four bounds
  0 ≤ column < 2048 and 0 ≤ row < 2048 on the tap's pixel; the clamping stretch leaves every pixel column and every pixel
  row clamped into 0 … 2047: the larger of 0 and the coordinate, then the smaller of 2047 and that. The bounds are
  scalars spread over the whole array, so at every tap they read the same constant.
-/
import proofs.«165584_j75892072120707_2_alg».proof.Proof.RefOut
import proofs.«165584_j75892072120707_2_alg».proof.Proof.LibAfterAppend
import proofs.«165584_j75892072120707_2_alg».proof.Proof.LibTypedRef
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Gen Idealize.ShloMosaic Idealize.ShloMosaic.TcCoe Idealize.SL.Sem ValueIdx

/-- The flags: inside the image along both axes. -/
theorem E_v60 (W : Valuation τ sig (Elt Ideal)) :
    StableHlo.after (opsE (F := Ideal)) W (Proc.devRef .tc main_v60)
      = fun k => IntOp.andi (IntOp.andi (IntOp.andi (IntOp.cmpi .sge (W (Proc.devRef .tc main_v20) k) 0#32) (IntOp.cmpi .slt (W (Proc.devRef .tc main_v20) k) 2048#32))
          (IntOp.cmpi .sge (W (Proc.devRef .tc main_v25) k) 0#32)) (IntOp.cmpi .slt (W (Proc.devRef .tc main_v25) k) 2048#32) := by
  after_results_simp
  rfl

/-- The clamped pixel columns. -/
theorem F_v61 (W : Valuation τ sig (Elt Ideal)) :
    StableHlo.after (opsF (F := Ideal)) W (Proc.devRef .tc main_v61) = fun k => Cert.Splat.clip (W (Proc.devRef .tc main_v20) k) := by
  after_results
  rfl

/-- The clamped pixel rows. -/
theorem F_v62 (W : Valuation τ sig (Elt Ideal)) :
    StableHlo.after (opsF (F := Ideal)) W (Proc.devRef .tc main_v62) = fun k => Cert.Splat.clip (W (Proc.devRef .tc main_v25) k) := by
  after_results
  rfl

end Cert.ReferenceIdeal.RefValue

end
-- ==== Proof.RefReadS2.lean ====
/-
  The contents of the live buffers after the fifth and sixth stretches, from any initial contents V: tap t of point p
  carries the flag ok of its pixel lying inside the image, and its pixel column and row clamped into the image; the
  normalised weights and the argument arrays are still what they were.
-/
import proofs.«165584_j75892072120707_2_alg».proof.Proof.RefOut
import proofs.«165584_j75892072120707_2_alg».proof.Proof.LibAfterAppend
import proofs.«165584_j75892072120707_2_alg».proof.Proof.LibTypedRef
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws
import proofs.«165584_j75892072120707_2_alg».proof.Proof.RefReadS1
import proofs.«165584_j75892072120707_2_alg».proof.Proof.RefReadR1
set_option maxRecDepth 16384

noncomputable section

namespace Cert.ReferenceIdeal.RefValue

open Cert.ReferenceIdeal Cert.ReferenceIdeal.Gen Idealize.ShloMosaic Idealize.ShloMosaic.TcCoe Idealize.SL.Sem ValueIdx

def stE (V : Valuation τ sig (Elt Ideal)) : Valuation τ sig (Elt Ideal) := StableHlo.after (opsE (F := Ideal)) (stD V)
def stF (V : Valuation τ sig (Elt Ideal)) : Valuation τ sig (Elt Ideal) := StableHlo.after (opsF (F := Ideal)) (stE V)

/-- The inside-the-image flag of a pixel, from its column and row. -/
def okOf (a b : BitVec 32) : BitVec 1 :=
  IntOp.andi (IntOp.andi (IntOp.andi (IntOp.cmpi .sge a 0#32) (IntOp.cmpi .slt a 2048#32)) (IntOp.cmpi .sge b 0#32))
    (IntOp.cmpi .slt b 2048#32)

/-! ### After the fifth stretch -/

theorem stE_v60 (V : Valuation τ sig (Elt Ideal)) (p : Fin 1048576) (t : Fin 25) :
    stE V (Proc.devRef .tc main_v60) (ix2 p t) = Cert.Splat.ok (V (Proc.devRef .tc main_arg0) (ix1 p)) (V (Proc.devRef .tc main_arg1) (ix1 p)) t :=
  (congrFun (E_v60 (stD V)) (ix2 p t)).trans (congrArg₂ okOf (stD_v20 V p t) (stD_v25 V p t))
theorem stE_v20 (V : Valuation τ sig (Elt Ideal)) (p : Fin 1048576) (t : Fin 25) :
    stE V (Proc.devRef .tc main_v20) (ix2 p t) = Cert.Splat.xi (V (Proc.devRef .tc main_arg0) (ix1 p)) t :=
  (congrFun (frameE (stD V) main_v20 (by decide)) (ix2 p t)).trans (stD_v20 V p t)
theorem stE_v25 (V : Valuation τ sig (Elt Ideal)) (p : Fin 1048576) (t : Fin 25) :
    stE V (Proc.devRef .tc main_v25) (ix2 p t) = Cert.Splat.yi (V (Proc.devRef .tc main_arg1) (ix1 p)) t :=
  (congrFun (frameE (stD V) main_v25 (by decide)) (ix2 p t)).trans (stD_v25 V p t)
theorem stE_v49 (V : Valuation τ sig (Elt Ideal)) (p : Fin 1048576) (t : Fin 25) :
    stE V (Proc.devRef .tc main_v49) (ix2 p t) = FloatOps.divf (Cert.Splat.wt (V (Proc.devRef .tc main_arg0) (ix1 p)) (V (Proc.devRef .tc main_arg1) (ix1 p)) t) (Cert.Splat.wsum (V (Proc.devRef .tc main_arg0) (ix1 p)) (V (Proc.devRef .tc main_arg1) (ix1 p))) :=
  (congrFun (frameE (stD V) main_v49 (by decide)) (ix2 p t)).trans (stD_v49 V p t)
theorem stE_arg2 (V : Valuation τ sig (Elt Ideal)) : stE V (Proc.devRef .tc main_arg2) = V (Proc.devRef .tc main_arg2) := (frameE (stD V) _ (by decide)).trans (stD_arg2 V)

/-! ### After the sixth stretch -/

theorem stF_v61 (V : Valuation τ sig (Elt Ideal)) (p : Fin 1048576) (t : Fin 25) :
    stF V (Proc.devRef .tc main_v61) (ix2 p t) = Cert.Splat.clip (Cert.Splat.xi (V (Proc.devRef .tc main_arg0) (ix1 p)) t) :=
  (congrFun (F_v61 (stE V)) (ix2 p t)).trans (congrArg Cert.Splat.clip (stE_v20 V p t))
theorem stF_v62 (V : Valuation τ sig (Elt Ideal)) (p : Fin 1048576) (t : Fin 25) :
    stF V (Proc.devRef .tc main_v62) (ix2 p t) = Cert.Splat.clip (Cert.Splat.yi (V (Proc.devRef .tc main_arg1) (ix1 p)) t) :=
  (congrFun (F_v62 (stE V)) (ix2 p t)).trans (congrArg Cert.Splat.clip (stE_v25 V p t))
theorem stF_v49 (V : Valuation τ sig (Elt Ideal)) (p : Fin 1048576) (t : Fin 25) :
    stF V (Proc.devRef .tc main_v49) (ix2 p t) = FloatOps.divf (Cert.Splat.wt (V (Proc.devRef .tc main_arg0) (ix1 p)) (V (Proc.devRef .tc main_arg1) (ix1 p)) t) (Cert.Splat.wsum (V (Proc.devRef .tc main_arg0) (ix1 p)) (V (Proc.devRef .tc main_arg1) (ix1 p))) :=
  (congrFun (frameF (stE V) main_v49 (by decide)) (ix2 p t)).trans (stE_v49 V p t)
theorem stF_v60 (V : Valuation τ sig (Elt Ideal)) (p : Fin 1048576) (t : Fin 25) :
    stF V (Proc.devRef .tc main_v60) (ix2 p t) = Cert.Splat.ok (V (Proc.devRef .tc main_arg0) (ix1 p)) (V (Proc.devRef .tc main_arg1) (ix1 p)) t :=
  (congrFun (frameF (stE V) main_v60 (by decide)) (ix2 p t)).trans (stE_v60 V p t)
theorem stF_arg2 (V : Valuation τ sig (Elt Ideal)) : stF V (Proc.devRef .tc main_arg2) = V (Proc.devRef .tc main_arg2) := (frameF (stE V) _ (by decide)).trans (stE_arg2 V)

end Cert.ReferenceIdeal.RefValue

end
-- ==== Proof.RefReadG.lean ====
/-
  The last stretch read back: from any contents it leaves in the result buffer the image — zero plus, at each cell,
  the sum of the contributions whose flat cell index names it — where contribution (p, t) is the point's value times
  the tap's normalised weight times the 0/1 flag, and its cell index the clamped row times 2048 plus the clamped column.
  The stretch is cut once more: nine operations compute the two [1048576, 25] arrays, seven flatten them, scatter them
  into the zero image and fold the image into its two axes.
-/
import proofs.«165584_j75892072120707_2_alg».proof.Proof.RefOut
import proofs.«165584_j75892072120707_2_alg».proof.Proof.LibAfterAppend
import proofs.«165584_j75892072120707_2_alg».proof.Proof.LibTypedRef
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws
import proofs.«165584_j75892072120707_2_alg».proof.Proof.LibBcastForms
set_option maxRecDepth 16384

noncomputable section

namespace Cert.ReferenceIdeal.RefValue

open Cert.ReferenceIdeal Cert.ReferenceIdeal.Gen Idealize.ShloMosaic Idealize.ShloMosaic.TcCoe Idealize.SL.Sem ValueIdx

/-- The flat cell indices, from the clamped rows and columns. -/
def cellsG (W : Valuation τ sig (Elt Ideal)) : S1048576x25.Idx → BitVec 32 :=
  fun k => IntOp.addi (IntOp.muli (W (Proc.devRef .tc main_v62) k) 2048#32) (W (Proc.devRef .tc main_v61) k)

/-- The flagged contributions, from the values, the normalised weights and the flags. -/
def tapsG (W : Valuation τ sig (Elt Ideal)) : S1048576x25.Idx → Ideal .f32 :=
  mulf (F := Ideal)
    (mulf (F := Ideal)
      (broadcastInDim S1048576x25 ![0, 1] bcast_S1048576x1_S1048576x25_0_1
        (broadcastInDim S1048576x1 ![0] bcast_S1048576_S1048576x1_0 (W (Proc.devRef .tc main_arg2))))
      (W (Proc.devRef .tc main_v49)))
    (uitofp (F := Ideal) .f32 (W (Proc.devRef .tc main_v60)))

/-- Contribution (p, t): the point's value times the weight times the flag. -/
theorem tapsG_at (W : Valuation τ sig (Elt Ideal)) (p : Fin 1048576) (t : Fin 25) :
    tapsG W (ix2 p t)
      = FloatOps.mulf (FloatOps.mulf (W (Proc.devRef .tc main_arg2) (ix1 p)) (W (Proc.devRef .tc main_v49) (ix2 p t)))
          (FloatOps.uitofp .f32 (W (Proc.devRef .tc main_v60) (ix2 p t))) :=
  congrArg₂ FloatOps.mulf (congrArg₂ FloatOps.mulf (Cert.Lib.Bcast.vec_col_mat _ _ _ p t) rfl) rfl

section
variable {F : FTy → Type} [FloatOps F]

/-- The stretch's first nine operations: the two arrays. -/
abbrev opsG1 : List (HloOp τ sig (Elt F)) :=
  [ StableHlo.unary main_arg2 main_v63 (broadcastInDim S1048576x1 ![0] bcast_S1048576_S1048576x1_0 : (⟨S1048576, .f32⟩ : BufTy).Contents (Elt F) → (⟨S1048576x1, .f32⟩ : BufTy).Contents (Elt F)),
    StableHlo.unary main_v63 main_v64 (broadcastInDim S1048576x25 ![0, 1] bcast_S1048576x1_S1048576x25_0_1 : (⟨S1048576x1, .f32⟩ : BufTy).Contents (Elt F) → (⟨S1048576x25, .f32⟩ : BufTy).Contents (Elt F)),
    StableHlo.binary main_v64 main_v49 main_v65 (mulf : (⟨S1048576x25, .f32⟩ : BufTy).Contents (Elt F) → (⟨S1048576x25, .f32⟩ : BufTy).Contents (Elt F) → (⟨S1048576x25, .f32⟩ : BufTy).Contents (Elt F)),
    StableHlo.unary main_v60 main_v66 (uitofp .f32 : (⟨S1048576x25, .i1⟩ : BufTy).Contents (Elt F) → (⟨S1048576x25, .f32⟩ : BufTy).Contents (Elt F)),
    StableHlo.binary main_v65 main_v66 main_v67 (mulf : (⟨S1048576x25, .f32⟩ : BufTy).Contents (Elt F) → (⟨S1048576x25, .f32⟩ : BufTy).Contents (Elt F) → (⟨S1048576x25, .f32⟩ : BufTy).Contents (Elt F)),
    StableHlo.nullary main_c_15 (constantI S_ 32 2048#32),
    StableHlo.unary main_c_15 main_v68 (broadcastInDim S1048576x25 ![] bcast_S_S1048576x25 : (⟨S_, .i32⟩ : BufTy).Contents (Elt F) → (⟨S1048576x25, .i32⟩ : BufTy).Contents (Elt F)),
    StableHlo.binary main_v62 main_v68 main_v69 (muli : (⟨S1048576x25, .i32⟩ : BufTy).Contents (Elt F) → (⟨S1048576x25, .i32⟩ : BufTy).Contents (Elt F) → (⟨S1048576x25, .i32⟩ : BufTy).Contents (Elt F)),
    StableHlo.binary main_v69 main_v61 main_v70 (addi : (⟨S1048576x25, .i32⟩ : BufTy).Contents (Elt F) → (⟨S1048576x25, .i32⟩ : BufTy).Contents (Elt F) → (⟨S1048576x25, .i32⟩ : BufTy).Contents (Elt F)) ]

/-- Its last seven: flattening, the zero image, the scatter and the image's two axes. -/
abbrev opsG2 : List (HloOp τ sig (Elt F)) :=
  [ StableHlo.reshape main_v70 main_v71 rfl shapeCasts_S1048576x25_S26214400,
    StableHlo.reshape main_v67 main_v72 rfl shapeCasts_S1048576x25_S26214400,
    StableHlo.nullary main_cst_16 (constant S_ .f32 0x00000000#32),
    StableHlo.unary main_cst_16 main_v73 (broadcastInDim S4194304 ![] bcast_S_S4194304 : (⟨S_, .f32⟩ : BufTy).Contents (Elt F) → (⟨S4194304, .f32⟩ : BufTy).Contents (Elt F)),
    StableHlo.unary main_v71 main_v74 (broadcastInDim S26214400x1 ![0] bcast_S26214400_S26214400x1_0 : (⟨S26214400, .i32⟩ : BufTy).Contents (Elt F) → (⟨S26214400x1, .i32⟩ : BufTy).Contents (Elt F)),
    StableHlo.ternary main_v73 main_v74 main_v72 main_v75 ((fun x i u => Host.scatterAdd scatter_S4194304_S26214400x1_S26214400_n_0_0_1 x i u) : (⟨S4194304, .f32⟩ : BufTy).Contents (Elt F) → (⟨S26214400x1, .i32⟩ : BufTy).Contents (Elt F) → (⟨S26214400, .f32⟩ : BufTy).Contents (Elt F) → (⟨S4194304, .f32⟩ : BufTy).Contents (Elt F)),
    StableHlo.reshape main_v75 main_v76 rfl shapeCasts_S4194304_S2048x2048 ]

theorem opsG_split : opsG (F := F) = opsG1 ++ opsG2 := rfl

end

theorem G1_v70 (W : Valuation τ sig (Elt Ideal)) :
    StableHlo.after (opsG1 (F := Ideal)) W (Proc.devRef .tc main_v70) = cellsG W := by
  after_results
  rfl

theorem G1_v67 (W : Valuation τ sig (Elt Ideal)) :
    StableHlo.after (opsG1 (F := Ideal)) W (Proc.devRef .tc main_v67) = tapsG W := by
  after_results
  rfl

/-- The last seven operations, on whatever the two arrays are. -/
theorem G2_v76 (W : Valuation τ sig (Elt Ideal)) :
    StableHlo.after (opsG2 (F := Ideal)) W (Proc.devRef .tc main_v76)
      = shapeCast S2048x2048
          (Host.scatterAdd (F := Ideal) scatter_S4194304_S26214400x1_S26214400_n_0_0_1
            (broadcastInDim S4194304 ![] bcast_S_S4194304 (constant (F := Ideal) S_ .f32 0x00000000#32))
            (broadcastInDim S26214400x1 ![0] bcast_S26214400_S26214400x1_0
              (shapeCast S26214400 (W (Proc.devRef .tc main_v70)) shapeCasts_S1048576x25_S26214400))
            (shapeCast S26214400 (W (Proc.devRef .tc main_v67)) shapeCasts_S1048576x25_S26214400))
          shapeCasts_S4194304_S2048x2048 := by
  after_results
  rfl

/-- The host's accumulating scatter on the extended reals is the exact one. -/
theorem scatterAdd_ideal {s si u : Shape} {w : Nat} (d : ScatterDims s si u) (x : FVec Ideal s .f32) (idx : IVec si w)
    (upd : FVec Ideal u .f32) : Host.scatterAdd (F := Ideal) d x idx upd = Ideal.hostScatterAdd d x idx upd := rfl

/-- The program's scatter dimension numbers are the specification's. -/
theorem scatter_eq : scatter_S4194304_S26214400x1_S26214400_n_0_0_1 = Cert.Splat.dS := rfl

/-- The broadcast scalar zero is the zero image. -/
theorem zero_img :
    broadcastInDim S4194304 ![] bcast_S_S4194304 (constant (F := Ideal) S_ .f32 0x00000000#32)
      = fun _ => FloatOps.ofBits (F := Ideal) .f32 0x00000000#32 := rfl

/-- The image the last stretch leaves. -/
theorem G_v76 (W : Valuation τ sig (Elt Ideal)) :
    StableHlo.after (opsG (F := Ideal)) W (Proc.devRef .tc main_v76)
      = shapeCast S2048x2048
          (Ideal.hostScatterAdd Cert.Splat.dS (fun _ => FloatOps.ofBits (F := Ideal) .f32 0x00000000#32)
            (broadcastInDim S26214400x1 ![0] Facts₀.bcast_S26214400_S26214400x1_0
              (shapeCast S26214400 (cellsG W) Facts₀.shapeCasts_S1048576x25_S26214400))
            (shapeCast S26214400 (tapsG W) Facts₀.shapeCasts_S1048576x25_S26214400))
          Facts₀.shapeCasts_S4194304_S2048x2048 := by
  rw [opsG_split, Cert.LibAfterAppend.after_append, G2_v76, G1_v70, G1_v67, scatterAdd_ideal, scatter_eq, zero_img]

end Cert.ReferenceIdeal.RefValue

end
-- ==== Proof.RefRead.lean ====
/-
  The reference's result read back: the fold of its operations over any buffer contents leaves in the result buffer the
  image refOut of the three argument arrays. The program is cut into its seven stretches; each is read on its own, and
  what one stretch leaves is what the next reads. After the sixth, tap t of point p holds its clamped pixel, its
  normalised weight and its flag, so the flat cell indices are cellsR and the flagged contributions tapsR, entry by
  entry; the last stretch scatters exactly these into the zero image.
-/
import proofs.«165584_j75892072120707_2_alg».proof.Proof.RefOut
import proofs.«165584_j75892072120707_2_alg».proof.Proof.LibAfterAppend
import proofs.«165584_j75892072120707_2_alg».proof.Proof.LibTypedRef
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws
import proofs.«165584_j75892072120707_2_alg».proof.Proof.RefReadS2
import proofs.«165584_j75892072120707_2_alg».proof.Proof.RefReadG
set_option maxRecDepth 16384

noncomputable section

namespace Cert.ReferenceIdeal.RefValue

open Cert.ReferenceIdeal Cert.ReferenceIdeal.Gen Idealize.ShloMosaic Idealize.ShloMosaic.TcCoe Idealize.SL.Sem ValueIdx

/-- The flat cell indices the last stretch scatters to are those of the specification. -/
theorem cells_eq (V : Valuation τ sig (Elt Ideal)) : cellsG (stF V) = cellsR (V (Proc.devRef .tc main_arg0)) (V (Proc.devRef .tc main_arg1)) := by
  funext k
  obtain ⟨p, t, rfl⟩ : ∃ (p : Fin 1048576) (t : Fin 25), k = ix2 p t := ⟨k 0, k 1, eq_ix2 k⟩
  exact congrArg₂ IntOp.addi (congrArg (fun b => IntOp.muli b 2048#32) (stF_v62 V p t)) (stF_v61 V p t)

/-- The contributions the last stretch scatters are those of the specification. -/
theorem taps_eq (V : Valuation τ sig (Elt Ideal)) : tapsG (stF V) = tapsR (V (Proc.devRef .tc main_arg0)) (V (Proc.devRef .tc main_arg1)) (V (Proc.devRef .tc main_arg2)) := by
  funext k
  obtain ⟨p, t, rfl⟩ : ∃ (p : Fin 1048576) (t : Fin 25), k = ix2 p t := ⟨k 0, k 1, eq_ix2 k⟩
  refine (tapsG_at (stF V) p t).trans ?_
  exact congrArg₂ FloatOps.mulf
    (congrArg₂ FloatOps.mulf (congrFun (stF_arg2 V) (ix1 p)) (stF_v49 V p t))
    (congrArg (FloatOps.uitofp .f32) (stF_v60 V p t))

/-- The whole program is its seven stretches run one after another. -/
theorem after_ops (V : Valuation τ sig (Elt Ideal)) :
    StableHlo.after (ops (F := Ideal)) V = StableHlo.after (opsG (F := Ideal)) (stF V) := by
  show StableHlo.after (opsA ++ opsB ++ opsC ++ opsD ++ opsE ++ opsF ++ opsG) V = _
  rw [Cert.LibAfterAppend.after_append, Cert.LibAfterAppend.after_append, Cert.LibAfterAppend.after_append,
    Cert.LibAfterAppend.after_append, Cert.LibAfterAppend.after_append, Cert.LibAfterAppend.after_append]
  rfl

/-- The result buffer holds the image of the three argument arrays. -/
theorem read_out (V : Valuation τ sig (Elt Ideal)) :
    StableHlo.after (ops (F := Ideal)) V (Proc.devRef .tc main_v76)
      = refOut (V (Proc.devRef .tc main_arg0)) (V (Proc.devRef .tc main_arg1)) (V (Proc.devRef .tc main_arg2)) := by
  rw [after_ops, G_v76, cells_eq, taps_eq]
  rfl

end Cert.ReferenceIdeal.RefValue

end
-- ==== Proof.RefReadArgs.lean ====
/-
  The reference leaves its three arguments as it found them. Every operation of its line writes exactly one buffer, its
  result, and no result buffer is an argument buffer; a buffer that no operation of a line writes holds after the line
  what it held before.
-/
import proofs.«165584_j75892072120707_2_alg».proof.Proof.RefOps
import Idealize.ShloMosaic.Lib.StableHlo.Run
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The three argument buffers: the points' two coordinates and their values. -/
abbrev argRefs : List (Ref sig .tc) := [main_arg0, main_arg1, main_arg2]

/-- An operation whose one written buffer is none of the arguments writes no argument (distinct references are
    distinct device buffers). -/
private theorem keeps {y : Ref sig .tc} (h : ∀ r ∈ argRefs, r ≠ y) :
    ∀ r ∈ argRefs, Proc.devRef (τ := τ) .tc r ∉ ({Proc.devRef .tc y} : Finset (DevRef τ sig)) :=
  fun r hr => by rw [Finset.mem_singleton]; exact devRef_ne_of_ne (h r hr)

/-- A property of every operation of two lists holds of every operation of their concatenation. -/
private theorem forall_append_of {α : Type} {p : α → Prop} {xs ys : List α} (hx : xs.Forall p) (hy : ys.Forall p) :
    (xs ++ ys).Forall p := List.forall_append.2 ⟨hx, hy⟩

/- Stretch by stretch, in the order of the operations: the buffer each writes is compared with the three arguments. -/
theorem opsA_keepsArgs : (opsA : List (HloOp τ sig (Elt F))).Forall fun op => ∀ r ∈ argRefs, Proc.devRef (τ := τ) .tc r ∉ op.writes :=
  ⟨keeps (by decide), keeps (by decide), keeps (by decide), keeps (by decide), keeps (by decide), keeps (by decide),
    keeps (by decide), keeps (by decide), keeps (by decide), keeps (by decide), keeps (by decide), keeps (by decide),
    keeps (by decide), keeps (by decide), keeps (by decide), keeps (by decide), keeps (by decide), keeps (by decide),
    keeps (by decide), keeps (by decide), keeps (by decide), keeps (by decide)⟩

theorem opsB_keepsArgs : (opsB : List (HloOp τ sig (Elt F))).Forall fun op => ∀ r ∈ argRefs, Proc.devRef (τ := τ) .tc r ∉ op.writes :=
  ⟨keeps (by decide), keeps (by decide), keeps (by decide), keeps (by decide), keeps (by decide), keeps (by decide),
    keeps (by decide), keeps (by decide), keeps (by decide), keeps (by decide)⟩

theorem opsC_keepsArgs : (opsC : List (HloOp τ sig (Elt F))).Forall fun op => ∀ r ∈ argRefs, Proc.devRef (τ := τ) .tc r ∉ op.writes :=
  ⟨keeps (by decide), keeps (by decide), keeps (by decide), keeps (by decide), keeps (by decide), keeps (by decide),
    keeps (by decide), keeps (by decide), keeps (by decide), keeps (by decide), keeps (by decide), keeps (by decide),
    keeps (by decide), keeps (by decide), keeps (by decide)⟩

theorem opsD_keepsArgs : (opsD : List (HloOp τ sig (Elt F))).Forall fun op => ∀ r ∈ argRefs, Proc.devRef (τ := τ) .tc r ∉ op.writes :=
  ⟨keeps (by decide), keeps (by decide), keeps (by decide), keeps (by decide), keeps (by decide), keeps (by decide),
    keeps (by decide), keeps (by decide), keeps (by decide), keeps (by decide), keeps (by decide), keeps (by decide)⟩

theorem opsE_keepsArgs : (opsE : List (HloOp τ sig (Elt F))).Forall fun op => ∀ r ∈ argRefs, Proc.devRef (τ := τ) .tc r ∉ op.writes :=
  ⟨keeps (by decide), keeps (by decide), keeps (by decide), keeps (by decide), keeps (by decide), keeps (by decide),
    keeps (by decide), keeps (by decide), keeps (by decide), keeps (by decide), keeps (by decide), keeps (by decide),
    keeps (by decide), keeps (by decide), keeps (by decide)⟩

theorem opsF_keepsArgs : (opsF : List (HloOp τ sig (Elt F))).Forall fun op => ∀ r ∈ argRefs, Proc.devRef (τ := τ) .tc r ∉ op.writes :=
  ⟨keeps (by decide), keeps (by decide), keeps (by decide), keeps (by decide), keeps (by decide), keeps (by decide),
    keeps (by decide), keeps (by decide), keeps (by decide), keeps (by decide), keeps (by decide), keeps (by decide),
    keeps (by decide), keeps (by decide), keeps (by decide), keeps (by decide)⟩

theorem opsG_keepsArgs : (opsG : List (HloOp τ sig (Elt F))).Forall fun op => ∀ r ∈ argRefs, Proc.devRef (τ := τ) .tc r ∉ op.writes :=
  ⟨keeps (by decide), keeps (by decide), keeps (by decide), keeps (by decide), keeps (by decide), keeps (by decide),
    keeps (by decide), keeps (by decide), keeps (by decide), keeps (by decide), keeps (by decide), keeps (by decide),
    keeps (by decide), keeps (by decide), keeps (by decide), keeps (by decide)⟩

/-- No operation of the line writes an argument. -/
theorem ops_keepsArgs : ∀ op ∈ (ops : List (HloOp τ sig (Elt F))), ∀ r ∈ argRefs, Proc.devRef (τ := τ) .tc r ∉ op.writes :=
  List.forall_iff_forall_mem.1
    (forall_append_of (forall_append_of (forall_append_of (forall_append_of (forall_append_of (forall_append_of
      opsA_keepsArgs opsB_keepsArgs) opsC_keepsArgs) opsD_keepsArgs) opsE_keepsArgs) opsF_keepsArgs) opsG_keepsArgs)

/-- After the line an argument buffer holds what it held before, for any float values. -/
theorem read_argRef (V : Valuation τ sig (Elt F)) {r : Ref sig .tc} (hr : r ∈ argRefs) :
    StableHlo.after (ops (F := F)) V (Proc.devRef .tc r) = V (Proc.devRef .tc r) :=
  after_of_forall_not_mem ops V fun op hop => ops_keepsArgs op hop r hr

theorem read_arg0 (V : Valuation τ sig (Elt Ideal)) :
    StableHlo.after (ops (F := Ideal)) V (Proc.devRef .tc main_arg0) = V (Proc.devRef .tc main_arg0) :=
  read_argRef V (by decide)
theorem read_arg1 (V : Valuation τ sig (Elt Ideal)) :
    StableHlo.after (ops (F := Ideal)) V (Proc.devRef .tc main_arg1) = V (Proc.devRef .tc main_arg1) :=
  read_argRef V (by decide)
theorem read_arg2 (V : Valuation τ sig (Elt Ideal)) :
    StableHlo.after (ops (F := Ideal)) V (Proc.devRef .tc main_arg2) = V (Proc.devRef .tc main_arg2) :=
  read_argRef V (by decide)

end Cert.ReferenceIdeal.RefValue

end
-- ==== Proof.Bridge.lean ====
/-
  The two images are one. Both programs end in the same accumulating scatter into the zero image; they differ in how the
  25 × 1048576 contributions are listed (tap by tap against point by point) and in how a tap outside the image is
  silenced (zero selected against multiplication by the 0/1 flag). Pair (t, p) carries the same cell index on both
  sides — the clamped pixel of tap t of point p — and the same value, since selecting zero is multiplying by the flag
  on every extended real; and the scatter, a sum per cell, does not see the order of the list.
-/
import proofs.«165584_j75892072120707_2_alg».proof.Proof.KernelTail
import proofs.«165584_j75892072120707_2_alg».proof.Proof.RefOut

noncomputable section

namespace Cert.Splat

open Idealize.ShloMosaic ValueIdx

/-- The image of the kernel's program is the image of the reference, as functions of the three argument arrays. -/
theorem kernOut_eq_refOut (x y v : Cert.KernelIdeal.S1048576.Idx → Ideal .f32) :
    Cert.KernelIdeal.KTail.kernOut x y v = Cert.ReferenceIdeal.RefValue.refOut x y v := by
  unfold Cert.KernelIdeal.KTail.kernOut Cert.ReferenceIdeal.RefValue.refOut
  exact congrArg (fun z => shapeCast Cert.ReferenceIdeal.S2048x2048 z Cert.ReferenceIdeal.Facts₀.shapeCasts_S4194304_S2048x2048)
    (scatter_relayout _ _ _ _ (Cert.KernelIdeal.KTail.cellsK x y) (Cert.KernelIdeal.KTail.tapsK x y v)
      (Cert.ReferenceIdeal.RefValue.cellsR x y) (Cert.ReferenceIdeal.RefValue.tapsR x y v)
      (fun _ _ => rfl) (fun t p => tapSel_eq_tapMul _ _ _ t))

end Cert.Splat

end
-- ==== Proof.lean ====
/-
  The certificate of a Gaussian splat: 1048576 points (x, y) with values v are spread, each over the 5 × 5 pixels around
  its base pixel with normalised Gaussian weights, into a 2048 × 2048 image, every tap added to its (clamped) pixel and
  taps outside the image silenced. The kernel's program computes the 25 × 1048576 contributions in one launch, listed
  tap by tap, with zero SELECTED outside the image, and the host lines after the launch rebuild the cell indices and
  scatter-add; the reference computes the same contributions listed point by point, MULTIPLIED by the 0/1 flag, and
  scatter-adds them.

  On the extended reals the two images are equal with no assumption on the inputs: pair (tap, point) carries the same
  cell index and the same value on both sides (selecting zero is multiplying by the flag, a · 1 = a and a · 0 = 0 for
  every extended real), and the accumulating scatter is, cell by cell, the initial zero plus the SUM of the
  contributions landing there, which does not depend on the order they are listed in (Relayout, Bridge).

  The three frames: the two kernel programs' are the generated ones; the reference, a straight line of host operations,
  runs as the fold of its operations (RefRun) and none of them writes an argument (RefReadArgs). The idealization
  rewrote nothing, so `preserves` asks nothing.
-/
import proofs.«165584_j75892072120707_2_alg».proof.Defs
import proofs.«165584_j75892072120707_2_alg».proof.Proof.Gen.Kernel
import proofs.«165584_j75892072120707_2_alg».proof.Proof.Gen.Kernel.Skeleton
import proofs.«165584_j75892072120707_2_alg».proof.Proof.Gen.Kernel.Launch
import proofs.«165584_j75892072120707_2_alg».proof.Proof.Gen.Kernel.Points
import proofs.«165584_j75892072120707_2_alg».proof.Proof.Gen.Kernel.Frame
import proofs.«165584_j75892072120707_2_alg».proof.Proof.Gen.KernelIdeal
import proofs.«165584_j75892072120707_2_alg».proof.Proof.Gen.KernelIdeal.Skeleton
import proofs.«165584_j75892072120707_2_alg».proof.Proof.Gen.KernelIdeal.Launch
import proofs.«165584_j75892072120707_2_alg».proof.Proof.Gen.KernelIdeal.Points
import proofs.«165584_j75892072120707_2_alg».proof.Proof.Gen.KernelIdeal.Frame
import proofs.«165584_j75892072120707_2_alg».proof.Proof.Gen.ReferenceIdeal
import proofs.«165584_j75892072120707_2_alg».proof.Proof.Gen.Pre_finite_inputs
import proofs.«165584_j75892072120707_2_alg».proof.Proof.KernelRun
import proofs.«165584_j75892072120707_2_alg».proof.Proof.RefRun
import proofs.«165584_j75892072120707_2_alg».proof.Proof.RefRead
import proofs.«165584_j75892072120707_2_alg».proof.Proof.RefReadArgs
import proofs.«165584_j75892072120707_2_alg».proof.Proof.Bridge
import Idealize.ShloMosaic.Adequacy
import Idealize.ShloMosaic.Init

set_option maxRecDepth 16384

noncomputable section

namespace Cert.Proof

open Idealize.ShloMosaic Idealize.SL.Sem

/-- The kernel's program as printed and as idealized: terminates, faults nowhere, keeps its arguments. -/
theorem frame_k : Cert.frame_Kernel := fun m ρ _ => Cert.Kernel.Gen.frame m ρ
theorem frame_ki : Cert.frame_KernelIdeal := fun m ρ _ => Cert.KernelIdeal.Gen.frame m ρ

/-- The reference: its run leaves every buffer at the fold of its operations, and the fold leaves the arguments alone. -/
theorem frame_ri : Cert.frame_ReferenceIdeal := fun m ρ _ =>
  (θ_run Cert.ReferenceIdeal.defs _ _).mono (fun _ h c =>
      ⟨(h c Cert.ReferenceIdeal.main_arg0).trans (Cert.ReferenceIdeal.RefValue.read_arg0 _),
       (h c Cert.ReferenceIdeal.main_arg1).trans (Cert.ReferenceIdeal.RefValue.read_arg1 _),
       (h c Cert.ReferenceIdeal.main_arg2).trans (Cert.ReferenceIdeal.RefValue.read_arg2 _)⟩)
    (Cert.ReferenceIdeal.RefValue.run_after m ρ)

/-- The idealization rewrote no operation. -/
theorem preserves : Cert.preserves_Kernel_KernelIdeal := trivial

/-- From memories agreeing on the arguments both programs end with the same image: the kernel's program at `kernOut` of
    its arguments, the reference at `refOut` of the same arrays, and the two are one function. -/
theorem algebraic : Cert.algebraic_KernelIdeal_ReferenceIdeal := by
  intro m ρ m' ρ' _ hagree
  refine ⟨fun c => Cert.KernelIdeal.KTail.kernOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KTail.run_k m ρ, ?_⟩
  refine (θ_run Cert.ReferenceIdeal.defs _ _).mono (fun _ h c =>
      ⟨(h c Cert.ReferenceIdeal.main_v76).trans ((Cert.ReferenceIdeal.RefValue.read_out _).trans ?_),
       (h c Cert.ReferenceIdeal.main_arg0).trans (Cert.ReferenceIdeal.RefValue.read_arg0 _),
       (h c Cert.ReferenceIdeal.main_arg1).trans (Cert.ReferenceIdeal.RefValue.read_arg1 _),
       (h c Cert.ReferenceIdeal.main_arg2).trans (Cert.ReferenceIdeal.RefValue.read_arg2 _)⟩)
    (Cert.ReferenceIdeal.RefValue.run_after m' ρ')
  have e0 : StableHlo.launchContents m' c (Proc.devRef .tc Cert.ReferenceIdeal.main_arg0)
      = m ((c.tc : Thread Cert.KernelIdeal.nD Cert.KernelIdeal.τ).loc Cert.KernelIdeal.main_arg0) := (hagree c).1
  have e1 : StableHlo.launchContents m' c (Proc.devRef .tc Cert.ReferenceIdeal.main_arg1)
      = m ((c.tc : Thread Cert.KernelIdeal.nD Cert.KernelIdeal.τ).loc Cert.KernelIdeal.main_arg1) := (hagree c).2.1
  have e2 : StableHlo.launchContents m' c (Proc.devRef .tc Cert.ReferenceIdeal.main_arg2)
      = m ((c.tc : Thread Cert.KernelIdeal.nD Cert.KernelIdeal.τ).loc Cert.KernelIdeal.main_arg2) := (hagree c).2.2
  rw [e0, e1, e2]
  exact (Cert.Splat.kernOut_eq_refOut _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
